-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S8192 : Shape := ⟨1, ![8192]⟩
abbrev S8192x8192 : Shape := ⟨2, ![8192, 8192]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x128 : S_.BroadcastsInDim S256x128 (![] : Fin 0 → Fin S256x128.rank)
  reducesTo_S256x128_S_d0_1 : S256x128.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : IVec S8192 32) (main_arg2 : IVec S8192 32) (main_v13 : IVec S_ 1) (main_v15 : IVec S8192 1) (main_c_5 : IVec S_ 32) : IVec S_ 1 :=
  let main_v16 : IVec S8192 32 := broadcastInDim S8192 ![] bcast_S_S8192 main_c_5
  let main_v17 : IVec S8192 1 := cmpi .sle main_arg1 main_v16
  let main_v18 : IVec S8192 1 := andi main_v15 main_v17
  let main_c_6 : IVec S_ 1 := constantI S_ 1 1#1
  let main_v19 : IVec S_ 1 := (fun x v => Host.reduce IntOp.andi x v reducesTo_S8192_S_d0 h_S_) main_v18 main_c_6
  let main_v20 : IVec S_ 1 := andi main_v13 main_v19
  let main_c_7 : IVec S_ 32 := constantI S_ 32 0#32
  let main_v21 : IVec S8192 32 := broadcastInDim S8192 ![] bcast_S_S8192 main_c_7
  let main_v22 : IVec S8192 1 := cmpi .sge main_arg2 main_v21
  let main_c_8 : IVec S_ 32 := constantI S_ 32 99999#32
  let main_v23 : IVec S8192 32 := broadcastInDim S8192 ![] bcast_S_S8192 main_c_8
  let main_v24 : IVec S8192 1 := cmpi .sle main_arg2 main_v23
  let main_v25 : IVec S8192 1 := andi main_v22 main_v24
  let main_c_9 : IVec S_ 1 := constantI S_ 1 1#1
  let main_v26 : IVec S_ 1 := (fun x v => Host.reduce IntOp.andi x v reducesTo_S8192_S_d0 h_S_) main_v25 main_c_9
  let main_v27 : IVec S_ 1 := andi main_v20 main_v26
  main_v27

def fn {F : FTy → Type} [FloatOps F] (main_arg0 : FVec F S100000x128 .f32) (main_arg1 : IVec S8192 32) (main_arg2 : IVec S8192 32) (main_arg3 : FVec F S8192x8192 .f32) (main_arg4 : FVec F S256x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S8192x8192 .f32 := Host.absf main_arg3
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_c_4 : IVec S_ 32 := constantI S_ 32 0#32
  let main_v14 : IVec S8192 32 := broadcastInDim S8192 ![] bcast_S_S8192 main_c_4
  let main_v15 : IVec S8192 1 := cmpi .sge main_arg1 main_v14
  let main_c_5 : IVec S_ 32 := constantI S_ 32 99999#32
  fn_part1 (F := F) main_arg1 main_arg2 main_v13 main_v15 main_c_5
-- ==== Kernel.lean ====
abbrev S100000x128 : Shape := ⟨2, ![100000, 128]⟩
abbrev S8192 : Shape := ⟨1, ![8192]⟩
abbrev S8192x8192 : Shape := ⟨2, ![8192, 8192]⟩
abbrev S256x128 : Shape := ⟨2, ![256, 128]⟩
abbrev S8192x128 : Shape := ⟨2, ![8192, 128]⟩
abbrev S256 : Shape := ⟨1, ![256]⟩
abbrev S_ : Shape := ⟨0, ![]⟩
abbrev S256x2048 : Shape := ⟨2, ![256, 2048]⟩
abbrev S2048x128 : Shape := ⟨2, ![2048, 128]⟩
abbrev S128x128 : Shape := ⟨2, ![128, 128]⟩

abbrev nBuf : Table → Nat
  | .hbm => 8
  | .local .tc .vmem => 14
  | .local .scVector .vmem => 4
  | _ => 0

abbrev bufTy : (tb : Table) → Fin (nBuf tb) → BufTy
  | .hbm, ⟨0, _⟩ => ⟨S100000x128, .f32⟩
  | .hbm, ⟨1, _⟩ => ⟨S8192, .i32⟩
  | .hbm, ⟨2, _⟩ => ⟨S8192, .i32⟩
  | .hbm, ⟨3, _⟩ => ⟨S8192x8192, .f32⟩
  | .hbm, ⟨4, _⟩ => ⟨S256x128, .f32⟩
  | .hbm, ⟨5, _⟩ => ⟨S8192x128, .f32⟩
  | .hbm, ⟨6, _⟩ => ⟨S8192x128, .f32⟩
  | .hbm, ⟨7, _⟩ => ⟨S8192x128, .f32⟩
  | .local .tc .vmem, ⟨0, _⟩ => ⟨S256x2048, .f32⟩
  | .local .tc .vmem, ⟨1, _⟩ => ⟨S256x2048, .f32⟩
  | .local .tc .vmem, ⟨2, _⟩ => ⟨S256x2048, .f32⟩
  | .local .tc .vmem, ⟨3, _⟩ => ⟨S256x2048, .f32⟩
  | .local .tc .vmem, ⟨4, _⟩ => ⟨S256x2048, .f32⟩
  | .local .tc .vmem, ⟨5, _⟩ => ⟨S256x2048, .f32⟩
  | .local .tc .vmem, ⟨6, _⟩ => ⟨S256x2048, .f32⟩
  | .local .tc .vmem, ⟨7, _⟩ => ⟨S256x2048, .f32⟩
  | .local .tc .vmem, ⟨8, _⟩ => ⟨S8192x128, .f32⟩
  | .local .tc .vmem, ⟨9, _⟩ => ⟨S256x128, .f32⟩
  | .local .tc .vmem, ⟨10, _⟩ => ⟨S256x128, .f32⟩
  | .local .tc .vmem, ⟨11, _⟩ => ⟨S256x128, .f32⟩
  | .local .tc .vmem, ⟨12, _⟩ => ⟨S256x128, .f32⟩
  | .local .tc .vmem, ⟨13, _⟩ => ⟨S256x128, .f32⟩
  | .local .scVector .vmem, ⟨0, _⟩ => ⟨S256, .i32⟩
  | .local .scVector .vmem, ⟨1, _⟩ => ⟨S256, .i32⟩
  | .local .scVector .vmem, ⟨2, _⟩ => ⟨S256x128, .f32⟩
  | .local .scVector .vmem, ⟨3, _⟩ => ⟨S256x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_0_scv : Ref sig .scVector := ⟨.hbm, 5, rfl⟩
abbrev main_v0_1_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg7_1 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem7_0 : DmaSem sig := 18
abbrev cc1_sem7_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_5 : BitVec 32 := 0#32
  ![v2.toNat, 0]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_3 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8192x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100000x128_S100000x128_0_0 : ∀ a, (![0, 0] : Fin 2 → Nat) a + S100000x128.size a ≤ S100000x128.size a
  gathers_S100000x128_S256x128 : S100000x128.Gathers 0 S256x128
  inb_S256x2048_S256x2048_0_0 : ∀ a, (![0, 0] : Fin 2 → Nat) a + S256x2048.size a ≤ S256x2048.size a
  h_S256x2048 : 0 < S256x2048.numel
  inb_S8192x128_S2048x128_0_0 : ∀ a, (![0, 0] : Fin 2 → Nat) a + S2048x128.size a ≤ S8192x128.size a
  h_S2048x128 : 0 < S2048x128.numel
  shapeCasts_S2048x128_S2048x128 : S2048x128.ShapeCasts S2048x128
  inb_S8192x128_S2048x128_2048_0 : ∀ a, (![2048, 0] : Fin 2 → Nat) a + S2048x128.size a ≤ S8192x128.size a
  inb_S8192x128_S2048x128_4096_0 : ∀ a, (![4096, 0] : Fin 2 → Nat) a + S2048x128.size a ≤ S8192x128.size a
  inb_S8192x128_S2048x128_6144_0 : ∀ a, (![6144, 0] : Fin 2 → Nat) a + S2048x128.size a ≤ S8192x128.size a
  inb_S256x128_S128x128_0_0 : ∀ a, (![0, 0] : Fin 2 → Nat) a + S128x128.size a ≤ S256x128.size a
  h_S128x128 : 0 < S128x128.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x128_S128x128_128_0 : ∀ a, (![128, 0] : Fin 2 → Nat) a + S128x128.size a ≤ S256x128.size a
  dot_S256x2048_S2048x128_S256x128_1_0_0_1_n_n_wf : DotDims.WF S256x2048 S2048x128 S256x128 [1] [0] [0] [1] [] []
  dot_S256x128_S128x128_S256x128_1_0_0_1_n_n_wf : DotDims.WF S256x128 S128x128 S256x128 [1] [0] [0] [1] [] []
  hcc0_scratch4 : 0 + S_.numel ≤ 20
  hcc0_scratch5 : 1 + S_.numel ≤ 20
  hcc0_scratch6 : 2 + S_.numel ≤ 20
  hcc0_scratch7 : 3 + S_.numel ≤ 20
  hcc0_scratch8 : 4 + S_.numel ≤ 20
  hcc0_scratch9 : 5 + S_.numel ≤ 20
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S256.size a ≤ S8192.size a
  k0_off2_inb : ∀ i : grid0.Coords, ∀ a, (k0_off2 i) a + S256x128.size a ≤ S8192x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x8192.size a
  hwx1_0 : ∀ i : grid1.Coords, EltTy.bits .f32 = 32 ∨ (Rect.block (s := S8192x8192) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S8192x8192.size a
  hwx1_1 : ∀ i : grid1.Coords, EltTy.bits .f32 = 32 ∨ (Rect.block (s := S8192x8192) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S8192x8192.size a
  hwx1_2 : ∀ i : grid1.Coords, EltTy.bits .f32 = 32 ∨ (Rect.block (s := S8192x8192) S256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S8192x8192.size a
  hwx1_3 : ∀ i : grid1.Coords, EltTy.bits .f32 = 32 ∨ (Rect.block (s := S8192x8192) S256x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8192x128.size a ≤ S8192x128.size a
  hwx1_4 : ∀ i : grid1.Coords, EltTy.bits .f32 = 32 ∨ (Rect.block (s := S8192x128) S8192x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S8192x128.size a
  hwx1_5 : ∀ i : grid1.Coords, EltTy.bits .f32 = 32 ∨ (Rect.block (s := S8192x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S256x128.size a
  hwx1_6 : ∀ i : grid1.Coords, EltTy.bits .f32 = 32 ∨ (Rect.block (s := S256x128) S256x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S8192x128.size a
  hwx1_7 : ∀ i : grid1.Coords, EltTy.bits .f32 = 32 ∨ (Rect.block (s := S8192x128) S256x128.size (cc1_transform_7 i) (hinb1_7 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win1_0 : Pipeline.Window sig grid1 :=
  Pipeline.Window.ofSpec (Memref.whole main_arg3) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_0) S8192x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0_1) S256x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S256x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S256x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S8192 : Shape := ⟨1, ![8192]⟩
abbrev S8192x8192 : Shape := ⟨2, ![8192, 8192]⟩
abbrev S256x128 : Shape := ⟨2, ![256, 128]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x128 : Shape := ⟨2, ![8192, 128]⟩
abbrev S8192x256 : Shape := ⟨2, ![8192, 256]⟩

abbrev nBuf : Space → Nat
  | .hbm => 57
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S8192, .i32⟩
  | .hbm, ⟨2, _⟩ => ⟨S8192, .i32⟩
  | .hbm, ⟨3, _⟩ => ⟨S8192x8192, .f32⟩
  | .hbm, ⟨4, _⟩ => ⟨S256x128, .f32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S1, .i32⟩
  | .hbm, ⟨14, _⟩ => ⟨S_, .i32⟩
  | .hbm, ⟨15, _⟩ => ⟨S8192x1, .i32⟩
  | .hbm, ⟨16, _⟩ => ⟨S8192x1, .i1⟩
  | .hbm, ⟨17, _⟩ => ⟨S1x1, .i32⟩
  | .hbm, ⟨18, _⟩ => ⟨S8192x1, .i32⟩
  | .hbm, ⟨19, _⟩ => ⟨S8192x1, .i1⟩
  | .hbm, ⟨20, _⟩ => ⟨S8192x1, .i1⟩
  | .hbm, ⟨21, _⟩ => ⟨S_, .i1⟩
  | .hbm, ⟨22, _⟩ => ⟨S8192, .i1⟩
  | .hbm, ⟨23, _⟩ => ⟨S8192x128, .f32⟩
  | .hbm, ⟨24, _⟩ => ⟨S8192x128, .i1⟩
  | .hbm, ⟨25, _⟩ => ⟨S_, .f32⟩
  | .hbm, ⟨26, _⟩ => ⟨S8192x128, .f32⟩
  | .hbm, ⟨27, _⟩ => ⟨S8192x128, .f32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S1, .i32⟩
  | .hbm, ⟨37, _⟩ => ⟨S_, .i32⟩
  | .hbm, ⟨38, _⟩ => ⟨S8192x1, .i32⟩
  | .hbm, ⟨39, _⟩ => ⟨S8192x1, .i1⟩
  | .hbm, ⟨40, _⟩ => ⟨S1x1, .i32⟩
  | .hbm, ⟨41, _⟩ => ⟨S8192x1, .i32⟩
  | .hbm, ⟨42, _⟩ => ⟨S8192x1, .i1⟩
  | .hbm, ⟨43, _⟩ => ⟨S8192x1, .i1⟩
  | .hbm, ⟨44, _⟩ => ⟨S_, .i1⟩
  | .hbm, ⟨45, _⟩ => ⟨S8192, .i1⟩
  | .hbm, ⟨46, _⟩ => ⟨S8192x128, .f32⟩
  | .hbm, ⟨47, _⟩ => ⟨S8192x128, .i1⟩
  | .hbm, ⟨48, _⟩ => ⟨S_, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S8192x256, .f32⟩
  | .hbm, ⟨53, _⟩ => ⟨S8192x128, .f32⟩
  | .hbm, ⟨54, _⟩ => ⟨S_, .f32⟩
  | .hbm, ⟨55, _⟩ => ⟨S8192x128, .f32⟩
  | .hbm, ⟨56, _⟩ => ⟨S8192x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_call2_cst : Ref sig .tc := ⟨.hbm, 54, rfl⟩
abbrev main_call2_v0 : Ref sig .tc := ⟨.hbm, 55, rfl⟩
abbrev main_v5 : Ref sig .tc := ⟨.hbm, 56, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x128_0 : S8192.BroadcastsInDim S8192x128 (![0] : Fin 1 → Fin S8192x128.rank)
  bcast_S_S8192x128 : S_.BroadcastsInDim S8192x128 (![] : Fin 0 → Fin S8192x128.rank)
  concatenates_S8192x128_S8192x128_S8192x256_d1 : Shape.Concatenates [S8192x128, S8192x128] S8192x256 1
  gather_S100000x128_S8192x1_S8192x128_1_0_n_n_0_1_1128_wf : GatherDims.WF S100000x128 S8192x1 S8192x128 [1] [0] [] [0] [] 1 ![1, 128]
  dot_S8192x8192_S8192x128_S8192x128_1_0_0_1_n_n_wf : DotDims.WF S8192x8192 S8192x128 S8192x128 [1] [0] [0] [1] [] []
  dot_S8192x256_S256x128_S8192x128_1_0_0_1_n_n_wf : DotDims.WF S8192x256 S256x128 S8192x128 [1] [0] [0] [1] [] []

variable [Facts₀]

def gather_S100000x128_S8192x1_S8192x128_1_0_n_n_0_1_1128 : GatherDims S100000x128 S8192x1 S8192x128 where
  offsetDims := [1]
  collapsedSliceDims := [0]
  operandBatchingDims := []
  startIndicesBatchingDims := []
  startIndexMap := [0]
  indexVectorDim := 1
  sliceSizes := ![1, 128]
  wf := gather_S100000x128_S8192x1_S8192x128_1_0_n_n_0_1_1128_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

class Facts : Prop extends Facts₀ where

variable [Facts]
-- ==== Proof.PreFacts.lean ====
/-
  The index ranges out of the precondition.

  The precondition is a conjunction of five "all entries satisfy" tests, folded left to right: three say the float
  arrays are finite, the fourth says every word of the first index list lies in [0, 99999] read signed, the fifth
  says the same of the second index list.  Only the last two are opened here.  A word that is at least 0 and at most
  99999 as a signed integer has its sign bit clear, so its unsigned value is its signed value, which is below 100000.
-/
import proofs.«215100_g16758962389080_cont_week2b_1182_23_alg».proof.Pre_input_domain
import Idealize.ShloMosaic.Lib.ReduceAll
import Idealize.ShloMosaic.Lib.ValueIdx

namespace Cert.PreFacts

open Idealize.ShloMosaic Idealize.ShloMosaic.ValueIdx
open Cert.Pre_input_domain

/-- The scalar shape has one index. -/
instance subsingleton_scalar_idx : Subsingleton S_.Idx := ⟨fun a b => funext fun d => d.elim0⟩

/-- A 32-bit word in [0, 99999] read signed is below 100000 read unsigned. -/
theorem toNat_lt_of_signed_range (v : BitVec 32) (h0 : IntOp.cmpi .sge v 0#32 = 1#1)
    (h1 : IntOp.cmpi .sle v 99999#32 = 1#1) : v.toNat < 100000 := by
  rw [IntOp.cmpi_sge] at h0
  rw [IntOp.cmpi_sle] at h1
  have e0 : (0#32 : BitVec 32).toInt = 0 := by decide
  have e1 : (99999#32 : BitVec 32).toInt = 99999 := by decide
  rw [e0] at h0
  rw [e1] at h1
  have hlt := v.isLt
  unfold BitVec.toInt at h0 h1
  split at h0 <;> omega

/-- One "all entries in [0, 99999]" test that came out true bounds every word of the list. -/
theorem all_in_range [Facts] (a : IVec S8192 32) (c0 c1 : IVec S_ 32) (init : IVec S_ 1)
    (hc0 : c0 = constantI S_ 32 0#32) (hc1 : c1 = constantI S_ 32 99999#32)
    (h : Host.reduce IntOp.andi
          (andi (cmpi .sge a (broadcastInDim S8192 ![] Facts.bcast_S_S8192 c0))
                (cmpi .sle a (broadcastInDim S8192 ![] Facts.bcast_S_S8192 c1)))
          init Facts.reducesTo_S8192_S_d0 Facts.h_S_ ix0 = 1#1)
    (r : Fin 8192) : (a (ix1 r)).toNat < 100000 := by
  subst hc0 hc1
  have e := Host.reduce_andi_all _ init Facts.reducesTo_S8192_S_d0 Facts.h_S_ ix0 h (ix1 r)
  obtain ⟨e0, e1⟩ := IntOp.andi_eq_one.1 e
  exact toNat_lt_of_signed_range _ e0 e1

/-- Under the precondition every word of either index list names a row of the table. -/
theorem idx_lt_of_pre {F : FTy → Type} [FloatOps F] [Cert.Pre_input_domain.Facts]
    (a0 : FVec F Cert.Pre_input_domain.S100000x128 .f32) (a1 a2 : IVec Cert.Pre_input_domain.S8192 32)
    (a3 : FVec F Cert.Pre_input_domain.S8192x8192 .f32) (a4 : FVec F Cert.Pre_input_domain.S256x128 .f32)
    (h : Cert.Pre_input_domain.fn (F := F) a0 a1 a2 a3 a4 = fun _ => 1#1) :
    (∀ r : Fin 8192, (a1 (Idealize.ShloMosaic.ValueIdx.ix1 r)).toNat < 100000) ∧ (∀ r : Fin 8192, (a2 (Idealize.ShloMosaic.ValueIdx.ix1 r)).toNat < 100000) := by
  have e := congrFun h ix0
  dsimp only [fn, fn_part1] at e
  obtain ⟨e20, e26⟩ := IntOp.andi_eq_one.1 e
  obtain ⟨-, e19⟩ := IntOp.andi_eq_one.1 e20
  exact ⟨fun r => all_in_range a1 _ _ _ rfl rfl e19 r, fun r => all_in_range a2 _ _ _ rfl rfl e26 r⟩

end Cert.PreFacts
-- ==== Proof.RefRun.lean ====
/-
  The reference program as a straight line of operations, and the value its run leaves in the result.

  The program takes rows of the feature table twice (first by the third argument, then by the second), multiplies the
  mixing matrix by the rows taken second, puts that product and the rows taken first side by side, multiplies by the
  weights, and clips below at zero.  Each "take" is the same twenty-three operations: a negative index word is moved
  up by the number of rows, the word is tested against [0, 99999], the row it names is gathered, and a row whose test
  failed is replaced by a not-a-number word.  Written out in order the whole program is fifty-two operations, each
  writing one buffer of its own; the contents of the result buffer after the last one is then a composition of the
  operations' functions applied to the five arguments' contents at launch, and no argument buffer is ever written.
-/
import proofs.«215100_g16758962389080_cont_week2b_1182_23_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The value, as a term -/

/-- An index word with a negative value moved up by the number of rows; any other word unchanged. -/
def wrapTerm (idx : IVec S8192 32) : IVec S8192 32 :=
  select (cmpi .slt idx (broadcastInDim S8192 ![] bcast_S_S8192 (constantI S_ 32 0#32)))
    (addi idx (broadcastInDim S8192 ![] bcast_S_S8192 (constantI S_ 32 100000#32))) idx

/-- The moved words as a column: one start index per taken row. -/
def colTerm (idx : IVec S8192 32) : IVec S8192x1 32 :=
  broadcastInDim S8192x1 ![0] bcast_S8192_S8192x1_0 (wrapTerm idx)

/-- Per taken row, whether its start index lies in [0, 99999]. -/
def validTerm (idx : IVec S8192 32) : IVec S8192 1 :=
  Host.reduce IntOp.andi
    (andi (cmpi .sge (colTerm idx) (broadcastInDim S8192x1 ![] bcast_S_S8192x1 (constantI S_ 32 0#32)))
          (cmpi .sle (colTerm idx) (broadcastInDim S8192x1 ![0, 1] bcast_S1x1_S8192x1_0_1
            (broadcastInDim S1x1 ![1] bcast_S1_S1x1_1 (constantI S1 32 99999#32)))))
    (constantI S_ 1 1#1) reducesTo_S8192x1_S8192_d1 h_S_

/-- The rows of the table named by an index list: the gathered row where the index is valid, a not-a-number word elsewhere. -/
def takeTerm (f : FVec F S100000x128 .f32) (idx : IVec S8192 32) : FVec F S8192x128 .f32 :=
  select (broadcastInDim S8192x128 ![0] bcast_S8192_S8192x128_0 (validTerm idx))
    (Host.gather gather_S100000x128_S8192x1_S8192x128_1_0_n_n_0_1_1128 f (colTerm idx))
    (broadcastInDim S8192x128 ![] bcast_S_S8192x128 (constant S_ .f32 0x7FC00000#32))

/-- The larger of an entry and zero, entry by entry. -/
def reluTerm (x : FVec F S8192x128 .f32) : FVec F S8192x128 .f32 :=
  maximumf x (broadcastInDim S8192x128 ![] bcast_S_S8192x128 (constant S_ .f32 0x00000000#32))

/-- The result as a term of the five arguments. -/
def refTerm (a0 : FVec F S100000x128 .f32) (a1 a2 : IVec S8192 32) (a3 : FVec F S8192x8192 .f32) (a4 : FVec F S256x128 .f32) :
    FVec F S8192x128 .f32 :=
  reluTerm
    (Host.dotGeneral dot_S8192x256_S256x128_S8192x128_1_0_0_1_n_n none
      (concatenate S8192x256 1
        [⟨S8192x128, Host.dotGeneral dot_S8192x8192_S8192x128_S8192x128_1_0_0_1_n_n none a3 (takeTerm a0 a1)⟩, ⟨S8192x128, takeTerm a0 a2⟩]
        concatenates_S8192x128_S8192x128_S8192x256_d1)
      a4)

/-! ## The program as a list of operations -/

/-- The fifty-two operations in order: the first take's twenty-three (by the third argument), the second take's
    twenty-three (by the second argument), the two products with the side-by-side placement between them, and the
    three of the clip at zero. -/
abbrev ops : List (HloOp τ sig (Elt F)) :=
  [ TRef.nullary main_call0.c (constantI S_ 32 0#32),
    TRef.unary main_call0.c main_call0.v0 (broadcastInDim S8192 ![] bcast_S_S8192),
    TRef.binary (.of main_arg2) main_call0.v0 main_call0.v1 (cmpi .slt),
    TRef.nullary main_call0.c_0 (constantI S_ 32 100000#32),
    TRef.unary main_call0.c_0 main_call0.v2 (broadcastInDim S8192 ![] bcast_S_S8192),
    TRef.binary (.of main_arg2) main_call0.v2 main_call0.v3 addi,
    TRef.ternary main_call0.v1 main_call0.v3 (.of main_arg2) main_call0.call0.v0 select,
    TRef.unary main_call0.call0.v0 main_call0.v5 (broadcastInDim S8192x1 ![0] bcast_S8192_S8192x1_0),
    TRef.nullary main_call0.c_1 (constantI S1 32 99999#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg0) main_call0.v5 main_call0.v13 (fun x i => Host.gather gather_S100000x128_S8192x1_S8192x128_1_0_n_n_0_1_1128 x i),
    TRef.unary main_call0.v12 main_call0.v14 (broadcastInDim S8192x128 ![0] bcast_S8192_S8192x128_0),
    TRef.nullary main_call0.cst (constant S_ .f32 0x7FC00000#32),
    TRef.unary main_call0.cst main_call0.v15 (broadcastInDim S8192x128 ![] bcast_S_S8192x128),
    TRef.ternary main_call0.v14 main_call0.v13 main_call0.v15 main_call0.v16 select,
    TRef.nullary main_call1.c (constantI S_ 32 0#32),
    TRef.unary main_call1.c main_call1.v0 (broadcastInDim S8192 ![] bcast_S_S8192),
    TRef.binary (.of main_arg1) main_call1.v0 main_call1.v1 (cmpi .slt),
    TRef.nullary main_call1.c_0 (constantI S_ 32 100000#32),
    TRef.unary main_call1.c_0 main_call1.v2 (broadcastInDim S8192 ![] bcast_S_S8192),
    TRef.binary (.of main_arg1) main_call1.v2 main_call1.v3 addi,
    TRef.ternary main_call1.v1 main_call1.v3 (.of main_arg1) main_call1.call0.v0 select,
    TRef.unary main_call1.call0.v0 main_call1.v5 (broadcastInDim S8192x1 ![0] bcast_S8192_S8192x1_0),
    TRef.nullary main_call1.c_1 (constantI S1 32 99999#32),
    TRef.nullary main_call1.c_2 (constantI S_ 32 0#32),
    TRef.unary main_call1.c_2 main_call1.v6 (broadcastInDim S8192x1 ![] bcast_S_S8192x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S8192x1 ![0, 1] bcast_S1x1_S8192x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8192x1_S8192_d1 h_S_),
    TRef.binary (.of main_arg0) main_call1.v5 main_call1.v13 (fun x i => Host.gather gather_S100000x128_S8192x1_S8192x128_1_0_n_n_0_1_1128 x i),
    TRef.unary main_call1.v12 main_call1.v14 (broadcastInDim S8192x128 ![0] bcast_S8192_S8192x128_0),
    TRef.nullary main_call1.cst (constant S_ .f32 0x7FC00000#32),
    TRef.unary main_call1.cst main_call1.v15 (broadcastInDim S8192x128 ![] bcast_S_S8192x128),
    TRef.ternary main_call1.v14 main_call1.v13 main_call1.v15 main_call1.v16 select,
    binary main_arg3 main_v1 main_v2 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_v2 main_v0 main_v3 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    binary main_v3 main_arg4 main_v4 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    TRef.nullary main_call2.cst (constant S_ .f32 0x00000000#32),
    TRef.unary main_call2.cst main_call2.v0 (broadcastInDim S8192x128 ![] bcast_S_S8192x128),
    TRef.binary (.of main_v4) main_call2.v0 main_call2.v1 maximumf ]

set_option maxRecDepth 2048 in
/-- The program is that straight line: the called functions' bodies put in place of the calls, and the sequencing
    re-associated. -/
theorem main_eq (c : Dev nD) : main (F := F) c = seq ops := by
  simp only [main, fn_take.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., binary_bufs_sub .., nullary_bufs_sub .., unary_bufs_sub .., binary_bufs_sub ..⟩

/-! ## The run -/

/-- The contents after one line of operations followed by another is the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first forty-seven operations: the two takes and the product of the mixing matrix with the rows taken second. -/
abbrev opsA : List (HloOp τ sig (Elt F)) :=
  [ TRef.nullary main_call0.c (constantI S_ 32 0#32),
    TRef.unary main_call0.c main_call0.v0 (broadcastInDim S8192 ![] bcast_S_S8192),
    TRef.binary (.of main_arg2) main_call0.v0 main_call0.v1 (cmpi .slt),
    TRef.nullary main_call0.c_0 (constantI S_ 32 100000#32),
    TRef.unary main_call0.c_0 main_call0.v2 (broadcastInDim S8192 ![] bcast_S_S8192),
    TRef.binary (.of main_arg2) main_call0.v2 main_call0.v3 addi,
    TRef.ternary main_call0.v1 main_call0.v3 (.of main_arg2) main_call0.call0.v0 select,
    TRef.unary main_call0.call0.v0 main_call0.v5 (broadcastInDim S8192x1 ![0] bcast_S8192_S8192x1_0),
    TRef.nullary main_call0.c_1 (constantI S1 32 99999#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg0) main_call0.v5 main_call0.v13 (fun x i => Host.gather gather_S100000x128_S8192x1_S8192x128_1_0_n_n_0_1_1128 x i),
    TRef.unary main_call0.v12 main_call0.v14 (broadcastInDim S8192x128 ![0] bcast_S8192_S8192x128_0),
    TRef.nullary main_call0.cst (constant S_ .f32 0x7FC00000#32),
    TRef.unary main_call0.cst main_call0.v15 (broadcastInDim S8192x128 ![] bcast_S_S8192x128),
    TRef.ternary main_call0.v14 main_call0.v13 main_call0.v15 main_call0.v16 select,
    TRef.nullary main_call1.c (constantI S_ 32 0#32),
    TRef.unary main_call1.c main_call1.v0 (broadcastInDim S8192 ![] bcast_S_S8192),
    TRef.binary (.of main_arg1) main_call1.v0 main_call1.v1 (cmpi .slt),
    TRef.nullary main_call1.c_0 (constantI S_ 32 100000#32),
    TRef.unary main_call1.c_0 main_call1.v2 (broadcastInDim S8192 ![] bcast_S_S8192),
    TRef.binary (.of main_arg1) main_call1.v2 main_call1.v3 addi,
    TRef.ternary main_call1.v1 main_call1.v3 (.of main_arg1) main_call1.call0.v0 select,
    TRef.unary main_call1.call0.v0 main_call1.v5 (broadcastInDim S8192x1 ![0] bcast_S8192_S8192x1_0),
    TRef.nullary main_call1.c_1 (constantI S1 32 99999#32),
    TRef.nullary main_call1.c_2 (constantI S_ 32 0#32),
    TRef.unary main_call1.c_2 main_call1.v6 (broadcastInDim S8192x1 ![] bcast_S_S8192x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S8192x1 ![0, 1] bcast_S1x1_S8192x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8192x1_S8192_d1 h_S_),
    TRef.binary (.of main_arg0) main_call1.v5 main_call1.v13 (fun x i => Host.gather gather_S100000x128_S8192x1_S8192x128_1_0_n_n_0_1_1128 x i),
    TRef.unary main_call1.v12 main_call1.v14 (broadcastInDim S8192x128 ![0] bcast_S8192_S8192x128_0),
    TRef.nullary main_call1.cst (constant S_ .f32 0x7FC00000#32),
    TRef.unary main_call1.cst main_call1.v15 (broadcastInDim S8192x128 ![] bcast_S_S8192x128),
    TRef.ternary main_call1.v14 main_call1.v13 main_call1.v15 main_call1.v16 select,
    binary main_arg3 main_v1 main_v2 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)) ]

/-- The last five: the side-by-side placement, the product with the weights, and the three of the clip at zero. -/
abbrev opsB : List (HloOp τ sig (Elt F)) :=
  [ binary main_v2 main_v0 main_v3 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    binary main_v3 main_arg4 main_v4 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    TRef.nullary main_call2.cst (constant S_ .f32 0x00000000#32),
    TRef.unary main_call2.cst main_call2.v0 (broadcastInDim S8192x128 ![] bcast_S_S8192x128),
    TRef.binary (.of main_v4) main_call2.v0 main_call2.v1 maximumf ]

theorem ops_split : (ops : List (HloOp τ sig (Elt F))) = opsA ++ opsB := rfl

attribute [local irreducible] Host.reduce Host.gather in
set_option maxRecDepth 8192 in
set_option maxHeartbeats 800000 in
/-- After the first forty-seven operations the first product's buffer holds the mixing matrix times the rows taken by
    the second argument. -/
theorem v2A_eq (V : Valuation τ sig (Elt F)) :
    after opsA V (Proc.devRef .tc main_v2)
      = Host.dotGeneral dot_S8192x8192_S8192x128_S8192x128_1_0_0_1_n_n none (V (Proc.devRef .tc main_arg3))
          (takeTerm (V (Proc.devRef .tc main_arg0)) (V (Proc.devRef .tc main_arg1))) := by
  after_results_simp
  rfl

attribute [local irreducible] Host.reduce Host.gather in
set_option maxRecDepth 8192 in
set_option maxHeartbeats 800000 in
/-- … and the first take's buffer holds the rows taken by the third argument. -/
theorem v0A_eq (V : Valuation τ sig (Elt F)) :
    after opsA V (Proc.devRef .tc main_v0)
      = takeTerm (V (Proc.devRef .tc main_arg0)) (V (Proc.devRef .tc main_arg2)) := by
  after_results_simp
  rfl

set_option maxRecDepth 8192 in
/-- … and the weights are as they were. -/
theorem a4A_eq (V : Valuation τ sig (Elt F)) :
    after opsA V (Proc.devRef .tc main_arg4) = V (Proc.devRef .tc main_arg4) := by
  after_results_simp

attribute [local irreducible] concatenate in
set_option maxRecDepth 8192 in
/-- The last five operations, from any contents: the result is the clip of the product of the two blocks placed side
    by side with the weights. -/
theorem outB_eq (W : Valuation τ sig (Elt F)) :
    after opsB W (Proc.devRef .tc main_v5)
      = reluTerm (Host.dotGeneral dot_S8192x256_S256x128_S8192x128_1_0_0_1_n_n none
          (concatenate S8192x256 1
            [⟨S8192x128, W (Proc.devRef .tc main_v2)⟩, ⟨S8192x128, W (Proc.devRef .tc main_v0)⟩]
            concatenates_S8192x128_S8192x128_S8192x256_d1)
          (W (Proc.devRef .tc main_arg4))) := by
  after_results_simp
  rfl

/-- The contents of the result buffer after the fifty-two operations is the term of the arguments' contents. -/
theorem out_eq (V : Valuation τ sig (Elt F)) :
    after ops V (Proc.devRef .tc main_v5)
      = refTerm (V (Proc.devRef .tc main_arg0)) (V (Proc.devRef .tc main_arg1)) (V (Proc.devRef .tc main_arg2))
          (V (Proc.devRef .tc main_arg3)) (V (Proc.devRef .tc main_arg4)) := by
  rw [ops_split, after_append, outB_eq, v2A_eq, v0A_eq, a4A_eq]
  rfl

set_option maxRecDepth 8192 in
theorem arg0_eq (V : Valuation τ sig (Elt F)) : after ops V (Proc.devRef .tc main_arg0) = V (Proc.devRef .tc main_arg0) := by
  after_results_simp
set_option maxRecDepth 8192 in
theorem arg1_eq (V : Valuation τ sig (Elt F)) : after ops V (Proc.devRef .tc main_arg1) = V (Proc.devRef .tc main_arg1) := by
  after_results_simp
set_option maxRecDepth 8192 in
theorem arg2_eq (V : Valuation τ sig (Elt F)) : after ops V (Proc.devRef .tc main_arg2) = V (Proc.devRef .tc main_arg2) := by
  after_results_simp
set_option maxRecDepth 8192 in
theorem arg3_eq (V : Valuation τ sig (Elt F)) : after ops V (Proc.devRef .tc main_arg3) = V (Proc.devRef .tc main_arg3) := by
  after_results_simp
set_option maxRecDepth 8192 in
theorem arg4_eq (V : Valuation τ sig (Elt F)) : after ops V (Proc.devRef .tc main_arg4) = V (Proc.devRef .tc main_arg4) := by
  after_results_simp

/-- On every device, for any float values, from any memory with zero counters: every weakly fair execution of the
    program terminates with the result buffer at the term of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v5).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_seq scopedRefs_eq scopedSems_eq defs main (fun _ => ops) main_eq (fun _ => ops_sub) m ρ)

end Cert.ReferenceIdeal.RefRun

end
-- ==== Proof.Spec.lean ====
/-
  The function both programs compute, as one formula over the five argument arrays.

  A row of the feature table is taken for every entry of an index list (`take`): row `r` of the taken array is the
  table's row number `idx r`.  With `s` the rows taken by the source list and `dd` the rows taken by the destination
  list, entry `(r, j)` of the result is

      max ( Σ_{k < 128} ( Σ_{l < 8192} dif[r, l] · s[l, k] ) · w[k, j]  +  Σ_{k < 128} dd[r, k] · w[128 + k, j] ,  0 )

  over the extended reals: the aggregated source rows times the upper half of the weights, plus the destination rows
  times the lower half, clipped below at zero.  The zero is kept as the word both programs print for it.
-/
import Idealize.ShloMosaic.PureOps.Ideal
import Idealize.ShloMosaic.Lib.ValueIdx

noncomputable section

open scoped BigOperators

namespace Cert.Spec

open Idealize.ShloMosaic Idealize.ShloMosaic.ValueIdx

/-- The feature table, an index list, the mixing matrix, the weights, and a table of taken rows (also the result). -/
abbrev SF : Shape := ⟨2, ![100000, 128]⟩
abbrev SI : Shape := ⟨1, ![8192]⟩
abbrev SD : Shape := ⟨2, ![8192, 8192]⟩
abbrev SW : Shape := ⟨2, ![256, 128]⟩
abbrev SO : Shape := ⟨2, ![8192, 128]⟩

/-- The table row an index word names: the word's value as a natural number, reduced modulo the number of rows so
    that the row always exists. For a word whose value is below 100000 this is that value. -/
def row (idx : SI.Idx → BitVec 32) (r : Fin 8192) : Fin 100000 :=
  ⟨(idx (ix1 r)).toNat % 100000, Nat.mod_lt _ (by norm_num)⟩

theorem row_val_of_lt (idx : SI.Idx → BitVec 32) (r : Fin 8192) (h : (idx (ix1 r)).toNat < 100000) :
    (row idx r).val = (idx (ix1 r)).toNat := Nat.mod_eq_of_lt h

/-- The rows of the table `f` named by the list `idx`: entry `(r, k)` is `f[idx r, k]`. -/
def take (f : SF.Idx → EReal) (idx : SI.Idx → BitVec 32) : SO.Idx → EReal :=
  fun i => f (ix2 (row idx (i 0)) (i 1))

theorem take_apply (f : SF.Idx → EReal) (idx : SI.Idx → BitVec 32) (r : Fin 8192) (k : Fin 128) :
    take f idx (ix2 r k) = f (ix2 (row idx r) k) := rfl

/-- Row `k` of the upper half of the weights, and row `k` of the lower half. -/
def lo (k : Fin 128) : Fin 256 := ⟨k.val, by omega⟩
def hi (k : Fin 128) : Fin 256 := ⟨128 + k.val, by omega⟩

/-- One entry of the result. -/
def cell (dif : SD.Idx → EReal) (s dd : SO.Idx → EReal) (w : SW.Idx → EReal) (r : Fin 8192) (j : Fin 128) : EReal :=
  max ((∑ k : Fin 128, (∑ l : Fin 8192, dif (ix2 r l) * s (ix2 l k)) * w (ix2 (lo k) j))
        + ∑ k : Fin 128, dd (ix2 r k) * w (ix2 (hi k) j))
      (Ideal.ofBits .f32 0x00000000#32)

/-- The result from the mixing matrix, the two taken tables and the weights. -/
def H (dif : SD.Idx → EReal) (s dd : SO.Idx → EReal) (w : SW.Idx → EReal) : SO.Idx → EReal :=
  fun i => cell dif s dd w (i 0) (i 1)

theorem H_apply (dif : SD.Idx → EReal) (s dd : SO.Idx → EReal) (w : SW.Idx → EReal) (r : Fin 8192) (j : Fin 128) :
    H dif s dd w (ix2 r j) = cell dif s dd w r j := rfl

/-- The result from the five arguments: the table, the source list, the destination list, the mixing matrix, the weights. -/
def G (f : SF.Idx → EReal) (isrc idst : SI.Idx → BitVec 32) (dif : SD.Idx → EReal) (w : SW.Idx → EReal) : SO.Idx → EReal :=
  H dif (take f isrc) (take f idst) w

end Cert.Spec

end
-- ==== Proof.RefValueTake.lean ====
/-
  Taking rows, read at one entry.

  A "take" of the reference program moves a negative index word up by the number of rows, tests the moved word
  against [0, 99999], gathers the row the word names (the gather reads the word signed and clamps it to the table),
  and replaces a row whose test failed by a not-a-number word.  For an index word whose unsigned value is below
  100000 none of this does anything: the sign bit is clear, so the word is not negative and is not moved; read signed
  it is its unsigned value, which lies in [0, 99999], so the test holds and the clamp is the identity.  Entry (r, k)
  of the taken array is then entry (idx r, k) of the table, which is what the specification's `take` says.
-/
import proofs.«215100_g16758962389080_cont_week2b_1182_23_alg».proof.Proof.RefRun
import proofs.«215100_g16758962389080_cont_week2b_1182_23_alg».proof.Proof.Spec
import Idealize.ShloMosaic.Lib.ReduceAll
import Idealize.ShloMosaic.Lib.Pipeline.Value
import Idealize.ShloMosaic.Lib.ValueIdx

noncomputable section

namespace Cert.ReferenceIdeal.RefValue

open Idealize.ShloMosaic Idealize.ShloMosaic.ValueIdx
open Cert.ReferenceIdeal Cert.ReferenceIdeal.Gen Cert.ReferenceIdeal.RefRun

/-! ## Index words below 100000 -/

/-- Read signed, a word below 100000 is its unsigned value. -/
theorem toInt_of_lt (v : BitVec 32) (h : v.toNat < 100000) : v.toInt = (v.toNat : Int) :=
  BitVec.toInt_eq_toNat_of_lt (by omega)

theorem toInt_toNat_of_lt (v : BitVec 32) (h : v.toNat < 100000) : v.toInt.toNat = v.toNat := by
  rw [toInt_of_lt v h]; exact Int.toNat_natCast _

theorem toInt_zero32 : (0#32 : BitVec 32).toInt = 0 := by decide
theorem toInt_max32 : (99999#32 : BitVec 32).toInt = 99999 := by decide

/-- Such a word is not negative … -/
theorem slt_zero_of_lt (v : BitVec 32) (h : v.toNat < 100000) : IntOp.cmpi .slt v 0#32 = 0#1 := by
  refine eq_zero_of_ne_one fun e => ?_
  rw [IntOp.cmpi_slt, toInt_of_lt v h, toInt_zero32] at e
  omega

/-- … is at least zero … -/
theorem sge_zero_of_lt (v : BitVec 32) (h : v.toNat < 100000) : IntOp.cmpi .sge v 0#32 = 1#1 := by
  rw [IntOp.cmpi_sge, toInt_of_lt v h, toInt_zero32]
  omega

/-- … and is at most 99999. -/
theorem sle_max_of_lt (v : BitVec 32) (h : v.toNat < 100000) : IntOp.cmpi .sle v 99999#32 = 1#1 := by
  rw [IntOp.cmpi_sle, toInt_of_lt v h, toInt_max32]
  omega

/-! ## A conjunction of ones -/

/-- A left fold by "and" that starts at 1 and meets only 1s ends at 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h =>
    foldl_andi_ones f l _ (IntOp.andi_eq_one.2 ⟨hi, h a List.mem_cons_self⟩) fun n hn => h n (List.mem_cons_of_mem _ hn)

/-- A reduction by "and" from 1 of an array of 1s is 1 everywhere. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_ones x _ _ hinit fun n _ => hx n

/-! ## The stages of a take at an index -/

/-- A word below 100000 is not moved. -/
theorem wrapTerm_apply (idx : IVec S8192 32) (r : Fin 8192) (h : (idx (ix1 r)).toNat < 100000) :
    wrapTerm idx (ix1 r) = idx (ix1 r) := by
  show Scalar.select (IntOp.cmpi .slt (idx (ix1 r)) 0#32) _ (idx (ix1 r)) = idx (ix1 r)
  rw [slt_zero_of_lt _ h]
  exact if_neg (by decide)

/-- A list of 8192 entries spread along the rows of an array reads, at row `r` and any column, its entry `r`. -/
theorem rows_apply {α : Type} {n : Nat} (h : S8192.BroadcastsInDim (⟨2, ![8192, n]⟩ : Shape) ![0]) (x : S8192.Idx → α)
    (r : Fin 8192) (c : Fin n) : broadcastInDim (⟨2, ![8192, n]⟩ : Shape) ![0] h x (ix2 r c) = x (ix1 r) := by
  refine broadcastInDim_apply ![0] h x (ix2 r c) (ix1 r) fun a => ?_
  match a with
  | ⟨0, hlt⟩ =>
    have hne : ¬ S8192.size ⟨0, hlt⟩ = 1 := by
      show ¬ (8192 : Nat) = 1
      decide
    rw [if_neg hne]
    rfl

/-- The column of start indices at row `r` is the moved word of row `r`. -/
theorem colTerm_apply (idx : IVec S8192 32) (r : Fin 8192) (z : Fin 1) :
    colTerm idx (ix2 r z) = wrapTerm idx (ix1 r) :=
  rows_apply bcast_S8192_S8192x1_0 (wrapTerm idx) r z

/-- When every word is below 100000 the range test holds at every row. -/
theorem validTerm_apply (idx : IVec S8192 32) (hall : ∀ r : Fin 8192, (idx (ix1 r)).toNat < 100000) (r : Fin 8192) :
    validTerm idx (ix1 r) = 1#1 := by
  unfold validTerm
  refine reduce_andi_of_all _ _ _ _ rfl (fun i => ?_) _
  obtain ⟨r', z, rfl⟩ : ∃ (r' : Fin 8192) (z : Fin 1), i = ix2 r' z := ⟨i 0, i 1, eq_ix2 i⟩
  show IntOp.andi (IntOp.cmpi .sge (colTerm idx (ix2 r' z)) 0#32) (IntOp.cmpi .sle (colTerm idx (ix2 r' z)) 99999#32) = 1#1
  rw [colTerm_apply, wrapTerm_apply idx r' (hall r')]
  exact IntOp.andi_eq_one.2 ⟨sge_zero_of_lt _ (hall r'), sle_max_of_lt _ (hall r')⟩

/-! ## The gather at an index -/

/-- The gather reads, at (r, k), the table's column `k` of the row its start index names: the start index of row `r`
    read signed and clamped into [0, 99999]. -/
theorem gather_apply {α : Type} (f : S100000x128.Idx → α) (col : IVec S8192x1 32) (r : Fin 8192) (k : Fin 128) :
    Host.gather gather_S100000x128_S8192x1_S8192x128_1_0_n_n_0_1_1128 f col (ix2 r k)
      = f (ix2 (⟨min (col (ix2 r (0 : Fin 1))).toInt.toNat 99999, by omega⟩ : Fin 100000) k) := by
  unfold Host.gather
  refine congrArg f (funext fun a => Fin.ext ?_)
  match a with
  | ⟨0, h0⟩ =>
    show gather_S100000x128_S8192x1_S8192x128_1_0_n_n_0_1_1128.start (ix2 r k) col ⟨0, h0⟩ + gather_S100000x128_S8192x1_S8192x128_1_0_n_n_0_1_1128.batchCoord (ix2 r k) ⟨0, h0⟩
        + gather_S100000x128_S8192x1_S8192x128_1_0_n_n_0_1_1128.offCoord (ix2 r k) ⟨0, h0⟩ = min (col (ix2 r (0 : Fin 1))).toInt.toNat 99999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin S100000x128.rank) ∈ gather_S100000x128_S8192x1_S8192x128_1_0_n_n_0_1_1128.startIndexMap from List.mem_singleton.mpr rfl)]
    have hsi : gather_S100000x128_S8192x1_S8192x128_1_0_n_n_0_1_1128.siIdx (ix2 r k) ⟨List.idxOf (⟨0, h0⟩ : Fin S100000x128.rank) gather_S100000x128_S8192x1_S8192x128_1_0_n_n_0_1_1128.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, h1⟩ =>
    show gather_S100000x128_S8192x1_S8192x128_1_0_n_n_0_1_1128.start (ix2 r k) col ⟨1, h1⟩ + gather_S100000x128_S8192x1_S8192x128_1_0_n_n_0_1_1128.batchCoord (ix2 r k) ⟨1, h1⟩
        + gather_S100000x128_S8192x1_S8192x128_1_0_n_n_0_1_1128.offCoord (ix2 r k) ⟨1, h1⟩ = k.val
    rw [GatherDims.batchCoord_eq_zero _ _ _ List.not_mem_nil]
    unfold GatherDims.start
    rw [dif_neg (show ¬ (⟨1, h1⟩ : Fin S100000x128.rank) ∈ gather_S100000x128_S8192x1_S8192x128_1_0_n_n_0_1_1128.startIndexMap from
      fun h => absurd (congrArg Fin.val (List.mem_singleton.mp h)) Nat.one_ne_zero)]
    unfold GatherDims.offCoord
    rw [dif_pos (show (⟨1, h1⟩ : Fin S100000x128.rank) ∈ gather_S100000x128_S8192x1_S8192x128_1_0_n_n_0_1_1128.sKept from
      (GatherDims.mem_sKept _ _).mpr
        ⟨fun h => absurd (congrArg Fin.val (List.mem_singleton.mp h)) Nat.one_ne_zero, List.not_mem_nil⟩)]
    simp only [Nat.zero_add, Nat.add_zero]
    rfl

/-! ## A take is the specification's -/

/-- Entry (r, k) of a take by a list of words below 100000 is entry (row r, k) of the table. -/
theorem takeTerm_apply (a0 : FVec Ideal S100000x128 .f32) (idx : IVec S8192 32)
    (hall : ∀ r : Fin 8192, (idx (ix1 r)).toNat < 100000) (r : Fin 8192) (k : Fin 128) :
    takeTerm (F := Ideal) a0 idx (ix2 r k) = a0 (ix2 (Cert.Spec.row idx r) k) := by
  show Scalar.select (broadcastInDim S8192x128 ![0] bcast_S8192_S8192x128_0 (validTerm idx) (ix2 r k))
      (Host.gather gather_S100000x128_S8192x1_S8192x128_1_0_n_n_0_1_1128 a0 (colTerm idx) (ix2 r k)) _ = _
  rw [rows_apply bcast_S8192_S8192x128_0 (validTerm idx) r k, validTerm_apply idx hall r]
  show Host.gather gather_S100000x128_S8192x1_S8192x128_1_0_n_n_0_1_1128 a0 (colTerm idx) (ix2 r k) = _
  rw [gather_apply]
  refine congrArg (fun x : Fin 100000 => a0 (ix2 x k)) (Fin.ext ?_)
  show min (colTerm idx (ix2 r (0 : Fin 1))).toInt.toNat 99999 = (idx (ix1 r)).toNat % 100000
  rw [colTerm_apply, wrapTerm_apply idx r (hall r), toInt_toNat_of_lt _ (hall r)]
  have := hall r
  omega

/-- A take by a list of words below 100000 is the specification's take. -/
theorem takeTerm_eq_take (a0 : FVec Ideal S100000x128 .f32) (idx : IVec S8192 32)
    (hall : ∀ r : Fin 8192, (idx (ix1 r)).toNat < 100000) :
    takeTerm (F := Ideal) a0 idx = Cert.Spec.take a0 idx := by
  funext i
  obtain ⟨r, k, rfl⟩ : ∃ (r : Fin 8192) (k : Fin 128), i = ix2 r k := ⟨i 0, i 1, eq_ix2 i⟩
  rw [takeTerm_apply a0 idx hall r k]
  rfl

end Cert.ReferenceIdeal.RefValue

end
-- ==== Proof.RefValue.lean ====
/-
  The reference program's value is the specification.

  At entry (r, j) the program's last step is the larger of X[r, j] and zero, where X is the product of the 8192 × 256
  array C with the weights and C is two 8192 × 128 blocks side by side: on the left the product P of the mixing matrix
  with the rows taken by the source list, on the right the rows taken by the destination list.  A product read at an
  entry is the sum over the contracted coordinate of the products of the entries, so

      X[r, j] = Σ_{c < 256} C[r, c] · w[c, j] = Σ_{k < 128} P[r, k] · w[k, j] + Σ_{k < 128} dd[r, k] · w[128 + k, j],

  the sum over the 256 columns being the sum over the left block's columns plus the sum over the right block's, and
  P[r, k] = Σ_{l < 8192} dif[r, l] · s[l, k].  With both takes the specification's (the index words are below 100000)
  this is the specification's entry, term for term; nothing but the additive structure of the sums is used.
-/
import proofs.«215100_g16758962389080_cont_week2b_1182_23_alg».proof.Proof.RefValueTake
import Idealize.ShloMosaic.Lib.StackMember
import Idealize.ShloMosaic.PureOps.Ideal.Laws

noncomputable section

open scoped BigOperators

namespace Cert.ReferenceIdeal.RefValue

open Idealize.ShloMosaic Idealize.ShloMosaic.ValueIdx Idealize.ShloMosaic.StackMember
open Cert.ReferenceIdeal Cert.ReferenceIdeal.Gen Cert.ReferenceIdeal.RefRun

/-! ## The two products at an entry -/

/-- The mixing matrix times an 8192 × 128 array, at (r, k). -/
theorem dot1_apply (dif : FVec Ideal S8192x8192 .f32) (s : FVec Ideal S8192x128 .f32) (r : Fin 8192) (k : Fin 128) :
    Host.dotGeneral dot_S8192x8192_S8192x128_S8192x128_1_0_0_1_n_n none dif s (ix2 r k) = ∑ l : Fin 8192, dif (ix2 r l) * s (ix2 l k) := by
  show Host.dotGeneral (DotDims.plain 8192 8192 128) none dif s (ix2 r k) = _
  exact dotGeneral_plain_apply none dif s r k

/-- An 8192 × 256 array times the weights, at (r, j). -/
theorem dot2_apply (c : FVec Ideal S8192x256 .f32) (w : FVec Ideal S256x128 .f32) (r : Fin 8192) (j : Fin 128) :
    Host.dotGeneral dot_S8192x256_S256x128_S8192x128_1_0_0_1_n_n none c w (ix2 r j) = ∑ q : Fin 256, c (ix2 r q) * w (ix2 q j) := by
  show Host.dotGeneral (DotDims.plain 8192 256 128) none c w (ix2 r j) = _
  exact dotGeneral_plain_apply none c w r j

/-! ## Two blocks side by side, at an entry -/

/-- Column `k` of the left block. -/
theorem concat_left (p t : FVec Ideal S8192x128 .f32) (r : Fin 8192) (k : Fin 128) :
    concatenate S8192x256 1 [⟨S8192x128, p⟩, ⟨S8192x128, t⟩] concatenates_S8192x128_S8192x128_S8192x256_d1 (ix2 r (Cert.Spec.lo k)) = p (ix2 r k) := by
  refine concatenate_apply_piece (1 : Fin S8192x256.rank) [⟨S8192x128, p⟩, ⟨S8192x128, t⟩] concatenates_S8192x128_S8192x128_S8192x256_d1
    (ix2 r (Cert.Spec.lo k)) 0 Nat.zero_lt_two S8192x128 p rfl rfl 0 rfl (ix2 r k) (fun b hb => ?_) ?_
  · match b with
    | ⟨0, _⟩ => rfl
    | ⟨1, _⟩ => exact absurd rfl hb
  · show 0 + k.val = k.val
    omega

/-- Column `128 + k` is column `k` of the right block. -/
theorem concat_right (p t : FVec Ideal S8192x128 .f32) (r : Fin 8192) (k : Fin 128) :
    concatenate S8192x256 1 [⟨S8192x128, p⟩, ⟨S8192x128, t⟩] concatenates_S8192x128_S8192x128_S8192x256_d1 (ix2 r (Cert.Spec.hi k)) = t (ix2 r k) := by
  refine concatenate_apply_piece (1 : Fin S8192x256.rank) [⟨S8192x128, p⟩, ⟨S8192x128, t⟩] concatenates_S8192x128_S8192x128_S8192x256_d1
    (ix2 r (Cert.Spec.hi k)) 1 Nat.one_lt_two S8192x128 t rfl rfl 128 rfl (ix2 r k) (fun b hb => ?_) ?_
  · match b with
    | ⟨0, _⟩ => rfl
    | ⟨1, _⟩ => exact absurd rfl hb
  · show 128 + k.val = 128 + k.val
    rfl

/-! ## A sum over 256 columns, block by block -/

/-- The sum over 256 columns is the sum over the first 128 plus the sum over the last 128. -/
theorem sum_split (g : Fin 256 → EReal) :
    ∑ q : Fin 256, g q = ∑ k : Fin 128, g (Cert.Spec.lo k) + ∑ k : Fin 128, g (Cert.Spec.hi k) := by
  have e := Fin.sum_univ_add (a := 128) (b := 128) (fun q : Fin (128 + 128) => g q)
  refine e.trans ?_
  refine congrArg₂ (· + ·) (Finset.sum_congr rfl fun k _ => congrArg g (Fin.ext rfl))
    (Finset.sum_congr rfl fun k _ => congrArg g (Fin.ext rfl))

/-! ## The value -/

/-- From any mixing matrix, taken tables and weights, the program's last five steps give the specification's entry. -/
theorem value_apply (dif : FVec Ideal S8192x8192 .f32) (s dd : FVec Ideal S8192x128 .f32) (w : FVec Ideal S256x128 .f32)
    (r : Fin 8192) (j : Fin 128) :
    reluTerm (F := Ideal)
        (Host.dotGeneral dot_S8192x256_S256x128_S8192x128_1_0_0_1_n_n none
          (concatenate S8192x256 1 [⟨S8192x128, Host.dotGeneral dot_S8192x8192_S8192x128_S8192x128_1_0_0_1_n_n none dif s⟩, ⟨S8192x128, dd⟩] concatenates_S8192x128_S8192x128_S8192x256_d1) w)
        (ix2 r j)
      = Cert.Spec.cell dif s dd w r j := by
  show max (Host.dotGeneral dot_S8192x256_S256x128_S8192x128_1_0_0_1_n_n none
          (concatenate S8192x256 1 [⟨S8192x128, Host.dotGeneral dot_S8192x8192_S8192x128_S8192x128_1_0_0_1_n_n none dif s⟩, ⟨S8192x128, dd⟩] concatenates_S8192x128_S8192x128_S8192x256_d1) w (ix2 r j))
        (Ideal.ofBits .f32 0x00000000#32) = _
  unfold Cert.Spec.cell
  refine congrArg (fun x => max x (Ideal.ofBits .f32 0x00000000#32)) ?_
  rw [dot2_apply, sum_split]
  refine congrArg₂ (· + ·) (Finset.sum_congr rfl fun k _ => ?_) (Finset.sum_congr rfl fun k _ => ?_)
  · rw [concat_left, dot1_apply]
  · rw [concat_right]

/-- The reference program's value, under the index ranges of the precondition, is the specification. -/
theorem refTerm_eq_G (a0 : FVec Ideal S100000x128 .f32) (a1 a2 : IVec S8192 32) (a3 : FVec Ideal S8192x8192 .f32) (a4 : FVec Ideal S256x128 .f32)
    (h1 : ∀ r : Fin 8192, (a1 (ix1 r)).toNat < 100000) (h2 : ∀ r : Fin 8192, (a2 (ix1 r)).toNat < 100000) :
    Cert.ReferenceIdeal.RefRun.refTerm (F := Ideal) a0 a1 a2 a3 a4 = Cert.Spec.G a0 a1 a2 a3 a4 := by
  funext i
  obtain ⟨r, j, rfl⟩ : ∃ (r : Fin 8192) (j : Fin 128), i = ix2 r j := ⟨i 0, i 1, eq_ix2 i⟩
  unfold refTerm
  rw [takeTerm_eq_take a0 a1 h1, takeTerm_eq_take a0 a2 h2]
  exact value_apply a3 (Cert.Spec.take a0 a1) (Cert.Spec.take a0 a2) a4 r j

end Cert.ReferenceIdeal.RefValue

end
-- ==== Proof.HandKernelIdeal.Common.lean ====
/-
  What the kernel program's proof modules share: the program as the launch theorem for SparseCore programs sees it, the
  certificate's ghost state, the arrays' locations, the blocks and read shares the thirty-two gather tasks work on, and
  what the launch handshakes carry.

  The program: a SparseCore call on 2 SparseCores × 16 vector subcores, then one TensorCore kernel region. Task (c, s)
  — vector subcore `s` of SparseCore `c` — has number `2 s + c`; it copies entries [256·(2s+c), 256·(2s+c) + 256) of
  the two index lists into its two index scratches, gathers those rows of the feature table into its two row
  scratches, and copies them out to the same 256 rows of the two taken tables. Every task reads the WHOLE feature
  table, two gathers at a time, so each holds a read share of it. The row a word `v` names is `v.toNat`; all words
  are below 100000 under the precondition.
-/
import proofs.«215100_g16758962389080_cont_week2b_1182_23_alg».proof.KernelIdeal
import proofs.«215100_g16758962389080_cont_week2b_1182_23_alg».proof.Proof.Gen.KernelIdeal
import proofs.«215100_g16758962389080_cont_week2b_1182_23_alg».proof.Proof.Gen.KernelIdeal.Skeleton
import proofs.«215100_g16758962389080_cont_week2b_1182_23_alg».proof.Proof.Gen.KernelIdeal.Launch
import proofs.«215100_g16758962389080_cont_week2b_1182_23_alg».proof.Proof.Gen.KernelIdeal.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.ValueIdx
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the pipeline's staging cells, the launch handshakes, the transfers' counters -/

abbrev UH : Type := URounds (GSem nD τ sig) ℕ
abbrev UP : Type := URounds (GSem nD τ sig) Unit
abbrev UU : Type := UP × (UH × Counters)

abbrev 𝕄' (F : FTy → Type) : Type := MT nD τ sig (HIx 1) (Elt F) ℕ UU ℕ

abbrev EP : Emb UP (𝕄' F) := embL
abbrev EH : Emb UH (𝕄' F) := (Emb.inl : Emb UH (UH × Counters)).trans embR

instance EH_landsIn : (EH (F := F)).LandsIn (upEmb : UEmb _ (𝕄' F)) := by unfold EH; infer_instance

/-! ## The arrays -/

abbrev fLoc (d : Dev nD) : Loc nD τ sig := (SparseCore.T d).loc main_arg0
abbrev sLoc (d : Dev nD) : Loc nD τ sig := (SparseCore.T d).loc main_arg1
abbrev tLoc (d : Dev nD) : Loc nD τ sig := (SparseCore.T d).loc main_arg2
abbrev aLoc (d : Dev nD) : Loc nD τ sig := (SparseCore.T d).loc main_v0_0
abbrev bLoc (d : Dev nD) : Loc nD τ sig := (SparseCore.T d).loc main_v0_1

/-- The rows of the table `f` an index list names: entry `(r, k)` is `f` at row `(idx r).toNat` (reduced modulo the
    table's 100000 rows so that the row exists whatever the word; an in-range word is its own value), column `k`. -/
def rowOf (idx : S8192.Idx → BitVec 32) (r : Fin 8192) : Fin 100000 :=
  ⟨(idx (ix1 r)).toNat % 100000, Nat.mod_lt _ (by norm_num)⟩

def takeRows {α : Type} (f : S100000x128.Idx → α) (idx : S8192.Idx → BitVec 32) : S8192x128.Idx → α :=
  fun i => f (ix2 (rowOf idx (i 0)) (i 1))

/-! ## The tasks' blocks and shares -/

/-- The number of task (c, s): `2 s + c`. -/
def wid (c : Fin 2) (s : Fin 16) : Fin 32 := ⟨2 * s.val + c.val, by omega⟩

theorem idiv : 32 ∣ S8192.size 0 := ⟨256, rfl⟩
theorem rdiv : 32 ∣ S8192x128.size 0 := ⟨256, rfl⟩
/-- Block `w` of an index list (256 entries) and of a taken table (256 rows). -/
abbrev iblk (w : Fin 32) : Rect S8192 := Rect.part (s := S8192) (a₀ := 0) idiv w
abbrev rblk (w : Fin 32) : Rect S8192x128 := Rect.part (s := S8192x128) (a₀ := 0) rdiv w
abbrev iSet (w : Fin 32) : Finset S8192.Idx := ((Memref.whole main_arg1_scv : Memref sig .scVector .hbm S8192 .i32).view.slice (iblk w)).set
abbrev rSet (w : Fin 32) : Finset S8192x128.Idx := ((Memref.whole main_v0_0_scv : Memref sig .scVector .hbm S8192x128 .f32).view.slice (rblk w)).set

/-- The read shares of the feature table: one per SparseCore, and of that one per vector subcore. -/
abbrev coreSh (c : Fin 2) : PosShare TreeShare := Transfers.shareTok fullShare 2 c
abbrev tileSh (c : Fin 2) (s : Fin 16) : PosShare TreeShare := Transfers.shareTok (coreSh c) 16 s

variable [FloatOps F]

/-! ## What the handshakes carry -/

variable (m : (ℓ : Loc nD τ sig) → Buf (Elt F) ℓ)

/-- What task `w` = (c, s) is handed: its read share of the feature table, block `w` of both index lists, rows block
    `w` of both taken tables at the launch contents; -/
abbrev goPts (d : Dev nD) (c : Fin 2) (s : Fin 16) : sProp (𝕄' F) :=
  iprop((fLoc d ↦{tileSh c s} m (fLoc d))
    ∗ (sLoc d ↦[iSet (wid c s)]{fullShare} m (sLoc d)) ∗ (tLoc d ↦[iSet (wid c s)]{fullShare} m (tLoc d))
    ∗ (aLoc d ↦[rSet (wid c s)]{fullShare} m (aLoc d)) ∗ (bLoc d ↦[rSet (wid c s)]{fullShare} m (bLoc d)))
/-- and what it hands back: the same, the taken tables' rows at the rows of the feature table its index blocks name. -/
abbrev tdPts (d : Dev nD) (c : Fin 2) (s : Fin 16) : sProp (𝕄' F) :=
  iprop((fLoc d ↦{tileSh c s} m (fLoc d))
    ∗ (sLoc d ↦[iSet (wid c s)]{fullShare} m (sLoc d)) ∗ (tLoc d ↦[iSet (wid c s)]{fullShare} m (tLoc d))
    ∗ (aLoc d ↦[rSet (wid c s)]{fullShare} takeRows (m (fLoc d)) (m (sLoc d)))
    ∗ (bLoc d ↦[rSet (wid c s)]{fullShare} takeRows (m (fLoc d)) (m (tLoc d))))
/-- What SparseCore `c` is handed for the call, and hands back: its sixteen tasks', the remainder of its read share beside. -/
abbrev stPts (d : Dev nD) (c : Fin 2) : sProp (𝕄' F) :=
  iprop((fLoc d ↦{Transfers.shareDrop (coreSh c) 16} m (fLoc d)) ∗ bigSep Finset.univ fun s : Fin 16 => goPts m d c s)
abbrev dnPts (d : Dev nD) (c : Fin 2) : sProp (𝕄' F) :=
  iprop((fLoc d ↦{Transfers.shareDrop (coreSh c) 16} m (fLoc d)) ∗ bigSep Finset.univ fun s : Fin 16 => tdPts m d c s)

def P : (K (F := F)).Pay (nD := nD) (Val := Elt F) (Name := ℕ) (U := UU) where
  st := fun q d c => match q with | 0 => stPts m d (Fin.cast nCore_zero c)
  dn := fun q d c => match q with | 0 => dnPts m d (Fin.cast nCore_zero c)
  go := fun q d c i => match q with | 0 => goPts m d (Fin.cast nCore_zero c) (Fin.cast nSub_zero i)
  td := fun q d c i => match q with | 0 => tdPts m d (Fin.cast nCore_zero c) (Fin.cast nSub_zero i)
  x := fun _ _ => iprop(emp)

instance P_storable : (P (F := F) m).IsStorable where
  st q d c := match q with
    | 0 => (inferInstance : BI.Storable (upEmb : UEmb _ (𝕄' F)) (stPts m d (Fin.cast nCore_zero c)))
  dn q d c := match q with
    | 0 => (inferInstance : BI.Storable (upEmb : UEmb _ (𝕄' F)) (dnPts m d (Fin.cast nCore_zero c)))
  go q d c i := match q with
    | 0 => (inferInstance : BI.Storable (upEmb : UEmb _ (𝕄' F)) (goPts m d (Fin.cast nCore_zero c) (Fin.cast nSub_zero i)))
  td q d c i := match q with
    | 0 => (inferInstance : BI.Storable (upEmb : UEmb _ (𝕄' F)) (tdPts m d (Fin.cast nCore_zero c) (Fin.cast nSub_zero i)))

/-- What the proof asks of the launch memory: every word of both index lists is below 100000. -/
def PreOK : Prop := ∀ (d : Dev nD) (j : S8192.Idx), (m (sLoc d) j).toNat < 100000 ∧ (m (tLoc d) j).toNat < 100000

end Cert.KernelIdeal.Hand

end
-- ==== Proof.HandKernelIdeal.TcBody.lean ====
/-
  The TensorCore kernel's body as a triple. The body reads its seven input staging buffers — four 256×2048 blocks of the
  mixing matrix, the whole 8192×128 taken source table, a 256×128 block of the taken destination table, the whole
  256×128 weights — and overwrites its one 256×128 output buffer with ONE store of the value `k1_pay1` of what it
  loaded. So after the body the inputs are as they were and the output buffer is that value.
-/
import proofs.«215100_g16758962389080_cont_week2b_1182_23_alg».proof.Proof.HandKernelIdeal.Common
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's accesses -/

abbrev rD : Rect S256x2048 := Rect.unit (s := S256x2048) ![0, 0] S256x2048.size inb_S256x2048_S256x2048_0_0
abbrev rS0 : Rect S8192x128 := Rect.unit (s := S8192x128) ![0, 0] S2048x128.size inb_S8192x128_S2048x128_0_0
abbrev rS1 : Rect S8192x128 := Rect.unit (s := S8192x128) ![2048, 0] S2048x128.size inb_S8192x128_S2048x128_2048_0
abbrev rS2 : Rect S8192x128 := Rect.unit (s := S8192x128) ![4096, 0] S2048x128.size inb_S8192x128_S2048x128_4096_0
abbrev rS3 : Rect S8192x128 := Rect.unit (s := S8192x128) ![6144, 0] S2048x128.size inb_S8192x128_S2048x128_6144_0
abbrev rW0 : Rect S256x128 := Rect.unit (s := S256x128) ![0, 0] S128x128.size inb_S256x128_S128x128_0_0
abbrev rW1 : Rect S256x128 := Rect.unit (s := S256x128) ![128, 0] S128x128.size inb_S256x128_S128x128_128_0
abbrev rO : Rect S256x128 := Rect.unit (s := S256x128) ![0, 0] S256x128.size inb_S256x128_S256x128_0_0

/-- The output buffer after the body, from the seven input buffers' contents: its one store, as the one piece that
    covers it. -/
def out1_7 (x0 x1 x2 x3 : Vec F S256x2048 .f32) (x4 : Vec F S8192x128 .f32) (x5 x6 : Vec F S256x128 .f32) : Vec F S256x128 .f32 :=
  View.canon [⟨rO, k1_pay1 (View.ld x0 rD) (View.ld x4 rS0) (View.ld x1 rD) (View.ld x4 rS1) (View.ld x2 rD) (View.ld x4 rS2)
    (View.ld x3 rD) (View.ld x4 rS3) (View.ld x6 rW0) (View.ld x5 rO) (View.ld x6 rW1)⟩]

theorem cover1_7 (p0 : Vec F S256x128 .f32) (y : S256x128.Idx) :
    ∃ pc ∈ ([⟨rO, p0⟩] : List (View.Piece (Elt F) S256x128 .f32)), y ∈ pc.1.set :=
  View.cover_of_tiled [⟨rO, p0⟩] S256x128.size (by rfl) y

/-! ## The body's triple -/

set_option maxHeartbeats 4000000 in
theorem sound_kernel (c : Dev nD) (E : Set ℕ) (i : grid1.Coords)
    (arg1 : Memref sig .tc .vmem S256x2048 .f32) (harg1 : arg1.IsWhole) (arg2 : Memref sig .tc .vmem S256x2048 .f32) (harg2 : arg2.IsWhole)
    (arg3 : Memref sig .tc .vmem S256x2048 .f32) (harg3 : arg3.IsWhole) (arg4 : Memref sig .tc .vmem S256x2048 .f32) (harg4 : arg4.IsWhole)
    (arg5 : Memref sig .tc .vmem S8192x128 .f32) (harg5 : arg5.IsWhole) (arg6 : Memref sig .tc .vmem S256x128 .f32) (harg6 : arg6.IsWhole)
    (arg7 : Memref sig .tc .vmem S256x128 .f32) (harg7 : arg7.IsWhole) (arg8 : Memref sig .tc .vmem S256x128 .f32) (harg8 : arg8.IsWhole)
    (x0 x1 x2 x3 : Vec F S256x2048 .f32) (x4 : Vec F S8192x128 .f32) (x5 x6 : Vec F S256x128 .f32) (Kc : PUnit → sProp (𝕄' F)) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ Kc ⟨⟩))
      ⊢ wp frame (wpE (defs₀ (F := F)) Variants.none c none) E
          (cc1__tc_body i arg1 harg1 arg2 harg2 arg3 harg3 arg4 harg4 arg5 harg5 arg6 harg6 arg7 harg7 arg8 harg8) Kc := by
  simp only [cc1__tc_body_eq_skeleton]; unfold cc1__tc_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

end Cert.KernelIdeal.Hand

end
-- ==== Proof.HandKernelIdeal.TcDat.lean ====
/-
  The TensorCore region's proof data. The region stages, at grid point `t` of 32: the four 256×2048 column quarters of
  rows block `t` of the mixing matrix (four windows over ONE array, each holding a quarter read share of it), the whole
  taken source table (fetched once), rows block `t` of the taken destination table, the whole weights (fetched once),
  and writes rows block `t` of the result back. The arrays as the region finds them: the mixing matrix, the weights
  and the result as launched, the two taken tables at the rows the gather tasks left. After the body every input
  buffer holds its block and the output buffer the body's value of the input blocks. The TensorCore owes nothing during
  the region, and the waits it has recorded sit at the levels of the SparseCore call that came before.
-/
import proofs.«215100_g16758962389080_cont_week2b_1182_23_alg».proof.Proof.HandKernelIdeal.TcBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The two taken tables as the gather tasks leave them. -/
abbrev srcT (c : Dev nD) : S8192x128.Idx → Elt F .f32 := takeRows (m (fLoc c)) (m (sLoc c))
abbrev dstT (c : Dev nD) : S8192x128.Idx → Elt F .f32 := takeRows (m (fLoc c)) (m (tLoc c))

/-- Each window's array as the region finds it. -/
def A1 (c : Dev nD) : (w : Fin cfg1.W) → Buf (Elt F) ((cfg1.win w).arr.view.loc (c.tc : Thread nD τ))
  | ⟨0, _⟩ => m ((c.tc : Thread nD τ).loc main_arg3)
  | ⟨1, _⟩ => m ((c.tc : Thread nD τ).loc main_arg3)
  | ⟨2, _⟩ => m ((c.tc : Thread nD τ).loc main_arg3)
  | ⟨3, _⟩ => m ((c.tc : Thread nD τ).loc main_arg3)
  | ⟨4, _⟩ => srcT m c
  | ⟨5, _⟩ => dstT m c
  | ⟨6, _⟩ => m ((c.tc : Thread nD τ).loc main_arg4)
  | ⟨7, _⟩ => m ((c.tc : Thread nD τ).loc main_v1)

/-- Window `w`'s block at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (A1 m c w)

/-- No prefetched tables: the one admissible choice. -/
abbrev adm : (p : Fin 1) → (pcfgs (F := F) p).Adm := fun p => (cfgs p).toPCfg_adm

/-- The read shares of the mixing matrix, one per window that stages it. -/
abbrev difSh (w : Fin 4) : PosShare TreeShare := Transfers.shareTok fullShare 4 w

def dats (_ : Fin 1) (c : Dev nD) : Dat τ (Elt F) (HIx 1) ℕ UU ℕ cfg1 c where
  A w := A1 m c w
  after w t := match w with
    | ⟨0, _⟩ => iblk1 m c 0 t
    | ⟨1, _⟩ => iblk1 m c 1 t
    | ⟨2, _⟩ => iblk1 m c 2 t
    | ⟨3, _⟩ => iblk1 m c 3 t
    | ⟨4, _⟩ => iblk1 m c 4 t
    | ⟨5, _⟩ => iblk1 m c 5 t
    | ⟨6, _⟩ => iblk1 m c 6 t
    | ⟨7, _⟩ => out1_7 (iblk1 m c 0 t) (iblk1 m c 1 t) (iblk1 m c 2 t) (iblk1 m c 3 t) (iblk1 m c 4 t) (iblk1 m c 5 t) (iblk1 m c 6 t)
  Φ _ := Pipeline.scopedRest (Pipeline.pin (pcfgs (F := F)) adm 0).spec c
  q w := match w with
    | ⟨0, _⟩ => difSh 0
    | ⟨1, _⟩ => difSh 1
    | ⟨2, _⟩ => difSh 2
    | ⟨3, _⟩ => difSh 3
    | ⟨4, _⟩ => fullShare
    | ⟨5, _⟩ => fullShare
    | ⟨6, _⟩ => fullShare
    | ⟨7, _⟩ => fullShare
  owed _ := 0
  recorded _ := {p | (K (F := F)).lev ((c.tc : Thread nD τ), p.1) p.2 ≤ 8}

/-- The region's invariant: the TensorCore's scoped buffers that no window stages, untouched. -/
theorem Φ_eq (c : Dev nD) (t : Fin (cfg1.N + 1)) :
    (dats m 0 c).Φ t = Pipeline.scopedRest (Pipeline.pin (pcfgs (F := F)) adm 0).spec c := by dsimp only [dats]

theorem A_eq (c : Dev nD) (w : Fin cfg1.W) : (dats m 0 c).A w = A1 m c w := by dsimp only [dats]

theorem after1_0 (c : Dev nD) (t : Fin cfg1.N) : (dats m 0 c).after 0 t = iblk1 m c 0 t := by dsimp only [dats]
theorem after1_1 (c : Dev nD) (t : Fin cfg1.N) : (dats m 0 c).after 1 t = iblk1 m c 1 t := by dsimp only [dats]
theorem after1_2 (c : Dev nD) (t : Fin cfg1.N) : (dats m 0 c).after 2 t = iblk1 m c 2 t := by dsimp only [dats]
theorem after1_3 (c : Dev nD) (t : Fin cfg1.N) : (dats m 0 c).after 3 t = iblk1 m c 3 t := by dsimp only [dats]
theorem after1_4 (c : Dev nD) (t : Fin cfg1.N) : (dats m 0 c).after 4 t = iblk1 m c 4 t := by dsimp only [dats]
theorem after1_5 (c : Dev nD) (t : Fin cfg1.N) : (dats m 0 c).after 5 t = iblk1 m c 5 t := by dsimp only [dats]
theorem after1_6 (c : Dev nD) (t : Fin cfg1.N) : (dats m 0 c).after 6 t = iblk1 m c 6 t := by dsimp only [dats]
theorem after1_7 (c : Dev nD) (t : Fin cfg1.N) : (dats m 0 c).after 7 t
    = out1_7 (iblk1 m c 0 t) (iblk1 m c 1 t) (iblk1 m c 2 t) (iblk1 m c 3 t) (iblk1 m c 4 t) (iblk1 m c 5 t) (iblk1 m c 6 t) := by dsimp only [dats]

/-- Each input window's current staging buffer holds its block at every point, fetched there or not: unfetched, the
    block index has not moved. -/
theorem before1_0 (c : Dev nD) (t : Fin cfg1.N) (d) : (dats m 0 c).before 0 t d = iblk1 m c 0 t :=
  ((dats m 0 c).before_in_eq_fetched 0 rfl (fun _ => rfl) (fun _ _ _ => rfl) (fun t => by rw [after1_0]; unfold Dat.blockOf iblk1; rw [A_eq]; try rfl) t d).trans
    (by unfold Dat.fetched Dat.blockOf iblk1; rw [A_eq]; try rfl)
theorem before1_1 (c : Dev nD) (t : Fin cfg1.N) (d) : (dats m 0 c).before 1 t d = iblk1 m c 1 t :=
  ((dats m 0 c).before_in_eq_fetched 1 rfl (fun _ => rfl) (fun _ _ _ => rfl) (fun t => by rw [after1_1]; unfold Dat.blockOf iblk1; rw [A_eq]; try rfl) t d).trans
    (by unfold Dat.fetched Dat.blockOf iblk1; rw [A_eq]; try rfl)
theorem before1_2 (c : Dev nD) (t : Fin cfg1.N) (d) : (dats m 0 c).before 2 t d = iblk1 m c 2 t :=
  ((dats m 0 c).before_in_eq_fetched 2 rfl (fun _ => rfl) (fun _ _ _ => rfl) (fun t => by rw [after1_2]; unfold Dat.blockOf iblk1; rw [A_eq]; try rfl) t d).trans
    (by unfold Dat.fetched Dat.blockOf iblk1; rw [A_eq]; try rfl)
theorem before1_3 (c : Dev nD) (t : Fin cfg1.N) (d) : (dats m 0 c).before 3 t d = iblk1 m c 3 t :=
  ((dats m 0 c).before_in_eq_fetched 3 rfl (fun _ => rfl) (fun _ _ _ => rfl) (fun t => by rw [after1_3]; unfold Dat.blockOf iblk1; rw [A_eq]; try rfl) t d).trans
    (by unfold Dat.fetched Dat.blockOf iblk1; rw [A_eq]; try rfl)
theorem before1_4 (c : Dev nD) (t : Fin cfg1.N) (d) : (dats m 0 c).before 4 t d = iblk1 m c 4 t :=
  ((dats m 0 c).before_in_eq_fetched 4 rfl (fun _ => rfl) (fun _ _ _ => rfl) (fun t => by rw [after1_4]; unfold Dat.blockOf iblk1; rw [A_eq]; try rfl) t d).trans
    (by unfold Dat.fetched Dat.blockOf iblk1; rw [A_eq]; try rfl)
theorem before1_5 (c : Dev nD) (t : Fin cfg1.N) (d) : (dats m 0 c).before 5 t d = iblk1 m c 5 t :=
  ((dats m 0 c).before_in_eq_fetched 5 rfl (fun _ => rfl) (fun _ _ _ => rfl) (fun t => by rw [after1_5]; unfold Dat.blockOf iblk1; rw [A_eq]; try rfl) t d).trans
    (by unfold Dat.fetched Dat.blockOf iblk1; rw [A_eq]; try rfl)
theorem before1_6 (c : Dev nD) (t : Fin cfg1.N) (d) : (dats m 0 c).before 6 t d = iblk1 m c 6 t :=
  ((dats m 0 c).before_in_eq_fetched 6 rfl (fun _ => rfl) (fun _ _ _ => rfl) (fun t => by rw [after1_6]; unfold Dat.blockOf iblk1; rw [A_eq]; try rfl) t d).trans
    (by unfold Dat.fetched Dat.blockOf iblk1; rw [A_eq]; try rfl)

/-! ## The body obligation, at a generic point -/

def bodyPre (c : Dev nD) (t : Fin cfg1.N) : sProp (𝕄' F) :=
  iprop((dats m 0 c).Φ t.castSucc ∗ (dats m 0 c).owesAt none t.castSucc
    ∗ (∃ d, owns (c : Thread nD τ) (st1_0 t) fullShare ((dats m 0 c).before 0 t d))
    ∗ (∃ d, owns (c : Thread nD τ) (st1_1 t) fullShare ((dats m 0 c).before 1 t d))
    ∗ (∃ d, owns (c : Thread nD τ) (st1_2 t) fullShare ((dats m 0 c).before 2 t d))
    ∗ (∃ d, owns (c : Thread nD τ) (st1_3 t) fullShare ((dats m 0 c).before 3 t d))
    ∗ (∃ d, owns (c : Thread nD τ) (st1_4 t) fullShare ((dats m 0 c).before 4 t d))
    ∗ (∃ d, owns (c : Thread nD τ) (st1_5 t) fullShare ((dats m 0 c).before 5 t d))
    ∗ (∃ d, owns (c : Thread nD τ) (st1_6 t) fullShare ((dats m 0 c).before 6 t d))
    ∗ (∃ d, owns (c : Thread nD τ) (st1_7 t) fullShare ((dats m 0 c).before 7 t d)))

def bodyPost (c : Dev nD) (t : Fin cfg1.N) : sProp (𝕄' F) :=
  iprop((dats m 0 c).Φ t.succ ∗ (dats m 0 c).owesAt none t.succ
    ∗ owns (c : Thread nD τ) (st1_0 t) fullShare ((dats m 0 c).after 0 t)
    ∗ owns (c : Thread nD τ) (st1_1 t) fullShare ((dats m 0 c).after 1 t)
    ∗ owns (c : Thread nD τ) (st1_2 t) fullShare ((dats m 0 c).after 2 t)
    ∗ owns (c : Thread nD τ) (st1_3 t) fullShare ((dats m 0 c).after 3 t)
    ∗ owns (c : Thread nD τ) (st1_4 t) fullShare ((dats m 0 c).after 4 t)
    ∗ owns (c : Thread nD τ) (st1_5 t) fullShare ((dats m 0 c).after 5 t)
    ∗ owns (c : Thread nD τ) (st1_6 t) fullShare ((dats m 0 c).after 6 t)
    ∗ owns (c : Thread nD τ) (st1_7 t) fullShare ((dats m 0 c).after 7 t))

theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before1_0, before1_1, before1_2, before1_3, before1_4, before1_5, before1_6]
  rw [show (dats m 0 c).Φ t.succ = (dats m 0 c).Φ t.castSucc from rfl,
    show (dats m 0 c).owesAt none t.succ = (dats m 0 c).owesAt none t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid1.coords t) _ _ _ _ _ _ _ _ _ _ _ _ _ _ _ _
    (iblk1 m c 0 t) (iblk1 m c 1 t) (iblk1 m c 2 t) (iblk1 m c 3 t) (iblk1 m c 4 t) (iblk1 m c 5 t) (iblk1 m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none none Set.univ := fun t => by
  rw [bigSep_W1, bigSep_W1]
  exact sound_body m c t

end Cert.KernelIdeal.Hand

end
-- ==== Proof.TcMath.lean ====
/-
  The arithmetic of one block of 256 result rows, read at an entry, and the algebra that joins it to the specification.

  The block's arithmetic takes the four column quarters `d0 … d3` of the block's rows of the mixing matrix, the four row
  quarters `s0 … s3` of the taken source table, the two halves `wl`, `wh` of the weights and the block's destination
  rows `db`.  It forms the aggregate  agg = ((d0·s0 + d1·s1) + d2·s2) + d3·s3  and then  max (agg·wl + db·wh, 0).
  `pay_apply` reads that at entry `(p, q)` as nested finite sums over the extended reals.

  `cell_of_quarters` is the algebra: a sum over 8192 positions is the sum of its four quarters of 2048 positions, taken
  left to right, so the quartered form is the specification's entry.  Only associativity of addition in the extended reals
  is used: no distributivity and no finiteness of the summands.
-/
import proofs.«215100_g16758962389080_cont_week2b_1182_23_alg».proof.Proof.Gen.KernelIdeal.Skeleton
import proofs.«215100_g16758962389080_cont_week2b_1182_23_alg».proof.Proof.Spec
import Idealize.ShloMosaic.Lib.ValueIdx
import Idealize.ShloMosaic.Lib.Pipeline.Value
import Idealize.ShloMosaic.PureOps.Ideal.Laws

noncomputable section

open scoped BigOperators

namespace Cert.TcMath

open Cert.KernelIdeal Cert.KernelIdeal.Gen Idealize.ShloMosaic Idealize.ShloMosaic.ValueIdx

/-! ## The two products at an entry -/

/-- A 256×2048 by 2048×128 product into the zero accumulator, read at entry `(p, q)`: row `p` of the left factor against column `q` of the right one, summed over the 2048 shared positions. -/
theorem matmul_wide (a : FVec Ideal S256x2048 .f32) (b : FVec Ideal S2048x128 .f32) (p : Fin 256) (q : Fin 128) :
    matmul (F := Ideal) dot_S256x2048_S2048x128_S256x128_1_0_0_1_n_n none a b (constant (F := Ideal) S256x128 .f32 0x00000000#32) (ix2 p q)
      = ∑ l : Fin 2048, a (ix2 p l) * b (ix2 l q) := by
  refine (Ideal.matmul_constant_zero_apply dot_S256x2048_S2048x128_S256x128_1_0_0_1_n_n none a b (ix2 p q)).trans ?_
  rw [← Equiv.sum_comp (contrEquiv1 dot_S256x2048_S2048x128_S256x128_1_0_0_1_n_n 2048 rfl rfl).symm]
  refine Finset.sum_congr rfl fun c _ => ?_
  have c2 := contrEquiv1_symm_val dot_S256x2048_S2048x128_S256x128_1_0_0_1_n_n 2048 rfl rfl c
  have l2 : dot_S256x2048_S2048x128_S256x128_1_0_0_1_n_n.lhsIdx (ix2 p q) ((contrEquiv1 _ 2048 rfl rfl).symm c) = ix2 p c := by
    funext ax; apply Fin.ext
    match ax with
    | ⟨0, _⟩ => simp [DotDims.lhsIdx, dot_S256x2048_S2048x128_S256x128_1_0_0_1_n_n]; rfl
    | ⟨1, _⟩ => simp [DotDims.lhsIdx, dot_S256x2048_S2048x128_S256x128_1_0_0_1_n_n]; exact c2
  have r2 : dot_S256x2048_S2048x128_S256x128_1_0_0_1_n_n.rhsIdx (ix2 p q) ((contrEquiv1 _ 2048 rfl rfl).symm c) = ix2 c q := by
    funext ax; apply Fin.ext
    match ax with
    | ⟨0, _⟩ => simp [DotDims.rhsIdx, dot_S256x2048_S2048x128_S256x128_1_0_0_1_n_n]; exact c2
    | ⟨1, _⟩ => simp [DotDims.rhsIdx, dot_S256x2048_S2048x128_S256x128_1_0_0_1_n_n]; rfl
  rw [l2, r2]

/-- A 256×128 by 128×128 product into the zero accumulator, read at entry `(p, q)`: the sum over the 128 shared positions. -/
theorem matmul_square (a : FVec Ideal S256x128 .f32) (b : FVec Ideal S128x128 .f32) (p : Fin 256) (q : Fin 128) :
    matmul (F := Ideal) dot_S256x128_S128x128_S256x128_1_0_0_1_n_n none a b (constant (F := Ideal) S256x128 .f32 0x00000000#32) (ix2 p q)
      = ∑ l : Fin 128, a (ix2 p l) * b (ix2 l q) := by
  refine (Ideal.matmul_constant_zero_apply dot_S256x128_S128x128_S256x128_1_0_0_1_n_n none a b (ix2 p q)).trans ?_
  rw [← Equiv.sum_comp (contrEquiv1 dot_S256x128_S128x128_S256x128_1_0_0_1_n_n 128 rfl rfl).symm]
  refine Finset.sum_congr rfl fun c _ => ?_
  have c2 := contrEquiv1_symm_val dot_S256x128_S128x128_S256x128_1_0_0_1_n_n 128 rfl rfl c
  have l2 : dot_S256x128_S128x128_S256x128_1_0_0_1_n_n.lhsIdx (ix2 p q) ((contrEquiv1 _ 128 rfl rfl).symm c) = ix2 p c := by
    funext ax; apply Fin.ext
    match ax with
    | ⟨0, _⟩ => simp [DotDims.lhsIdx, dot_S256x128_S128x128_S256x128_1_0_0_1_n_n]; rfl
    | ⟨1, _⟩ => simp [DotDims.lhsIdx, dot_S256x128_S128x128_S256x128_1_0_0_1_n_n]; exact c2
  have r2 : dot_S256x128_S128x128_S256x128_1_0_0_1_n_n.rhsIdx (ix2 p q) ((contrEquiv1 _ 128 rfl rfl).symm c) = ix2 c q := by
    funext ax; apply Fin.ext
    match ax with
    | ⟨0, _⟩ => simp [DotDims.rhsIdx, dot_S256x128_S128x128_S256x128_1_0_0_1_n_n]; exact c2
    | ⟨1, _⟩ => simp [DotDims.rhsIdx, dot_S256x128_S128x128_S256x128_1_0_0_1_n_n]; rfl
  rw [l2, r2]

/-! ## The block's arithmetic at an entry -/

/-- The block's arithmetic read at entry `(p, q)`: the aggregate of the four quarter products times the upper half of
    the weights, plus the destination rows times the lower half, clipped below at the zero word. -/
theorem pay_apply (d0 d1 d2 d3 : Vec Ideal S256x2048 .f32) (s0 s1 s2 s3 : Vec Ideal S2048x128 .f32) (wl wh : Vec Ideal S128x128 .f32)
    (db : Vec Ideal S256x128 .f32) (p : Fin 256) (q : Fin 128) :
    k1_pay1 (F := Ideal) d0 s0 d1 s1 d2 s2 d3 s3 wl db wh (ix2 p q)
      = max ((∑ k : Fin 128, ((((∑ l : Fin 2048, d0 (ix2 p l) * s0 (ix2 l k)) + ∑ l : Fin 2048, d1 (ix2 p l) * s1 (ix2 l k))
                                 + ∑ l : Fin 2048, d2 (ix2 p l) * s2 (ix2 l k)) + ∑ l : Fin 2048, d3 (ix2 p l) * s3 (ix2 l k)) * wl (ix2 k q))
             + ∑ k : Fin 128, db (ix2 p k) * wh (ix2 k q))
            (Ideal.ofBits .f32 0x00000000#32) := by
  unfold k1_pay1
  simp only [shapeCast_self]
  refine (maximumf_apply _ _ _).trans ?_
  refine congrArg₂ max ?_ rfl
  refine (addf_apply _ _ _).trans ?_
  refine congrArg₂ (· + ·) ?_ (matmul_square db wh p q)
  refine (matmul_square _ wl p q).trans ?_
  refine Finset.sum_congr rfl fun k _ => ?_
  refine congrArg (· * wl (ix2 k q)) ?_
  refine (addf_apply _ _ _).trans ?_
  refine congrArg₂ (· + ·) ?_ (matmul_wide d3 s3 p k)
  refine (addf_apply _ _ _).trans ?_
  refine congrArg₂ (· + ·) ?_ (matmul_wide d2 s2 p k)
  refine (addf_apply _ _ _).trans ?_
  exact congrArg₂ (· + ·) (matmul_wide d0 s0 p k) (matmul_wide d1 s1 p k)

/-! ## A sum over 8192 positions by quarters -/

open Cert.Spec

/-- Position `l` of quarter `a`: the position `2048 · a + l` of the whole. -/
def qtr (a : Fin 4) (l : Fin 2048) : Fin 8192 := ⟨2048 * a.val + l.val, by omega⟩

/-- A sum over the 8192 positions is the sum of its four quarters, added left to right. -/
theorem sum_quarters (g : Fin 8192 → EReal) :
    ∑ l, g l = (((∑ l : Fin 2048, g (qtr 0 l)) + ∑ l : Fin 2048, g (qtr 1 l)) + ∑ l : Fin 2048, g (qtr 2 l))
      + ∑ l : Fin 2048, g (qtr 3 l) := by
  have h1 := Fin.sum_univ_add (M := EReal) (a := 2048 + 2048 + 2048) (b := 2048) g
  have h2 := Fin.sum_univ_add (M := EReal) (a := 2048 + 2048) (b := 2048) (fun i => g (Fin.castAdd 2048 i))
  have h3 := Fin.sum_univ_add (M := EReal) (a := 2048) (b := 2048) (fun i => g (Fin.castAdd 2048 (Fin.castAdd 2048 i)))
  refine h1.trans ?_
  rw [h2, h3]
  refine congrArg₂ (· + ·) (congrArg₂ (· + ·) (congrArg₂ (· + ·) ?_ ?_) ?_) ?_ <;>
    exact Finset.sum_congr rfl fun l _ => congrArg g (Fin.ext (by simp [qtr] <;> omega))

/-- The quartered entry is the specification's entry: under the outer sum over the 128 columns of the aggregate, the
    inner sum over all 8192 rows of the taken source table is split into its quarters. -/
theorem cell_of_quarters (dif : SD.Idx → EReal) (s dd : SO.Idx → EReal) (w : SW.Idx → EReal) (r : Fin 8192) (j : Fin 128) :
    max ((∑ k : Fin 128, ((((∑ l : Fin 2048, dif (ix2 r (qtr 0 l)) * s (ix2 (qtr 0 l) k)) + ∑ l : Fin 2048, dif (ix2 r (qtr 1 l)) * s (ix2 (qtr 1 l) k))
                               + ∑ l : Fin 2048, dif (ix2 r (qtr 2 l)) * s (ix2 (qtr 2 l) k)) + ∑ l : Fin 2048, dif (ix2 r (qtr 3 l)) * s (ix2 (qtr 3 l) k)) * w (ix2 (lo k) j))
           + ∑ k : Fin 128, dd (ix2 r k) * w (ix2 (hi k) j))
          (Ideal.ofBits .f32 0x00000000#32)
      = cell dif s dd w r j := by
  unfold cell
  refine congrArg (fun x => max (x + ∑ k : Fin 128, dd (ix2 r k) * w (ix2 (hi k) j)) (Ideal.ofBits .f32 0x00000000#32)) ?_
  refine Finset.sum_congr rfl fun k _ => ?_
  rw [sum_quarters (fun l => dif (ix2 r l) * s (ix2 l k))]

end Cert.TcMath

end
-- ==== Proof.TcValue.lean ====
/-
  The result array after the TensorCore region is the specification's function of the five argument arrays.

  At grid point `t` of 32 the region's body leaves in the output buffer the block arithmetic of its seven input blocks:
  rows `256 t … 256 t + 255` of the mixing matrix cut into four column quarters, the whole taken source table, the same
  rows of the taken destination table, and the whole weights. Column `2048 a + l` of the mixing matrix is column `l` of
  quarter `a`, and row `2048 a + l` of the taken source table is row `l` of its `a`-th row quarter, so entry `(p, j)` of
  what point `t` writes back is the specification's entry `(256 t + p, j)` with its sum over 8192 positions taken by
  quarters. The 32 blocks of 256 rows tile the 8192 rows of the result, so the array ends holding the specification's
  function everywhere.
-/
import proofs.«215100_g16758962389080_cont_week2b_1182_23_alg».proof.Proof.HandKernelIdeal.TcDat
import proofs.«215100_g16758962389080_cont_week2b_1182_23_alg».proof.Proof.TcMath
import proofs.«215100_g16758962389080_cont_week2b_1182_23_alg».proof.Proof.Spec
import Idealize.ShloMosaic.Lib.Pipeline.Value
import Idealize.ShloMosaic.Lib.ValueIdx

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Spec Cert.TcMath

/-! ## The body's rectangles at an entry -/

theorem hz : (![0, 0] : Fin 2 → Nat) = fun _ => 0 := funext fun a => by fin_cases a <;> rfl

/-- Row `l` of the `a`-th row quarter of the taken source table is its row `2048 · a + l`. -/
theorem rS0_idx (l : Fin 2048) (k : Fin 128) : rS0.idx (ix2 l k) = ix2 (qtr 0 l) k := by
  funext a; apply Fin.ext
  match a with
  | ⟨0, _⟩ => show 0 + 1 * l.val = 2048 * (0 : Fin 4).val + l.val; simp
  | ⟨1, _⟩ => show 0 + 1 * k.val = k.val; omega
theorem rS1_idx (l : Fin 2048) (k : Fin 128) : rS1.idx (ix2 l k) = ix2 (qtr 1 l) k := by
  funext a; apply Fin.ext
  match a with
  | ⟨0, _⟩ => show 2048 + 1 * l.val = 2048 * (1 : Fin 4).val + l.val; simp
  | ⟨1, _⟩ => show 0 + 1 * k.val = k.val; omega
theorem rS2_idx (l : Fin 2048) (k : Fin 128) : rS2.idx (ix2 l k) = ix2 (qtr 2 l) k := by
  funext a; apply Fin.ext
  match a with
  | ⟨0, _⟩ => show 4096 + 1 * l.val = 2048 * (2 : Fin 4).val + l.val; simp
  | ⟨1, _⟩ => show 0 + 1 * k.val = k.val; omega
theorem rS3_idx (l : Fin 2048) (k : Fin 128) : rS3.idx (ix2 l k) = ix2 (qtr 3 l) k := by
  funext a; apply Fin.ext
  match a with
  | ⟨0, _⟩ => show 6144 + 1 * l.val = 2048 * (3 : Fin 4).val + l.val; simp
  | ⟨1, _⟩ => show 0 + 1 * k.val = k.val; omega

/-- Row `k` of the upper half of the weights is their row `k`, of the lower half their row `128 + k`. -/
theorem rW0_idx (k q : Fin 128) : rW0.idx (ix2 k q) = ix2 (lo k) q := by
  funext a; apply Fin.ext
  match a with
  | ⟨0, _⟩ => show 0 + 1 * k.val = k.val; omega
  | ⟨1, _⟩ => show 0 + 1 * q.val = q.val; omega
theorem rW1_idx (k q : Fin 128) : rW1.idx (ix2 k q) = ix2 (hi k) q := by
  funext a; apply Fin.ext
  match a with
  | ⟨0, _⟩ => show 128 + 1 * k.val = 128 + k.val; omega
  | ⟨1, _⟩ => show 0 + 1 * q.val = q.val; omega

/-- Through the whole-buffer rectangles an entry is itself. -/
theorem rD_idx (p : Fin 256) (l : Fin 2048) : rD.idx (ix2 p l) = ix2 p l := by
  funext a; apply Fin.ext
  match a with
  | ⟨0, _⟩ => show 0 + 1 * p.val = p.val; omega
  | ⟨1, _⟩ => show 0 + 1 * l.val = l.val; omega
theorem rO_idx (p : Fin 256) (k : Fin 128) : rO.idx (ix2 p k) = ix2 p k := by
  funext a; apply Fin.ext
  match a with
  | ⟨0, _⟩ => show 0 + 1 * p.val = p.val; omega
  | ⟨1, _⟩ => show 0 + 1 * k.val = k.val; omega

/-! ## One entry of what the body leaves -/

/-- One entry of what the block's arithmetic leaves in the output buffer: when the seven input buffers hold the blocks of
    the arrays that row `r` of the result needs — row `r` of the mixing matrix by column quarters, the whole taken source
    table, row `r` of the taken destination table, the whole weights — entry `(p, j)` is the specification's entry `(r, j)`. -/
theorem out_value (dif : SD.Idx → EReal) (s dd : SO.Idx → EReal) (w : SW.Idx → EReal)
    (x0 x1 x2 x3 : Vec Ideal S256x2048 .f32) (x4 : Vec Ideal S8192x128 .f32) (x5 x6 : Vec Ideal S256x128 .f32)
    (r : Fin 8192) (p : Fin 256) (j : Fin 128)
    (h0 : ∀ l : Fin 2048, x0 (ix2 p l) = dif (ix2 r (qtr 0 l)))
    (h1 : ∀ l : Fin 2048, x1 (ix2 p l) = dif (ix2 r (qtr 1 l)))
    (h2 : ∀ l : Fin 2048, x2 (ix2 p l) = dif (ix2 r (qtr 2 l)))
    (h3 : ∀ l : Fin 2048, x3 (ix2 p l) = dif (ix2 r (qtr 3 l)))
    (h4 : ∀ i, x4 i = s i)
    (h5 : ∀ k : Fin 128, x5 (ix2 p k) = dd (ix2 r k))
    (h6 : ∀ i, x6 i = w i) :
    out1_7 x0 x1 x2 x3 x4 x5 x6 (ix2 p j) = cell dif s dd w r j := by
  unfold out1_7
  rw [View.canon_unit_zero hz]
  refine (pay_apply _ _ _ _ _ _ _ _ _ _ _ p j).trans ?_
  rw [← cell_of_quarters]
  simp only [View.ld, rD_idx, rO_idx, rS0_idx, rS1_idx, rS2_idx, rS3_idx, rW0_idx, rW1_idx]
  simp only [h0, h1, h2, h3, h4, h5, h6]

/-! ## What each point writes back -/

variable (m : (ℓ : Loc nD τ sig) → Buf (Elt Ideal) ℓ)

/-- The specification's function of the five arrays as the program finds them. -/
abbrev Gm (c : Dev nD) : S8192x128.Idx → EReal :=
  G (m (fLoc c)) (m (sLoc c)) (m (tLoc c)) (m ((c.tc : Thread nD τ).loc main_arg3)) (m ((c.tc : Thread nD τ).loc main_arg4))

/-- The printed index maps, decided over the grid: at point `t` the four windows over the mixing matrix are at block row
    `t` and block columns 0 to 3, the taken destination table and the result at block row `t`, the taken source table and
    the weights at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 1
    ∧ win1_2.index t (0 : Fin 2) = t.val ∧ win1_2.index t (1 : Fin 2) = 2
    ∧ win1_3.index t (0 : Fin 2) = t.val ∧ win1_3.index t (1 : Fin 2) = 3
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What point `t` writes back is block `t` of the specification's function of the arrays as the region finds them. -/
theorem flushed_eq (c : Dev nD) (t : Fin cfg1.N) :
    (dats (F := Ideal) m 0 c).flushed 7 t = ((cfg1.win 7).blk t).view.read (Elt Ideal) (Gm m c) := by
  show (cfg1.win 7).cut (grid1.coords t) ((dats m 0 c).after 7 t) = _
  rw [after1_7]
  obtain ⟨e00, e01, e10, e11, e20, e21, e30, e31, e40, e41, e50, e51, e60, e61, e70, e71⟩ := idx_facts t
  have ht : t.val < 32 := t.isLt
  refine funext fun (y : S256x128.Idx) => ?_
  obtain ⟨p, j, rfl⟩ : ∃ (p : Fin 256) (j : Fin 128), y = ix2 p j := ⟨y 0, y 1, eq_ix2 y⟩
  have hr : 256 * t.val + p.val < 8192 := by have := p.isLt; omega
  show out1_7 (iblk1 m c 0 t) (iblk1 m c 1 t) (iblk1 m c 2 t) (iblk1 m c 3 t) (iblk1 m c 4 t) (iblk1 m c 5 t) (iblk1 m c 6 t) (ix2 p j)
    = Gm m c (((cfg1.win 7).blk t).view.emb (ix2 p j))
  have hemb : ((cfg1.win 7).blk t).view.emb (ix2 p j) = ix2 (⟨256 * t.val + p.val, hr⟩ : Fin 8192) j := by
    funext a; apply Fin.ext
    match a with
    | ⟨0, _⟩ => show win1_7.index t (0 : Fin 2) * 256 + 1 * p.val = 256 * t.val + p.val; rw [e70]; omega
    | ⟨1, _⟩ => show win1_7.index t (1 : Fin 2) * 128 + 1 * j.val = j.val; rw [e71]; omega
  rw [hemb]
  show _ = H (m ((c.tc : Thread nD τ).loc main_arg3)) (take (m (fLoc c)) (m (sLoc c))) (take (m (fLoc c)) (m (tLoc c)))
    (m ((c.tc : Thread nD τ).loc main_arg4)) (ix2 (⟨256 * t.val + p.val, hr⟩ : Fin 8192) j)
  rw [H_apply]
  refine out_value (m ((c.tc : Thread nD τ).loc main_arg3)) (take (m (fLoc c)) (m (sLoc c))) (take (m (fLoc c)) (m (tLoc c)))
    (m ((c.tc : Thread nD τ).loc main_arg4))
    (iblk1 m c 0 t) (iblk1 m c 1 t) (iblk1 m c 2 t) (iblk1 m c 3 t) (iblk1 m c 4 t) (iblk1 m c 5 t) (iblk1 m c 6 t)
    ⟨256 * t.val + p.val, hr⟩ p j ?_ ?_ ?_ ?_ ?_ ?_ ?_
  · intro l
    show m ((c.tc : Thread nD τ).loc main_arg3) (((cfg1.win 0).blk t).view.emb (ix2 p l)) = _
    refine congrArg _ ?_
    funext a; apply Fin.ext
    match a with
    | ⟨0, _⟩ => show win1_0.index t (0 : Fin 2) * 256 + 1 * p.val = 256 * t.val + p.val; rw [e00]; omega
    | ⟨1, _⟩ => show win1_0.index t (1 : Fin 2) * 2048 + 1 * l.val = 2048 * (0 : Fin 4).val + l.val; rw [e01]; simp
  · intro l
    show m ((c.tc : Thread nD τ).loc main_arg3) (((cfg1.win 1).blk t).view.emb (ix2 p l)) = _
    refine congrArg _ ?_
    funext a; apply Fin.ext
    match a with
    | ⟨0, _⟩ => show win1_1.index t (0 : Fin 2) * 256 + 1 * p.val = 256 * t.val + p.val; rw [e10]; omega
    | ⟨1, _⟩ => show win1_1.index t (1 : Fin 2) * 2048 + 1 * l.val = 2048 * (1 : Fin 4).val + l.val; rw [e11]; simp
  · intro l
    show m ((c.tc : Thread nD τ).loc main_arg3) (((cfg1.win 2).blk t).view.emb (ix2 p l)) = _
    refine congrArg _ ?_
    funext a; apply Fin.ext
    match a with
    | ⟨0, _⟩ => show win1_2.index t (0 : Fin 2) * 256 + 1 * p.val = 256 * t.val + p.val; rw [e20]; omega
    | ⟨1, _⟩ => show win1_2.index t (1 : Fin 2) * 2048 + 1 * l.val = 2048 * (2 : Fin 4).val + l.val; rw [e21]; simp
  · intro l
    show m ((c.tc : Thread nD τ).loc main_arg3) (((cfg1.win 3).blk t).view.emb (ix2 p l)) = _
    refine congrArg _ ?_
    funext a; apply Fin.ext
    match a with
    | ⟨0, _⟩ => show win1_3.index t (0 : Fin 2) * 256 + 1 * p.val = 256 * t.val + p.val; rw [e30]; omega
    | ⟨1, _⟩ => show win1_3.index t (1 : Fin 2) * 2048 + 1 * l.val = 2048 * (3 : Fin 4).val + l.val; rw [e31]; simp
  · intro i
    show srcT m c (((cfg1.win 4).blk t).view.emb i) = _
    refine congrArg (take (m (fLoc c)) (m (sLoc c))) ?_
    funext a; apply Fin.ext
    match a with
    | ⟨0, _⟩ => show win1_4.index t (0 : Fin 2) * 8192 + 1 * (i 0).val = (i 0).val; rw [e40]; omega
    | ⟨1, _⟩ => show win1_4.index t (1 : Fin 2) * 128 + 1 * (i 1).val = (i 1).val; rw [e41]; omega
  · intro k
    show dstT m c (((cfg1.win 5).blk t).view.emb (ix2 p k)) = _
    refine congrArg (take (m (fLoc c)) (m (tLoc c))) ?_
    funext a; apply Fin.ext
    match a with
    | ⟨0, _⟩ => show win1_5.index t (0 : Fin 2) * 256 + 1 * p.val = 256 * t.val + p.val; rw [e50]; omega
    | ⟨1, _⟩ => show win1_5.index t (1 : Fin 2) * 128 + 1 * k.val = k.val; rw [e51]; omega
  · intro i
    show m ((c.tc : Thread nD τ).loc main_arg4) (((cfg1.win 6).blk t).view.emb i) = _
    refine congrArg _ ?_
    funext a; apply Fin.ext
    match a with
    | ⟨0, _⟩ => show win1_6.index t (0 : Fin 2) * 256 + 1 * (i 0).val = (i 0).val; rw [e60]; omega
    | ⟨1, _⟩ => show win1_6.index t (1 : Fin 2) * 128 + 1 * (i 1).val = (i 1).val; rw [e61]; omega

/-! ## The blocks tile the result -/

/-- An index of the result array is in point `t`'s block iff each coordinate is in the block's range on its axis. -/
theorem mem_blk (t : Fin cfg1.N) (i : S8192x128.Idx) :
    i ∈ ((cfg1.win 7).blk t).view.set ↔ ∀ a : Fin 2, win1_7.index t a * S256x128.size a ≤ (i a).val
      ∧ (i a).val < win1_7.index t a * S256x128.size a + S256x128.size a := by
  show i ∈ ((View.whole main_v1).slice (win1_7.rect t)).set ↔ _
  rw [View.set_slice_whole, Rect.mem_set_unit]
  exact Iff.rfl

/-- Every row of the result is in some point's block: row `r` in the block of point `r / 256`. -/
theorem cover (i : S8192x128.Idx) : ∃ t : Fin cfg1.N, (cfg1.win 7).flush t = true ∧ i ∈ ((cfg1.win 7).blk t).view.set := by
  have hi0 : (i 0).val < 8192 := (i 0).isLt
  have hi1 : (i 1).val < 128 := (i 1).isLt
  have hN : cfg1.N = 32 := N_1
  have hlt : (i 0).val / 256 < cfg1.N := by rw [hN]; omega
  obtain ⟨-, -, -, -, -, -, -, -, -, -, -, -, -, -, e70, e71⟩ := idx_facts ⟨(i 0).val / 256, hlt⟩
  refine ⟨⟨(i 0).val / 256, hlt⟩, flush1_7 _, ?_⟩
  rw [mem_blk]
  intro a
  match a with
  | ⟨0, _⟩ =>
    show win1_7.index ⟨(i 0).val / 256, hlt⟩ (0 : Fin 2) * 256 ≤ (i 0).val
      ∧ (i 0).val < win1_7.index ⟨(i 0).val / 256, hlt⟩ (0 : Fin 2) * 256 + 256
    rw [e70]; show (i 0).val / 256 * 256 ≤ (i 0).val ∧ (i 0).val < (i 0).val / 256 * 256 + 256; omega
  | ⟨1, _⟩ =>
    show win1_7.index ⟨(i 0).val / 256, hlt⟩ (1 : Fin 2) * 128 ≤ (i 1).val
      ∧ (i 1).val < win1_7.index ⟨(i 0).val / 256, hlt⟩ (1 : Fin 2) * 128 + 128
    rw [e71]; omega

/-- The result array after the region: the specification's function of the five arrays. -/
theorem final_v1 (c : Dev nD) :
    (Cert.KernelIdeal.Hand.dats (F := Ideal) m 0 c).arrAt 7 cfg1.N
      = Cert.Spec.G (m (Cert.KernelIdeal.Hand.fLoc c)) (m (Cert.KernelIdeal.Hand.sLoc c)) (m (Cert.KernelIdeal.Hand.tLoc c))
          (m ((c.tc : Thread nD τ).loc main_arg3)) (m ((c.tc : Thread nD τ).loc main_arg4)) :=
  (dats (F := Ideal) m 0 c).arrAt_eq_of_cover 7 (Gm m c) (fun t _ => flushed_eq m c t) (fun i => cover i)

end Cert.KernelIdeal.HandValue

end
-- ==== Proof.HandKernelIdeal.RegionDefs.lean ====
/-
  The TensorCore region as a segment of @main: what the TensorCore holds when it enters the region (the mixing matrix,
  the two taken tables as the gather tasks left them, the weights, the result buffer, and that it owes nothing), how
  that is sorted into the windows' arrays — the mixing matrix in four read shares, one per window that stages it, the
  rest kept aside —, and what it holds when the region ends: the same, the result buffer at what the 32 points wrote.
-/
import proofs.«215100_g16758962389080_cont_week2b_1182_23_alg».proof.Proof.HandKernelIdeal.TcDat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay tileRest ownBufs ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev dLoc (d : Dev nD) : Loc nD τ sig := (SparseCore.T d).loc main_arg3
abbrev wLoc (d : Dev nD) : Loc nD τ sig := (SparseCore.T d).loc main_arg4
abbrev oLoc (d : Dev nD) : Loc nD τ sig := (SparseCore.T d).loc main_v1

/-- The result buffer after the region. -/
abbrev outT (d : Dev nD) : Buf (Elt F) (oLoc d) := (dats m 0 d).arrAt 7 cfg1.N

def preR (d : Dev nD) : sProp (𝕄' F) :=
  iprop((dLoc d ↦{fullShare} m (dLoc d)) ∗ (aLoc d ↦{fullShare} srcT m d) ∗ (bLoc d ↦{fullShare} dstT m d)
    ∗ (wLoc d ↦{fullShare} m (wLoc d)) ∗ (oLoc d ↦{fullShare} m (oLoc d)) ∗ ∃ W, ⌜(K (F := F)).WBelow (SparseCore.T d) W 8⌝ ∗ owes (SparseCore.T d) 0 W)

def postR (d : Dev nD) : sProp (𝕄' F) :=
  iprop((dLoc d ↦{fullShare} m (dLoc d)) ∗ (aLoc d ↦{fullShare} srcT m d) ∗ (bLoc d ↦{fullShare} dstT m d)
    ∗ (wLoc d ↦{fullShare} m (wLoc d)) ∗ (oLoc d ↦{fullShare} outT m d) ∗ ∃ W, ⌜(K (F := F)).WBelow (SparseCore.T d) W 8⌝ ∗ owes (SparseCore.T d) 0 W)

/-- What stays outside the region: the part of the mixing matrix's share no window holds. -/
def keepR (d : Dev nD) : sProp (𝕄' F) := dLoc d ↦{Transfers.shareDrop fullShare 4} m (dLoc d)

/-- The windows' arrays, one by one. -/
theorem arrays_eq1 (d : Dev nD) (Fv : (w : Fin cfg1.W) → Buf (Elt F) ((cfg1.win w).arr.view.loc (d.tc : Thread nD τ))) :
    ((dats m 0 d).arrays Fv : sProp (𝕄' F))
      = iprop((dLoc d ↦{difSh 0} Fv 0) ∗ (dLoc d ↦{difSh 1} Fv 1) ∗ (dLoc d ↦{difSh 2} Fv 2) ∗ (dLoc d ↦{difSh 3} Fv 3)
          ∗ (aLoc d ↦{fullShare} Fv 4) ∗ (bLoc d ↦{fullShare} Fv 5) ∗ (wLoc d ↦{fullShare} Fv 6) ∗ (oLoc d ↦{fullShare} Fv 7)) := by
  have h : ((dats m 0 d).arrays Fv : sProp (𝕄' F))
      = bigSep Finset.univ fun w : Fin cfg1.W => ((cfg1.win w).arr.view.loc (d.tc : Thread nD τ) ↦{(dats m 0 d).share w} Fv w : sProp (𝕄' F)) := by
    unfold Dat.arrays
    exact bigSep_congr fun w _ => by rw [(arr_whole1 w).set_eq_univ]
  rw [h, bigSep_W1]
  rfl

theorem bigSep_fin4 {M : Type} [URA M] (Φ : Fin 4 → sProp M) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- The arrays when the region is entered, -/
theorem arrays_entry (d : Dev nD) :
    ((dats m 0 d).arrays ((dats m 0 d).arrAt · 0) : sProp (𝕄' F))
      = iprop((dLoc d ↦{difSh 0} m (dLoc d)) ∗ (dLoc d ↦{difSh 1} m (dLoc d)) ∗ (dLoc d ↦{difSh 2} m (dLoc d)) ∗ (dLoc d ↦{difSh 3} m (dLoc d))
          ∗ (aLoc d ↦{fullShare} srcT m d) ∗ (bLoc d ↦{fullShare} dstT m d) ∗ (wLoc d ↦{fullShare} m (wLoc d)) ∗ (oLoc d ↦{fullShare} m (oLoc d))) := by
  rw [arrays_eq1]; rfl

/-- and when it ends: an input array is never written. -/
theorem arrays_exit (d : Dev nD) :
    ((dats m 0 d).arrays ((dats m 0 d).arrAt · cfg1.N) : sProp (𝕄' F))
      = iprop((dLoc d ↦{difSh 0} m (dLoc d)) ∗ (dLoc d ↦{difSh 1} m (dLoc d)) ∗ (dLoc d ↦{difSh 2} m (dLoc d)) ∗ (dLoc d ↦{difSh 3} m (dLoc d))
          ∗ (aLoc d ↦{fullShare} srcT m d) ∗ (bLoc d ↦{fullShare} dstT m d) ∗ (wLoc d ↦{fullShare} m (wLoc d)) ∗ (oLoc d ↦{fullShare} outT m d)) := by
  rw [arrays_eq1, (dats m 0 d).arrAt_in 0 rfl, (dats m 0 d).arrAt_in 1 rfl, (dats m 0 d).arrAt_in 2 rfl, (dats m 0 d).arrAt_in 3 rfl,
    (dats m 0 d).arrAt_in 4 rfl, (dats m 0 d).arrAt_in 5 rfl, (dats m 0 d).arrAt_in 6 rfl]
  rfl

theorem prefHeld_none (d : Dev nD) :
    (Pipeline.prefHeld (pcfgs (F := F) 0).pre d (fun _ => fullShare) (adm (F := F) 0).1 : sProp (𝕄' F)) = iprop(emp) := by
  unfold Pipeline.prefHeld
  exact bigSep_empty

theorem ownSems0_none (d : Dev nD) :
    (Pipeline.ownSems0 (fun k : PEmpty => (k.elim : SemLoc sig)) d : sProp (𝕄' F)) = iprop(emp) := by
  unfold Pipeline.ownSems0
  exact bigSep_empty

set_option backward.isDefEq.respectTransparency.types false in
/-- The invariant at the first point is what the region hands in beyond the windows' arrays: the scoped rest. -/
theorem hin0 (c : Dev nD) (t : Fin (cfg1.N + 1)) (A B : sProp (𝕄' F)) :
    iprop(A ∗ B ∗ Pipeline.scopedRest (Pipeline.pin (pcfgs (F := F)) adm 0).spec c) ⊢ (dats m 0 c).Φ t := by
  rw [Φ_eq]
  iintro ⟨-, -, H⟩
  iexact H

set_option backward.isDefEq.respectTransparency.types false in
/-- and the invariant at the last point gives it back; the kernel has no semaphore of its own. -/
theorem hout0 (c : Dev nD) (t : Fin (cfg1.N + 1)) :
    (dats m 0 c).Φ t ⊢ iprop((iprop(emp) : sProp (𝕄' F)) ∗ Pipeline.ownSems0 (fun k : PEmpty => (k.elim : SemLoc sig)) c
      ∗ Pipeline.scopedRest (Pipeline.pin (pcfgs (F := F)) adm 0).spec c) := by
  rw [ownSems0_none, Φ_eq]
  iintro H
  isplitr; · iempintro
  isplitr; · iempintro
  iexact H

/-- The region's invariant is the same at every point. -/
theorem Φ_fun (c : Dev nD) :
    (dats m 0 c).Φ = fun _ => (Pipeline.scopedRest (Pipeline.pin (pcfgs (F := F)) adm 0).spec c : sProp (𝕄' F)) := by
  funext t; dsimp only [dats]

/-! ## What the launch deals for the region, and what is read at the end -/

/-- The staging cells of the region's pipeline are pairwise distinct. -/
theorem cellOf_inj1 : Function.Injective (Pipeline.cellOf (nD := nD) (τ := τ) (Pipeline.pin (pcfgs (F := F)) adm)) := cellOf_inj

/-- What the launch deals the TensorCore for the region: its staging cells' ghost state and duty tokens. -/
abbrev Gd (d : Dev nD) : sProp (𝕄' F) :=
  iprop(Pipeline.cellsGhost (Pipeline.pin (pcfgs (F := F)) adm) EP 0 d ∗ Pipeline.toksInit (Pipeline.pin (pcfgs (F := F)) adm) EP 0 d)

/-- What the TensorCore holds at the end: the five arguments as launched, the result buffer as the region left it. -/
abbrev FIN (d : Dev nD) : sProp (𝕄' F) :=
  iprop((fLoc d ↦{fullShare} m (fLoc d)) ∗ (sLoc d ↦{fullShare} m (sLoc d)) ∗ (tLoc d ↦{fullShare} m (tLoc d))
    ∗ (dLoc d ↦{fullShare} m (dLoc d)) ∗ (wLoc d ↦{fullShare} m (wLoc d)) ∗ (oLoc d ↦{fullShare} outT m d))

end Cert.KernelIdeal.Hand

end
-- ==== Proof.HandKernelIdeal.Region.lean ====
/-
  The TensorCore region as a segment of @main: the pipeline's decided layout, the body obligation, and the four
  entailments around the states the TensorCore enters and leaves the region in.
-/
import proofs.«215100_g16758962389080_cont_week2b_1182_23_alg».proof.Proof.HandKernelIdeal.RegionDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay tileRest ownBufs ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in
/-- The region as a segment of @main. -/
def R0 : Pipeline.RegionSeg (pcfgs (F := F)) adm (dats m) (none : HIx 1) defs₀ 𝒱₀ (K (F := F)).L (K (F := F)).lev 0 where
  win := winFacts₀1
  block_pos := block_pos1
  stage_whole := stage_whole1
  K := PEmpty
  osem := fun k => k.elim
  ho := Pipeline.OwnSemFacts.none _
  hbody := fun c => (body_obligation m c).loose
  hwaits := Pipeline.hwaits_of_owed_zero (pcfgs (F := F)) adm (dats m) none (K (F := F)).L (K (F := F)).lev 0 (fun _ _ => rfl)
  pre := preR m
  post := postR m
  X := fun _ => iprop(emp)
  Y := fun _ => iprop(emp)
  Z := keepR m
  hentry := by
    intro c
    rw [arrays_entry, prefHeld_none]
    unfold preR keepR
    iintro ⟨⟨Hd, Ha, Hb, Hw, Ho, %W, %hW, HO⟩, -, -⟩
    ihave Hd' := (Transfers.pointsTo_toks_split (ℓ := dLoc c) (S := Finset.univ) (f := m (dLoc c)) fullShare 4) $$ Hd
    rw [bigSep_fin4]
    icases Hd' with ⟨Hk, H0, H1, H2, H3⟩
    imodintro
    isplitl [H0 H1 H2 H3 Ha Hb Hw Ho]
    · isplitl [H0]; · iexact H0
      isplitl [H1]; · iexact H1
      isplitl [H2]; · iexact H2
      isplitl [H3]; · iexact H3
      isplitl [Ha]; · iexact Ha
      isplitl [Hb]; · iexact Hb
      isplitl [Hw]; · iexact Hw
      iexact Ho
    isplitr; · iempintro
    isplitl [HO]
    · iexists W; isplitr
      · ipureintro; exact fun p hp => Or.inl (hW p hp)
      · iexact HO
    isplitr; · iempintro
    iexact Hk
  hin := fun c => by
    rw [Φ_fun]
    iintro ⟨-, -, H⟩
    iexact H
  hout := fun c => by
    rw [Φ_fun, ownSems0_none]
    iintro H
    isplitr; · iempintro
    isplitr; · iempintro
    iexact H
  hexit := by
    intro c
    rw [arrays_exit]
    unfold postR keepR
    iintro ⟨⟨H0, H1, H2, H3, Ha, Hb, Hw, Ho⟩, ⟨%W, %hW, HO⟩, -, Hk⟩
    ihave Hd := (Transfers.pointsTo_toks_join (ℓ := dLoc c) (S := Finset.univ) (f := m (dLoc c)) fullShare 4) $$ [Hk H0 H1 H2 H3]
    · isplitl [Hk]; · iexact Hk
      rw [bigSep_fin4]
      isplitl [H0]; · iexact H0
      isplitl [H1]; · iexact H1
      isplitl [H2]; · iexact H2
      iexact H3
    imodintro
    isplitl [Hd]; · iexact Hd
    isplitl [Ha]; · iexact Ha
    isplitl [Hb]; · iexact Hb
    isplitl [Hw]; · iexact Hw
    isplitl [Ho]; · iexact Ho
    iexists W; isplitr
    · ipureintro
      intro p hp
      rcases hW hp with h | ⟨w, s, rfl⟩
      · exact h
      · exact Nat.zero_le _
    · iexact HO

end Cert.KernelIdeal.Hand

end
-- ==== Proof.HandKernelIdeal.Split.lean ====
/-
  How the five arrays split among the 2 × 16 gather tasks at the SparseCore call, and join again after it.

  The feature table is read whole by every task, so it goes out by READ SHARES: the full share gives one token to each
  SparseCore (the remainder stays with the TensorCore), and each SparseCore's token gives one to each of its sixteen
  vector subcores (the remainder stays beside the sixteen in what the SparseCore is handed). The two index lists and
  the two taken tables go out by BLOCKS: task number w = 2 s + c holds entries (rows) [256 w, 256 w + 256) of each; the
  thirty-two blocks are pairwise disjoint and cover the array, and (c, s) ↦ 2 s + c is a bijection of
  Fin 2 × Fin 16 with Fin 32. Joined again, a taken table holds one whole-array function on every block, hence
  everywhere.
-/
import proofs.«215100_g16758962389080_cont_week2b_1182_23_alg».proof.Proof.HandKernelIdeal.Common
import Idealize.ShloMosaic.Lib.Transfers

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The thirty-two blocks: pairwise disjoint, covering -/

theorem iSet_eq (w : Fin 32) : iSet w = (iblk w).set := by
  show ((View.whole (main_arg1_scv : Ref sig .scVector)).slice (iblk w)).set = _
  rw [View.set_slice]; exact Finset.map_refl
theorem rSet_eq (w : Fin 32) : rSet w = (rblk w).set := by
  show ((View.whole (main_v0_0_scv : Ref sig .scVector)).slice (rblk w)).set = _
  rw [View.set_slice]; exact Finset.map_refl
theorem iblocks_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
theorem rblocks_disjoint : ∀ i ∈ (Finset.univ : Finset (Fin 32)), ∀ j ∈ (Finset.univ : Finset (Fin 32)), i ≠ j → Disjoint (rSet i) (rSet j) :=
  fun i _ j _ h => by rw [rSet_eq, rSet_eq]; exact Rect.part_disjoint rdiv h
theorem iblocks_cover : (Finset.univ : Finset (Fin 32)).biUnion iSet = Finset.univ :=
  (Finset.biUnion_congr rfl fun i _ => iSet_eq i).trans (Rect.biUnion_part idiv)
theorem rblocks_cover : (Finset.univ : Finset (Fin 32)).biUnion rSet = Finset.univ :=
  (Finset.biUnion_congr rfl fun i _ => rSet_eq i).trans (Rect.biUnion_part rdiv)

/-! ## Task numbers: (c, s) ↦ 2 s + c is a bijection of Fin 2 × Fin 16 with Fin 32 -/

def widEquiv : Fin 2 × Fin 16 ≃ Fin 32 where
  toFun p := wid p.1 p.2
  invFun w := (⟨w.val % 2, Nat.mod_lt _ (by norm_num)⟩, ⟨w.val / 2, by have := w.isLt; omega⟩)
  left_inv p := by
    rcases p with ⟨c, s⟩
    refine Prod.ext (Fin.ext ?_) (Fin.ext ?_)
    · show (2 * s.val + c.val) % 2 = c.val
      have := c.isLt; omega
    · show (2 * s.val + c.val) / 2 = s.val
      have := c.isLt; omega
  right_inv w := by
    refine Fin.ext ?_
    show 2 * (w.val / 2) + w.val % 2 = w.val
    omega

/-- A family over the thirty-two task numbers, SparseCore by SparseCore and vector subcore by vector subcore. -/
theorem bigSep_wid (Φ : Fin 32 → sProp (𝕄' F)) :
    bigSep Finset.univ Φ = bigSep Finset.univ fun c : Fin 2 => bigSep Finset.univ fun s : Fin 16 => Φ (wid c s) := by
  rw [bigSep_univ_equiv widEquiv Φ, bigSep_univ_prod]; rfl

/-- Families over the launch theorem's own index types are families over Fin 16 and Fin 2. -/
theorem bigSep_tasks (Φ : Fin 16 → sProp (𝕄' F)) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp (𝕄' F)) :
    (bigSep Finset.univ fun c : Fin ((K (F := F)).nCore 0) => Φ (Fin.cast nCore_zero c)) = bigSep Finset.univ Φ :=
  bigSep_congr fun _ _ => congrArg Φ (Fin.ext rfl)

/-! ## An array whole is its thirty-two blocks -/

theorem sPts_blocks (d : Dev nD) (f : Buf (Elt F) (sLoc d)) :
    (sLoc d ↦{fullShare} f : sProp (𝕄' F))
      = bigSep Finset.univ fun c : Fin 2 => bigSep Finset.univ fun s : Fin 16 => sLoc d ↦[iSet (wid c s)]{fullShare} f := by
  rw [← bigSep_wid (F := F) (fun w => sLoc d ↦[iSet w]{fullShare} f),
    ← pointsTo_biUnion Finset.univ (ℓ := sLoc d) iSet iblocks_disjoint, iblocks_cover]; try rfl
theorem tPts_blocks (d : Dev nD) (f : Buf (Elt F) (tLoc d)) :
    (tLoc d ↦{fullShare} f : sProp (𝕄' F))
      = bigSep Finset.univ fun c : Fin 2 => bigSep Finset.univ fun s : Fin 16 => tLoc d ↦[iSet (wid c s)]{fullShare} f := by
  rw [← bigSep_wid (F := F) (fun w => tLoc d ↦[iSet w]{fullShare} f),
    ← pointsTo_biUnion Finset.univ (ℓ := tLoc d) iSet iblocks_disjoint, iblocks_cover]; try rfl
theorem aPts_blocks (d : Dev nD) (f : Buf (Elt F) (aLoc d)) :
    (aLoc d ↦{fullShare} f : sProp (𝕄' F))
      = bigSep Finset.univ fun c : Fin 2 => bigSep Finset.univ fun s : Fin 16 => aLoc d ↦[rSet (wid c s)]{fullShare} f := by
  rw [← bigSep_wid (F := F) (fun w => aLoc d ↦[rSet w]{fullShare} f),
    ← pointsTo_biUnion Finset.univ (ℓ := aLoc d) rSet rblocks_disjoint, rblocks_cover]; try rfl
theorem bPts_blocks (d : Dev nD) (f : Buf (Elt F) (bLoc d)) :
    (bLoc d ↦{fullShare} f : sProp (𝕄' F))
      = bigSep Finset.univ fun c : Fin 2 => bigSep Finset.univ fun s : Fin 16 => bLoc d ↦[rSet (wid c s)]{fullShare} f := by
  rw [← bigSep_wid (F := F) (fun w => bLoc d ↦[rSet w]{fullShare} f),
    ← pointsTo_biUnion Finset.univ (ℓ := bLoc d) rSet rblocks_disjoint, rblocks_cover]; try rfl

variable [FloatOps F] (m : (ℓ : Loc nD τ sig) → Buf (Elt F) ℓ)

/-! ## What a task holds, the taken tables at any contents -/

/-- Task (c, s)'s holdings with the two taken tables at `fa` and `fb`: what it is handed is this at the launch contents,
    what it hands back is this at the taken rows. -/
abbrev taskPts (d : Dev nD) (fa : Buf (Elt F) (aLoc d)) (fb : Buf (Elt F) (bLoc d)) (c : Fin 2) (s : Fin 16) : sProp (𝕄' F) :=
  iprop((fLoc d ↦{tileSh c s} m (fLoc d))
    ∗ (sLoc d ↦[iSet (wid c s)]{fullShare} m (sLoc d)) ∗ (tLoc d ↦[iSet (wid c s)]{fullShare} m (tLoc d))
    ∗ (aLoc d ↦[rSet (wid c s)]{fullShare} fa) ∗ (bLoc d ↦[rSet (wid c s)]{fullShare} fb))

/-- One SparseCore's sixteen tasks beside the remainder of its read share: the SparseCore's whole read share of the
    feature table, and the sixteen blocks of each of the four other arrays. -/
theorem core_iff (d : Dev nD) (fa : Buf (Elt F) (aLoc d)) (fb : Buf (Elt F) (bLoc d)) (c : Fin 2) :
    (iprop((fLoc d ↦{Transfers.shareDrop (coreSh c) 16} m (fLoc d)) ∗ bigSep Finset.univ fun s : Fin 16 => taskPts m d fa fb c s) : sProp (𝕄' F))
      ⊣⊢ iprop((fLoc d ↦{coreSh c} m (fLoc d))
          ∗ (bigSep Finset.univ fun s : Fin 16 => sLoc d ↦[iSet (wid c s)]{fullShare} m (sLoc d))
          ∗ (bigSep Finset.univ fun s : Fin 16 => tLoc d ↦[iSet (wid c s)]{fullShare} m (tLoc d))
          ∗ (bigSep Finset.univ fun s : Fin 16 => aLoc d ↦[rSet (wid c s)]{fullShare} fa)
          ∗ (bigSep Finset.univ fun s : Fin 16 => bLoc d ↦[rSet (wid c s)]{fullShare} fb)) := by
  rw [bigSep_sep', bigSep_sep', bigSep_sep', bigSep_sep']
  constructor
  · iintro ⟨Hd, Htok, Hr⟩
    isplitl [Hd Htok]
    · iapply (Transfers.pointsTo_toks_join (coreSh c) 16)
      isplitl [Hd]
      · iexact Hd
      · iexact Htok
    · iexact Hr
  · iintro ⟨Hf, Hr⟩
    ihave H := (Transfers.pointsTo_toks_split (ℓ := fLoc d) (S := Finset.univ) (f := m (fLoc d)) (coreSh c) 16) $$ Hf
    icases H with ⟨Hd, Htok⟩
    isplitl [Hd]
    · iexact Hd
    isplitl [Htok]
    · iexact Htok
    · iexact Hr

theorem core_eq (d : Dev nD) (fa : Buf (Elt F) (aLoc d)) (fb : Buf (Elt F) (bLoc d)) (c : Fin 2) :
    (iprop((fLoc d ↦{Transfers.shareDrop (coreSh c) 16} m (fLoc d)) ∗ bigSep Finset.univ fun s : Fin 16 => taskPts m d fa fb c s) : sProp (𝕄' F))
      = iprop((fLoc d ↦{coreSh c} m (fLoc d))
          ∗ (bigSep Finset.univ fun s : Fin 16 => sLoc d ↦[iSet (wid c s)]{fullShare} m (sLoc d))
          ∗ (bigSep Finset.univ fun s : Fin 16 => tLoc d ↦[iSet (wid c s)]{fullShare} m (tLoc d))
          ∗ (bigSep Finset.univ fun s : Fin 16 => aLoc d ↦[rSet (wid c s)]{fullShare} fa)
          ∗ (bigSep Finset.univ fun s : Fin 16 => bLoc d ↦[rSet (wid c s)]{fullShare} fb)) :=
  BI.equiv_iff.mp ⟨(core_iff m d fa fb c).1, (core_iff m d fa fb c).2⟩

/-- The five arrays whole are the TensorCore's remainder of the feature table's share beside, per SparseCore, the
    remainder of its share and its sixteen tasks' holdings. -/
theorem whole_iff (d : Dev nD) (fa : Buf (Elt F) (aLoc d)) (fb : Buf (Elt F) (bLoc d)) :
    (iprop((fLoc d ↦{fullShare} m (fLoc d)) ∗ (sLoc d ↦{fullShare} m (sLoc d)) ∗ (tLoc d ↦{fullShare} m (tLoc d))
        ∗ (aLoc d ↦{fullShare} fa) ∗ (bLoc d ↦{fullShare} fb)) : sProp (𝕄' F))
      ⊣⊢ iprop((fLoc d ↦{Transfers.shareDrop fullShare 2} m (fLoc d))
          ∗ bigSep Finset.univ fun c : Fin 2 =>
              iprop((fLoc d ↦{Transfers.shareDrop (coreSh c) 16} m (fLoc d)) ∗ bigSep Finset.univ fun s : Fin 16 => taskPts m d fa fb c s)) := by
  rw [bigSep_congr fun c _ => core_eq m d fa fb c, bigSep_sep', bigSep_sep', bigSep_sep', bigSep_sep',
    ← sPts_blocks, ← tPts_blocks, ← aPts_blocks, ← bPts_blocks]
  constructor
  · iintro ⟨Hf, Hr⟩
    ihave H := (Transfers.pointsTo_toks_split (ℓ := fLoc d) (S := Finset.univ) (f := m (fLoc d)) fullShare 2) $$ Hf
    icases H with ⟨Hd, Htok⟩
    isplitl [Hd]
    · iexact Hd
    isplitl [Htok]
    · iexact Htok
    · iexact Hr
  · iintro ⟨Hd, Htok, Hr⟩
    isplitl [Hd Htok]
    · iapply (Transfers.pointsTo_toks_join fullShare 2)
      isplitl [Hd]
      · iexact Hd
      · iexact Htok
    · iexact Hr

/-! ## What the handshakes carry, spelt out -/

theorem P_st (d : Dev nD) (c : Fin ((K (F := F)).nCore 0)) : (P m).st 0 d c = stPts m d (Fin.cast nCore_zero c) := rfl
theorem P_dn (d : Dev nD) (c : Fin ((K (F := F)).nCore 0)) : (P m).dn 0 d c = dnPts m d (Fin.cast nCore_zero c) := rfl
theorem P_go (d : Dev nD) (c : Fin ((K (F := F)).nCore 0)) (i : Fin ((K (F := F)).nSub 0)) :
    (P m).go 0 d c i = goPts m d (Fin.cast nCore_zero c) (Fin.cast nSub_zero i) := rfl
theorem P_td (d : Dev nD) (c : Fin ((K (F := F)).nCore 0)) (i : Fin ((K (F := F)).nSub 0)) :
    (P m).td 0 d c i = tdPts m d (Fin.cast nCore_zero c) (Fin.cast nSub_zero i) := rfl

/-! ## The three steps the launch asks for -/

/-- A SparseCore hands its sixteen tasks theirs and keeps the remainder of its read share until they are back. -/
theorem vecSplit : (K (F := F)).VecSplit' (P m) 0 := by
  intro d c
  simp only [P_st, P_dn, P_go, P_td]
  rw [bigSep_tasks (F := F) (fun s => goPts m d (Fin.cast nCore_zero c) s),
    bigSep_tasks (F := F) (fun s => tdPts m d (Fin.cast nCore_zero c) s)]
  iintro ⟨Hd, Hgo⟩
  imodintro
  isplitl [Hgo]
  · iexact Hgo
  iintro Htd
  isplitl [Hd]
  · iexact Hd
  · iexact Htd

/-- Before the call: the five arrays whole give each SparseCore what it is handed, the TensorCore keeping the
    remainder of the feature table's share. -/
theorem st_split (d : Dev nD) :
    iprop((fLoc d ↦{fullShare} m (fLoc d)) ∗ (sLoc d ↦{fullShare} m (sLoc d)) ∗ (tLoc d ↦{fullShare} m (tLoc d))
        ∗ (aLoc d ↦{fullShare} m (aLoc d)) ∗ (bLoc d ↦{fullShare} m (bLoc d)))
      ⊢ (iprop((fLoc d ↦{Transfers.shareDrop fullShare 2} m (fLoc d))
          ∗ bigSep Finset.univ fun c : Fin ((K (F := F)).nCore 0) => (P m).st 0 d c) : sProp (𝕄' F)) := by
  simp only [P_st]
  rw [bigSep_cores (F := F) (fun c => stPts m d c)]
  exact (whole_iff m d (m (aLoc d)) (m (bLoc d))).1

/-- After the call: what the SparseCores hand back, beside the TensorCore's remainder, is the five arrays whole, the
    taken tables holding the rows their index lists name. -/
theorem dn_join (d : Dev nD) :
    (iprop((fLoc d ↦{Transfers.shareDrop fullShare 2} m (fLoc d))
        ∗ bigSep Finset.univ fun c : Fin ((K (F := F)).nCore 0) => (P m).dn 0 d c) : sProp (𝕄' F))
      ⊢ iprop((fLoc d ↦{fullShare} m (fLoc d)) ∗ (sLoc d ↦{fullShare} m (sLoc d)) ∗ (tLoc d ↦{fullShare} m (tLoc d))
          ∗ (aLoc d ↦{fullShare} takeRows (m (fLoc d)) (m (sLoc d))) ∗ (bLoc d ↦{fullShare} takeRows (m (fLoc d)) (m (tLoc d)))) := by
  simp only [P_dn]
  rw [bigSep_cores (F := F) (fun c => dnPts m d c)]
  exact (whole_iff m d (takeRows (m (fLoc d)) (m (sLoc d))) (takeRows (m (fLoc d)) (m (tLoc d)))).2

end Cert.KernelIdeal.Hand

end
-- ==== Proof.HandKernelIdeal.Main.lean ====
/-
  @main on the TensorCore. The SparseCore call: the five arrays the gather tasks work on are split among the 2 × 16
  tasks and joined again, the two taken tables then holding the rows of the feature table the index lists name. After
  the call the TensorCore owes nothing, and enters its kernel region from that state; when the region ends it holds the
  five arguments as launched and the result buffer at what the region's 32 points wrote.
-/
import proofs.«215100_g16758962389080_cont_week2b_1182_23_alg».proof.Proof.HandKernelIdeal.Region
import proofs.«215100_g16758962389080_cont_week2b_1182_23_alg».proof.Proof.HandKernelIdeal.Split

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay tileRest ownBufs ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

variable (ρ : Dev nD → PrngReg)

theorem unscopedBufs_eq (d : Dev nD) (W : (b : Ref sig .tc) → Buf (Elt F) ((d.tc : Thread nD τ).loc b)) :
    (unscopedBufs d W : sProp (𝕄' F)) = iprop((fLoc d ↦{fullShare} W main_arg0) ∗ (sLoc d ↦{fullShare} W main_arg1) ∗ (tLoc d ↦{fullShare} W main_arg2)
      ∗ (dLoc d ↦{fullShare} W main_arg3) ∗ (wLoc d ↦{fullShare} W main_arg4) ∗ (aLoc d ↦{fullShare} W main_v0_0) ∗ (bLoc d ↦{fullShare} W main_v0_1)
      ∗ (oLoc d ↦{fullShare} W main_v1)) := by
  unfold unscopedBufs
  rw [show (Finset.univ.filter fun b : Ref sig .tc => ¬ b.isScoped) = {main_arg0, main_arg1, main_arg2, main_arg3, main_arg4, main_v0_0, main_v0_1, main_v1} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

set_option backward.isDefEq.respectTransparency.types false in
set_option maxHeartbeats 1600000 in
theorem hmain (κ : GSem nD τ sig → ℕ) (d : Dev nD) :
    iprop((K (F := F)).ctx EH (P m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  -- after the call the TensorCore owes nothing; its recorded waits sit at the call's levels
  obtain ⟨Rest, hRest⟩ : ∃ Rest : sProp (𝕄' F), (K (F := F)).tcSt EH d 1
      = iprop((∃ W, ⌜(K (F := F)).WBelow (SparseCore.T d) W 8⌝ ∗ owes (SparseCore.T d) 0 W) ∗ Rest) :=
    ⟨_, by unfold SparseCore.Cfg.tcSt; rw [(K (F := F)).Otc_end d (le_refl _)]⟩
  have hR := Pipeline.RegionSeg.wp (pcfgs (F := F)) adm (dats m) (none : HIx 1) cellOf_inj1 EP defs₀ 𝒱₀ (K (F := F)).L (K (F := F)).lev (R0 m) d none
    (fun u hu => absurd hu (Option.not_mem_none u)) (fun _ => .ret PUnit.unit) (fun _ => iprop(|={Set.univ}=> ((K (F := F)).tcSt EH d 1 ∗ FIN m d)))
  unfold SparseCore.Cfg.tcRes
  rw [unscopedBufs_eq]
  simp only [main, wp_bind, wp_pure]
  iintro ⟨#Hctx, Hst, ⟨Hbd, ⟨Hf, Hs, Ht, Hdm, Hw, Ha, Hb, Ho⟩, -, -⟩, ⟨Hcg, Htk⟩⟩
  ihave Hsp := (st_split m d) $$ [Hf Hs Ht Ha Hb]
  · isplitl [Hf]; · iexact Hf
    isplitl [Hs]; · iexact Hs
    isplitl [Ht]; · iexact Ht
    isplitl [Ha]; · iexact Ha
    iexact Hb
  icases Hsp with ⟨Hfk, Hstc⟩
  iapply ((K (F := F)).wp_run (D (F := F)) 𝒱 (EH := EH) (P := P m) κ d 0) $$ [Hst Hstc Hfk Hbd Hdm Hw Ho Hcg Htk]
  isplitr; · iexact Hctx
  isplitl [Hst]; · iexact Hst
  isplitl [Hstc]; · iexact Hstc
  iintro ⟨Hst, Hdn⟩
  ihave Hj := (dn_join m d) $$ [Hfk Hdn]
  · isplitl [Hfk]; · iexact Hfk
    iexact Hdn
  icases Hj with ⟨Hf, Hs, Ht, Ha, Hb⟩
  ihave Hst' := (Entails.of_eq (show (K (F := F)).tcSt EH d ((0 : Fin 1).val + 1) = _ from hRest)) $$ Hst
  icases Hst' with ⟨HO, Hrest⟩
  ihave Hlv := ((K (F := F)).ctx_levAts (EH := EH) (P := P m) κ) $$ Hctx
  -- the region, entered from the program's own signature
  iapply ((K (F := F)).wp_liftProg (D (F := F)) 𝒱 (SparseCore.T d) Set.univ none (Prog.lift (.customCall (Pipeline.entry 0) ())) _)
  iapply hR $$ [Hbd Hdm Hw Ho Hcg Htk Hf Hs Ht Ha Hb HO Hrest]
  isplitl [Hf Hs Ht Hrest]
  · iintro ⟨Hbd, Hpost⟩
    ihave Hpost' := (Entails.of_eq (show (R0 m).post d = postR m d from rfl)) $$ Hpost
    unfold postR
    icases Hpost' with ⟨Hdm, Ha, Hb, Hw, Ho, HO⟩
    simp only [wp_ret]
    imodintro
    imodintro
    rw [hRest]
    isplitl [HO Hrest]
    · isplitl [HO]; · iexact HO
      iexact Hrest
    isplitl [Hf]; · iexact Hf
    isplitl [Hs]; · iexact Hs
    isplitl [Ht]; · iexact Ht
    isplitl [Hdm]; · iexact Hdm
    isplitl [Hw]; · iexact Hw
    iexact Ho
  isplitl [Hbd]; · iexact Hbd
  isplitl [Hdm Ha Hb Hw Ho HO]
  · iapply (Entails.of_eq (show preR m d = (R0 m).pre d from rfl))
    unfold preR
    isplitl [Hdm]; · iexact Hdm
    isplitl [Ha]; · iexact Ha
    isplitl [Hb]; · iexact Hb
    isplitl [Hw]; · iexact Hw
    isplitl [Ho]; · iexact Ho
    iexact HO
  isplitr; · iexact Hlv
  isplitl [Hcg]; · iexact Hcg
  iexact Htk

end Cert.KernelIdeal.Hand

end
-- ==== Proof.HandKernelIdeal.LaunchElem.lean ====
/-
  The launch element of the certificate's ghost state and the final reading of the memory: the launch element funds the
  launch handshakes' rounds and, for each TensorCore, the ghost state and duty tokens of the staging cells of the one
  pipeline region; at the end the TensorCore holds the five arguments as launched and the result buffer as the region
  left it, which is what the final memory then holds.
-/
import proofs.«215100_g16758962389080_cont_week2b_1182_23_alg».proof.Proof.HandKernelIdeal.RegionDefs

set_option maxRecDepth 16384

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-! ## The launch element -/

/-- The launch element: the pipeline's staging cells' rounds, the launch handshakes' rounds, the transfers' counters. -/
def u₀ : UU :=
  (initOf (Pipeline.cells (Pipeline.pin (pcfgs (F := F)) adm) cellOf_inj1) (Pipeline.launchToks (Pipeline.pin (pcfgs (F := F)) adm) cellOf_inj1),
    (initOf (K (F := F)).hsCells (K (F := F)).hsToks, 1))

omit [FloatOps F] in
theorem bigSep_emp' {I : Type} (s : Finset I) : (bigSep s fun _ => iprop(emp)) = (iprop(emp) : sProp (𝕄' F)) := bigSep_emp_const s

/-- The launch element pays for the handshakes' rounds and deals each TensorCore its region's staging cells' ghost state
    and duty tokens; the counters are dropped, and no thread is dealt anything beside. -/
theorem hu₀ : (ownU (u₀ (F := F)) : sProp (𝕄' F))
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  have hG : (bigSep Finset.univ fun c : Dev nD => bigSep Finset.univ fun p : Fin 1 =>
        (Pipeline.cellsGhost (Pipeline.pin (pcfgs (F := F)) adm) EP p c : sProp (𝕄' F)))
      = bigSep Finset.univ fun c : Dev nD => Pipeline.cellsGhost (Pipeline.pin (pcfgs (F := F)) adm) EP 0 c :=
    bigSep_congr fun c _ => bigSep_univ_of_subsingleton (0 : Fin 1)
  have hT : (bigSep Finset.univ fun c : Dev nD => bigSep Finset.univ fun p : Fin 1 =>
        (Pipeline.toksInit (Pipeline.pin (pcfgs (F := F)) adm) EP p c : sProp (𝕄' F)))
      = bigSep Finset.univ fun c : Dev nD => Pipeline.toksInit (Pipeline.pin (pcfgs (F := F)) adm) EP 0 c :=
    bigSep_congr fun c _ => bigSep_univ_of_subsingleton (0 : Fin 1)
  iintro Hu
  ihave H := (ownU_pair _ _) $$ Hu
  icases H with ⟨HP, HR⟩
  ihave H2 := (own_pair_emb embR _ _) $$ HR
  icases H2 with ⟨HH, -⟩
  imod (Pipeline.fund_ghost (Pipeline.pin (pcfgs (F := F)) adm) EP cellOf_inj1) $$ HP with ⟨Hg, Ht⟩
  imodintro
  isplitl [HH]; · iexact HH
  isplitl [Hg Ht]
  · rw [bigSep_sep']
    isplitl [Hg]
    · iapply (Entails.of_eq hG); iexact Hg
    · iapply (Entails.of_eq hT); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The final reading -/

/-- What the final memory of device `d` holds: the result buffer as the region left it, the five arguments as launched. -/
def fq (d : Dev nD) (s' : Phys nD τ sig (Elt F)) : Prop :=
  s'.mem.mem (oLoc d) = outT m d ∧ s'.mem.mem (fLoc d) = m (fLoc d) ∧ s'.mem.mem (sLoc d) = m (sLoc d) ∧ s'.mem.mem (tLoc d) = m (tLoc d)
    ∧ s'.mem.mem (dLoc d) = m (dLoc d) ∧ s'.mem.mem (wLoc d) = m (wLoc d)

theorem hfin (d : Dev nD) (s' : Phys nD τ sig (Elt F)) : iprop(FIN m d ∗ SI s') ⊢ (⌜fq m d s'⌝ : sProp (𝕄' F)) := by
  iintro ⟨⟨Hf, Hs, Ht, Hd, Hw, Ho⟩, HSI⟩
  ihave H := (persistent_entails_right (SI_pointsTo_agree (st := s') (ℓ := fLoc d) (I := Finset.univ) (q := fullShare) (f := m (fLoc d)))) $$ [HSI Hf]
  · isplitl [HSI] <;> iassumption
  icases H with ⟨%h1, HSI, -⟩
  ihave H := (persistent_entails_right (SI_pointsTo_agree (st := s') (ℓ := sLoc d) (I := Finset.univ) (q := fullShare) (f := m (sLoc d)))) $$ [HSI Hs]
  · isplitl [HSI] <;> iassumption
  icases H with ⟨%h2, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h3, HSI, -⟩
  ihave H := (persistent_entails_right (SI_pointsTo_agree (st := s') (ℓ := dLoc d) (I := Finset.univ) (q := fullShare) (f := m (dLoc d)))) $$ [HSI Hd]
  · isplitl [HSI] <;> iassumption
  icases H with ⟨%h4, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h5, HSI, -⟩
  ihave H := (SI_pointsTo_agree (st := s') (ℓ := oLoc d) (I := Finset.univ) (q := fullShare) (f := outT m d)) $$ [HSI Ho]
  · isplitl [HSI] <;> iassumption
  icases H with %h6
  ipureintro
  exact ⟨funext fun i => h6 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i)⟩

/-- The run's postcondition: on every device the result is what the region left and the five arguments are unchanged. -/
def QC : PUnit × MemSt nD τ sig (Elt F) → Prop := fun r => ∀ c : Dev nD,
  r.2.mem ((c.tc : Thread nD τ).loc main_v1) = outT m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

theorem hQ : ∀ s' : Phys nD τ sig (Elt F), (∀ d, fq m d s') → QC m (⟨⟩, s'.mem) := fun _ h c => h c

end Cert.KernelIdeal.Hand

end
-- ==== Proof.HandKernelIdeal.TileA.lean ====
/-
  The gather task's set-up: its grid point and block number, the blocks of the index lists and of the taken tables as
  the task slices them, the vector subcore's six DMA semaphores and four scratch buffers among its own, and the range
  of the words a copied index block holds.
-/
import proofs.«215100_g16758962389080_cont_week2b_1182_23_alg».proof.Proof.HandKernelIdeal.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The task's place -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)
/-- The task's block number. -/
abbrev wL (L : grid0.Coords) : Fin 32 := wid (cL L) (sL L)

/-! ## The arrays and scratches as the task names them -/

abbrev fM : Memref sig .scVector .hbm S100000x128 .f32 := Memref.whole main_arg0_scv
abbrev sM : Memref sig .scVector .hbm S8192 .i32 := Memref.whole main_arg1_scv
abbrev tM : Memref sig .scVector .hbm S8192 .i32 := Memref.whole main_arg2_scv
abbrev aM : Memref sig .scVector .hbm S8192x128 .f32 := Memref.whole main_v0_0_scv
abbrev bM : Memref sig .scVector .hbm S8192x128 .f32 := Memref.whole main_v0_1_scv
abbrev i0M : Memref sig .scVector .vmem S256 .i32 := Memref.whole cc0_scratch0
abbrev i1M : Memref sig .scVector .vmem S256 .i32 := Memref.whole cc0_scratch1
abbrev r0M : Memref sig .scVector .vmem S256x128 .f32 := Memref.whole cc0_scratch2
abbrev r1M : Memref sig .scVector .vmem S256x128 .f32 := Memref.whole cc0_scratch3

abbrev iblkK (L : grid0.Coords) : Rect S8192 := Rect.unit (s := S8192) (k0_off1 L) S256.size (k0_off1_inb L)
abbrev rblkK (L : grid0.Coords) : Rect S8192x128 := Rect.unit (s := S8192x128) (k0_off2 L) S256x128.size (k0_off2_inb L)
/-- Block `w` of the two index lists and rows block `w` of the two taken tables, and all of the feature table, as the
    task slices them. -/
abbrev sBlk (L : grid0.Coords) : Memref sig .scVector .hbm S256 .i32 := sM.slice (iblkK L) (fun _ => rfl)
abbrev tBlk (L : grid0.Coords) : Memref sig .scVector .hbm S256 .i32 := tM.slice (iblkK L) (fun _ => rfl)
abbrev aBlk (L : grid0.Coords) : Memref sig .scVector .hbm S256x128 .f32 := aM.slice (rblkK L) (fun _ => rfl)
abbrev bBlk (L : grid0.Coords) : Memref sig .scVector .hbm S256x128 .f32 := bM.slice (rblkK L) (fun _ => rfl)
abbrev fAll : Memref sig .scVector .hbm S100000x128 .f32 :=
  fM.slice (Rect.unit (s := S100000x128) ![0, 0] S100000x128.size inb_S100000x128_S100000x128_0_0) (fun _ => rfl)

theorem wL_val (L : grid0.Coords) : (wL L).val = 2 * (L 1).val + (L 0).val := rfl

theorem iblkK_eq (L : grid0.Coords) : iblkK L = iblk (wL L) := by
  unfold iblkK iblk Rect.part Rect.block
  congr 1 <;> funext a
  · rw [k0_off1_eq]
    match a with
    | 0 => simp [Shape.partIx, Shape.partSize, wid]; omega
  · match a with
    | 0 => simp [Shape.partSize]
theorem rblkK_eq (L : grid0.Coords) : rblkK L = rblk (wL L) := by
  unfold rblkK rblk Rect.part Rect.block
  congr 1 <;> funext a
  · rw [k0_off2_eq]
    match a with
    | 0 => simp [Shape.partIx, Shape.partSize, wid]; omega
    | 1 => simp [Shape.partIx, Shape.partSize]
  · match a with
    | 0 => simp [Shape.partSize]
    | 1 => simp [Shape.partSize]

theorem set_sBlk (L : grid0.Coords) : (sBlk L).view.set = iSet (wL L) := by
  show ((sM).view.slice (iblkK L)).set = ((sM).view.slice (iblk (wL L))).set
  rw [iblkK_eq]
theorem set_tBlk (L : grid0.Coords) : (tBlk L).view.set = iSet (wL L) :=
  (View.set_slice_whole main_arg2_scv (iblkK L)).trans ((congrArg (fun r : Rect S8192 => r.set) (iblkK_eq L)).trans (View.set_slice_whole main_arg1_scv (iblk (wL L))).symm)
theorem set_aBlk (L : grid0.Coords) : (aBlk L).view.set = rSet (wL L) := by
  show ((aM).view.slice (rblkK L)).set = ((aM).view.slice (rblk (wL L))).set
  rw [rblkK_eq]
theorem set_bBlk (L : grid0.Coords) : (bBlk L).view.set = rSet (wL L) :=
  (View.set_slice_whole main_v0_1_scv (rblkK L)).trans ((congrArg (fun r : Rect S8192x128 => r.set) (rblkK_eq L)).trans (View.set_slice_whole main_v0_0_scv (rblk (wL L))).symm)

/-! ## The held arrays in the task's spelling -/

section Pts

variable (d : Dev nD) (L : grid0.Coords)

theorem pts_sBlk (f : Buf (Elt F) (sLoc d)) :
    ((sBlk L).view.loc (V d (cV L) (jV L)) ↦[(sBlk L).view.set]{fullShare} f : sProp (𝕄' F)) = sLoc d ↦[iSet (wL L)]{fullShare} f := by
  rw [set_sBlk]
theorem pts_tBlk (f : Buf (Elt F) (tLoc d)) :
    ((tBlk L).view.loc (V d (cV L) (jV L)) ↦[(tBlk L).view.set]{fullShare} f : sProp (𝕄' F)) = tLoc d ↦[iSet (wL L)]{fullShare} f := by
  rw [set_tBlk]
theorem pts_aBlk (f : Buf (Elt F) (aLoc d)) :
    ((aBlk L).view.loc (V d (cV L) (jV L)) ↦[(aBlk L).view.set]{fullShare} f : sProp (𝕄' F)) = aLoc d ↦[rSet (wL L)]{fullShare} f := by
  rw [set_aBlk]
theorem pts_bBlk (f : Buf (Elt F) (bLoc d)) :
    ((bBlk L).view.loc (V d (cV L) (jV L)) ↦[(bBlk L).view.set]{fullShare} f : sProp (𝕄' F)) = bLoc d ↦[rSet (wL L)]{fullShare} f := by
  rw [set_bBlk]
theorem pts_fM (q : PosShare TreeShare) (f : Buf (Elt F) (fLoc d)) :
    ((fM).view.loc (V d (cV L) (jV L)) ↦{q} f : sProp (𝕄' F)) = fLoc d ↦{q} f := rfl

/-! ## The vector subcore's own semaphores and buffers -/

abbrev cell (d : Dev nD) (L : grid0.Coords) (a : DmaSems sig S_) : GSem nD τ sig := (V d (cV L) (jV L), .dma a.sem)

theorem cell_ne {a b : DmaSems sig S_} (h : a.sem ≠ b.sem) : cell d L a ≠ cell d L b :=
  fun e => h (SemLoc.dma.inj (Prod.mk.inj e).2)

theorem cell_mem (a : DmaSems sig S_) (h : (SemLoc.dma a.sem : SemLoc sig).isScoped .scVector = true) :
    cell d L a ∈ ownCells (V d (cV L) (jV L)) := (mem_ownCells (g := cell d L a)).mpr ⟨rfl, h⟩

theorem mem_erase_of {α : Type} [DecidableEq α] {s : Finset α} {a b : α} (h : a ≠ b) (hm : a ∈ s) : a ∈ s.erase b :=
  Finset.mem_erase.mpr ⟨h, hm⟩

/-- The six DMA semaphores of the task are among the subcore's own cells: they, at zero, and the rest. -/
theorem ownSems0_V :
    (ownSems0 (V d (cV L) (jV L)) : sProp (𝕄' F))
      = iprop(semVal (cell d L cc0_scratch4) 0 ∗ semVal (cell d L cc0_scratch5) 0 ∗ semVal (cell d L cc0_scratch6) 0
          ∗ semVal (cell d L cc0_scratch7) 0 ∗ semVal (cell d L cc0_scratch8) 0 ∗ semVal (cell d L cc0_scratch9) 0
          ∗ bigSep (((((((ownCells (V d (cV L) (jV L))).erase (cell d L cc0_scratch4)).erase (cell d L cc0_scratch5)).erase (cell d L cc0_scratch6)).erase
              (cell d L cc0_scratch7)).erase (cell d L cc0_scratch8)).erase (cell d L cc0_scratch9)) fun g => semVal g 0) := by
  unfold SparseCore.Cfg.ownSems0
  have m4 := cell_mem d L cc0_scratch4 (by decide)
  have m5 := cell_mem d L cc0_scratch5 (by decide)
  have m6 := cell_mem d L cc0_scratch6 (by decide)
  have m7 := cell_mem d L cc0_scratch7 (by decide)
  have m8 := cell_mem d L cc0_scratch8 (by decide)
  have m9 := cell_mem d L cc0_scratch9 (by decide)
  rw [SparseCore.bigSep_erase' m4,
    SparseCore.bigSep_erase' (mem_erase_of (cell_ne d L (by decide)) m5),
    SparseCore.bigSep_erase' (mem_erase_of (cell_ne d L (by decide)) (mem_erase_of (cell_ne d L (by decide)) m6)),
    SparseCore.bigSep_erase' (mem_erase_of (cell_ne d L (by decide)) (mem_erase_of (cell_ne d L (by decide)) (mem_erase_of (cell_ne d L (by decide)) m7))),
    SparseCore.bigSep_erase' (mem_erase_of (cell_ne d L (by decide)) (mem_erase_of (cell_ne d L (by decide)) (mem_erase_of (cell_ne d L (by decide))
      (mem_erase_of (cell_ne d L (by decide)) m8)))),
    SparseCore.bigSep_erase' (mem_erase_of (cell_ne d L (by decide)) (mem_erase_of (cell_ne d L (by decide)) (mem_erase_of (cell_ne d L (by decide))
      (mem_erase_of (cell_ne d L (by decide)) (mem_erase_of (cell_ne d L (by decide)) m9)))))]

abbrev bref (L : grid0.Coords) (b : Ref sig .scVector) : DevRef τ sig := (Proc.scVector (cV L) (jV L)).devRef b

theorem bref_mem (b : Ref sig .scVector) (h : (bref L b).owner = .proc (Proc.scVector (cV L) (jV L))) :
    bref L b ∈ ownRefs (τ := τ) (sig := sig) (.scVector (cV L) (jV L)) := SparseCore.Cfg.mem_ownRefs_of_owner h
theorem bref_ne {a b : Ref sig .scVector} (h : a ≠ b) : bref L a ≠ bref L b := fun e => h (Proc.devRef_injective _ e)

/-- The four scratch buffers are among the subcore's own: they are them, at some contents, and the rest. -/
theorem ownBufs_V :
    (ownBufs (V d (cV L) (jV L)) : sProp (𝕄' F))
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (bref L cc0_scratch0)).erase (bref L cc0_scratch1)).erase (bref L cc0_scratch2)).erase
              (bref L cc0_scratch3))
              fun b => iprop(∃ f, ((d, b) : Loc nD τ sig) ↦{fullShare} f)) := by
  unfold SparseCore.Cfg.ownBufs
  have m0 := bref_mem L cc0_scratch0 rfl
  have m1 := bref_mem L cc0_scratch1 rfl
  have m2 := bref_mem L cc0_scratch2 rfl
  have m3 := bref_mem L cc0_scratch3 rfl
  refine (SparseCore.bigSep_erase' m0).trans ?_
  rw [SparseCore.bigSep_erase' (mem_erase_of (bref_ne L (by decide)) m1),
    SparseCore.bigSep_erase' (mem_erase_of (bref_ne L (by decide)) (mem_erase_of (bref_ne L (by decide)) m2)),
    SparseCore.bigSep_erase' (mem_erase_of (bref_ne L (by decide)) (mem_erase_of (bref_ne L (by decide)) (mem_erase_of (bref_ne L (by decide)) m3)))]

/-! ## The words of a copied index block are in range -/

variable (m : (ℓ : Loc nD τ sig) → Buf (Elt F) ℓ)

/-- What the first index copy landed in its scratch is block `w` of the source list, each word below 100000. -/
theorem inb_of_pre_s (hpre : PreOK m) (fs : Buf (Elt F) ((V d (cV L) (jV L)).loc cc0_scratch0)) (pay : S256.Idx → Elt F .i32)
    (hpay : pay = (sBlk L).view.read (Elt F) (m (sLoc d))) :
    ∀ x, ((i0M).view.read (Elt F) (View.write (Elt F) (i0M).view fs pay Finset.univ) x).toNat < S100000x128.size gathers_S100000x128_S256x128.axis := by
  subst hpay; intro x
  rw [View.write_whole_univ]
  simp only [Memref.view_whole, View.read_whole]
  rw [show ∀ j, (sBlk L).view.read (Elt F) (m (sLoc d)) j = m (sLoc d) ((sBlk L).view.emb j) from fun j => (View.read_apply _ _).trans (cast_eq _ _)]
  exact (hpre d _).1
/-- and the second's, block `w` of the destination list. -/
theorem inb_of_pre_t (hpre : PreOK m) (fs : Buf (Elt F) ((V d (cV L) (jV L)).loc cc0_scratch1)) (pay : S256.Idx → Elt F .i32)
    (hpay : pay = (tBlk L).view.read (Elt F) (m (tLoc d))) :
    ∀ x, ((i1M).view.read (Elt F) (View.write (Elt F) (i1M).view fs pay Finset.univ) x).toNat < S100000x128.size gathers_S100000x128_S256x128.axis := by
  subst hpay; intro x
  rw [View.write_whole_univ]
  simp only [Memref.view_whole, View.read_whole]
  rw [show ∀ j, (tBlk L).view.read (Elt F) (m (tLoc d)) j = m (tLoc d) ((tBlk L).view.emb j) from fun j => (View.read_apply _ _).trans (cast_eq _ _)]
  exact (hpre d _).2

end Pts

end Cert.KernelIdeal.Hand

end
-- ==== Proof.HandKernelIdeal.TileB.lean ====
/-
  The value the gather task leaves: rows block `w` of each taken table, after its copy-out, is the feature table's rows
  named by block `w` of its index list.
-/
import proofs.«215100_g16758962389080_cont_week2b_1182_23_alg».proof.Proof.HandKernelIdeal.TileA

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## What the copied-out rows are

The copy-out writes a row scratch to rows block `w` of a taken table; the row scratch holds what its gather delivered: at
row `k`, the feature table's row named by word `k` of the index scratch, which is word `256 w + k` of the launch list. -/

/-- The first entry of the task's blocks: `256 (2 s + c)`. -/
def offL (L : grid0.Coords) : ℕ := 512 * (L 1).val + 256 * (L 0).val

theorem offL_le (L : grid0.Coords) : offL L + 256 ≤ 8192 := by
  have h0 : (L 0).val < 2 := (L 0).isLt
  have h1 : (L 1).val < 16 := (L 1).isLt
  unfold offL; omega

theorem rowMajor_symm_S256 (k' : Fin S256.numel) (k : Fin 256) (h : k'.val = k.val) : S256.rowMajor.symm k' = ix1 k := by
  refine (eq_ix1 _).trans ?_
  congr 1
  apply Fin.ext
  have e := Shape.rowMajor_val_one (d := ![256]) (S256.rowMajor.symm k')
  rw [Equiv.apply_symm_apply] at e
  exact e.symm.trans h

/-- The gather's payload over a list of row numbers that are the words `off …` of an index list, all in range, is the
    rows the list names there. -/
theorem gather_take (FT : S100000x128.Idx → Elt F .f32) (lst : S8192.Idx → BitVec 32) (hlt : ∀ j, (lst j).toNat < 100000)
    (off : ℕ) (hoff : off + 256 ≤ 8192)
    (r : Fin (S256x128.size gathers_S100000x128_S256x128.axis') → Fin (S100000x128.size gathers_S100000x128_S256x128.axis))
    (hr : ∀ (k : Fin 256), (r k).val = (lst (ix1 (⟨off + k.val, by have := k.isLt; omega⟩ : Fin 8192))).toNat)
    (j : S256x128.Idx) :
    SparseCore.gatherPayload gathers_S100000x128_S256x128 FT r j
      = takeRows FT lst (ix2 (⟨off + (j 0).val, by have h : (j 0).val < 256 := (j 0).isLt; omega⟩ : Fin 8192) (j 1)) := by
  unfold SparseCore.gatherPayload takeRows
  congr 1
  funext b
  apply Fin.ext
  match b with
  | 0 =>
    have h0 := Shape.Gathers.idx_axis gathers_S100000x128_S256x128 r j
    refine (congrArg Fin.val h0).trans ?_
    exact (hr (j 0)).trans (Nat.mod_eq_of_lt (hlt _)).symm
  | 1 => exact Shape.Gathers.idx_of_ne gathers_S100000x128_S256x128 r j 1 (by decide)

section Value

variable (d : Dev nD) (L : grid0.Coords)

theorem emb_sBlk (k : S256.Idx) : (sBlk L).view.emb k = ix1 (⟨offL L + (k 0).val, by have := offL_le L; have h : (k 0).val < 256 := (k 0).isLt; omega⟩ : Fin 8192) := by
  funext a
  apply Fin.ext
  have h1 := k0_off1_eq L
  match a with
  | 0 =>
    show k0_off1 L 0 + 1 * (k 0).val = offL L + (k 0).val
    rw [h1]; simp [offL]
theorem emb_tBlk (k : S256.Idx) : (tBlk L).view.emb k = ix1 (⟨offL L + (k 0).val, by have := offL_le L; have h : (k 0).val < 256 := (k 0).isLt; omega⟩ : Fin 8192) := by
  funext a
  apply Fin.ext
  have h1 := k0_off1_eq L
  match a with
  | 0 =>
    show k0_off1 L 0 + 1 * (k 0).val = offL L + (k 0).val
    rw [h1]; simp [offL]
theorem emb_aBlk (j : S256x128.Idx) :
    (aBlk L).view.emb j = ix2 (⟨offL L + (j 0).val, by have := offL_le L; have h : (j 0).val < 256 := (j 0).isLt; omega⟩ : Fin 8192) (j 1) := by
  funext a
  apply Fin.ext
  have h2 := k0_off2_eq L
  match a with
  | 0 =>
    show k0_off2 L 0 + 1 * (j 0).val = offL L + (j 0).val
    rw [h2]; simp [offL]
  | 1 =>
    show k0_off2 L 1 + 1 * (j 1).val = (j 1).val
    rw [h2]; simp
theorem emb_bBlk (j : S256x128.Idx) :
    (bBlk L).view.emb j = ix2 (⟨offL L + (j 0).val, by have := offL_le L; have h : (j 0).val < 256 := (j 0).isLt; omega⟩ : Fin 8192) (j 1) := by
  funext a
  apply Fin.ext
  have h2 := k0_off2_eq L
  match a with
  | 0 =>
    show k0_off2 L 0 + 1 * (j 0).val = offL L + (j 0).val
    rw [h2]; simp [offL]
  | 1 =>
    show k0_off2 L 1 + 1 * (j 1).val = (j 1).val
    rw [h2]; simp

theorem read_fAll (FT : Buf (Elt F) (fLoc d)) : (fAll).view.read (Elt F) FT = FT := by
  funext x
  refine ((View.read_apply _ _).trans (cast_eq _ _)).trans (congrArg FT ?_)
  funext a
  apply Fin.ext
  match a with
  | 0 => show 0 + 1 * (x 0).val = (x 0).val; omega
  | 1 => show 0 + 1 * (x 1).val = (x 1).val; omega

variable (m : (ℓ : Loc nD τ sig) → Buf (Elt F) ℓ)

/-- Rows block `w` of the first taken table after the first copy-out: the feature table's rows the source list names. -/
theorem taken_a (hpre : PreOK m) (f0 : Buf (Elt F) ((V d (cV L) (jV L)).loc cc0_scratch0)) (g0 : Buf (Elt F) ((V d (cV L) (jV L)).loc cc0_scratch2))
    (hn : S256.numel = S256x128.size gathers_S100000x128_S256x128.axis')
    (hin : ∀ x, ((i0M).view.read (Elt F) (View.write (Elt F) (i0M).view f0 ((sBlk L).view.read (Elt F) (m (sLoc d))) Finset.univ) x).toNat
      < S100000x128.size gathers_S100000x128_S256x128.axis)
    (pay : S256x128.Idx → Elt F .f32)
    (hpay : pay = (r0M).view.read (Elt F) (View.write (Elt F) (r0M).view g0
      (SparseCore.gatherPayload gathers_S100000x128_S256x128 ((fAll).view.read (Elt F) (m (fLoc d)))
        (SparseCore.rows ((i0M).view.read (Elt F) (View.write (Elt F) (i0M).view f0 ((sBlk L).view.read (Elt F) (m (sLoc d))) Finset.univ)) hn hin))
      Finset.univ)) :
    ∀ i ∈ (aBlk L).view.set, (aBlk L).view.writes (Elt F) (m (aLoc d)) [⟨Rect.whole S256x128, pay⟩] i = takeRows (m (fLoc d)) (m (sLoc d)) i := by
  intro i hi
  obtain ⟨j, -, rfl⟩ := Finset.mem_map.mp hi
  have e1 : (aBlk L).view.writes (Elt F) (m (aLoc d)) [⟨Rect.whole S256x128, pay⟩] ((aBlk L).view.emb j) = pay j := by
    have e0 := View.read_writes_cons_emb (aBlk L).view (m (aLoc d)) (Rect.whole S256x128) pay [] j
    rw [Rect.emb_whole_apply] at e0
    exact ((cast_eq _ _).symm.trans (View.read_apply _ _).symm).trans e0
  have hG := View.write_whole_univ cc0_scratch2 g0 (SparseCore.gatherPayload gathers_S100000x128_S256x128 ((fAll).view.read (Elt F) (m (fLoc d)))
        (SparseCore.rows ((i0M).view.read (Elt F) (View.write (Elt F) (i0M).view f0 ((sBlk L).view.read (Elt F) (m (sLoc d))) Finset.univ)) hn hin))
  have hI := View.write_whole_univ cc0_scratch0 f0 ((sBlk L).view.read (Elt F) (m (sLoc d)))
  rw [e1, hpay]
  refine (congrFun hG j).trans ?_
  rw [read_fAll, emb_aBlk]
  refine gather_take (m (fLoc d)) (m (sLoc d)) (fun j => (hpre d j).1) (offL L) (offL_le L) _ (fun k => ?_) j
  show ((i0M).view.read (Elt F) (View.write (Elt F) (i0M).view f0 ((sBlk L).view.read (Elt F) (m (sLoc d))) Finset.univ)
    (S256.rowMajor.symm (k.cast hn.symm))).toNat = _
  rw [rowMajor_symm_S256 (Fin.cast hn.symm k) k rfl]
  refine congrArg BitVec.toNat ((congrFun hI (ix1 k)).trans ?_)
  exact ((View.read_apply _ _).trans (cast_eq _ _)).trans (congrArg (m (sLoc d)) (emb_sBlk L (ix1 k)))

/-- Rows block `w` of the second taken table after the second copy-out: the rows the destination list names. -/
theorem taken_b (hpre : PreOK m) (f1 : Buf (Elt F) ((V d (cV L) (jV L)).loc cc0_scratch1)) (g1 : Buf (Elt F) ((V d (cV L) (jV L)).loc cc0_scratch3))
    (hn : S256.numel = S256x128.size gathers_S100000x128_S256x128.axis')
    (hin : ∀ x, ((i1M).view.read (Elt F) (View.write (Elt F) (i1M).view f1 ((tBlk L).view.read (Elt F) (m (tLoc d))) Finset.univ) x).toNat
      < S100000x128.size gathers_S100000x128_S256x128.axis)
    (pay : S256x128.Idx → Elt F .f32)
    (hpay : pay = (r1M).view.read (Elt F) (View.write (Elt F) (r1M).view g1
      (SparseCore.gatherPayload gathers_S100000x128_S256x128 ((fAll).view.read (Elt F) (m (fLoc d)))
        (SparseCore.rows ((i1M).view.read (Elt F) (View.write (Elt F) (i1M).view f1 ((tBlk L).view.read (Elt F) (m (tLoc d))) Finset.univ)) hn hin))
      Finset.univ)) :
    ∀ i ∈ (bBlk L).view.set, (bBlk L).view.writes (Elt F) (m (bLoc d)) [⟨Rect.whole S256x128, pay⟩] i = takeRows (m (fLoc d)) (m (tLoc d)) i := by
  intro i hi
  obtain ⟨j, -, rfl⟩ := Finset.mem_map.mp hi
  have e1 : (bBlk L).view.writes (Elt F) (m (bLoc d)) [⟨Rect.whole S256x128, pay⟩] ((bBlk L).view.emb j) = pay j := by
    have e0 := View.read_writes_cons_emb (bBlk L).view (m (bLoc d)) (Rect.whole S256x128) pay [] j
    rw [Rect.emb_whole_apply] at e0
    exact ((cast_eq _ _).symm.trans (View.read_apply _ _).symm).trans e0
  have hG := View.write_whole_univ cc0_scratch3 g1 (SparseCore.gatherPayload gathers_S100000x128_S256x128 ((fAll).view.read (Elt F) (m (fLoc d)))
        (SparseCore.rows ((i1M).view.read (Elt F) (View.write (Elt F) (i1M).view f1 ((tBlk L).view.read (Elt F) (m (tLoc d))) Finset.univ)) hn hin))
  have hI := View.write_whole_univ cc0_scratch1 f1 ((tBlk L).view.read (Elt F) (m (tLoc d)))
  rw [e1, hpay]
  refine (congrFun hG j).trans ?_
  rw [read_fAll, emb_bBlk]
  refine gather_take (m (fLoc d)) (m (tLoc d)) (fun j => (hpre d j).2) (offL L) (offL_le L) _ (fun k => ?_) j
  show ((i1M).view.read (Elt F) (View.write (Elt F) (i1M).view f1 ((tBlk L).view.read (Elt F) (m (tLoc d))) Finset.univ)
    (S256.rowMajor.symm (k.cast hn.symm))).toNat = _
  rw [rowMajor_symm_S256 (Fin.cast hn.symm k) k rfl]
  refine congrArg BitVec.toNat ((congrFun hI (ix1 k)).trans ?_)
  exact ((View.read_apply _ _).trans (cast_eq _ _)).trans (congrArg (m (tLoc d)) (emb_tBlk L (ix1 k)))

end Value

end Cert.KernelIdeal.Hand

end
-- ==== Proof.HandKernelIdeal.Tile.lean ====
/-
  The gather task's body obligation: on vector subcore `s` of SparseCore `c`, from its read share of the feature table,
  block `2 s + c` of the two index lists and rows block `2 s + c` of the two taken tables, the task leaves those rows at
  the rows of the feature table its two index blocks name, and everything else as it was handed it.

  The two index blocks are copied to the two index scratches; each row scratch is filled by an indirect gather over its
  index scratch, and copied out to its rows block. The two gathers read the feature table at once: the task's read share
  is halved, one half lent to each, and put together again after their waits. Each of the six transfers has its own
  semaphore and no buffer is touched between a transfer's issue and its wait.
-/
import proofs.«215100_g16758962389080_cont_week2b_1182_23_alg».proof.Proof.HandKernelIdeal.TileB

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F]

local notation "fV" => (Memref.whole Cert.KernelIdeal.main_arg0_scv : Memref Cert.KernelIdeal.sig Kind.scVector Space.hbm Cert.KernelIdeal.S100000x128 EltTy.f32)
local notation "sV" => (Memref.whole Cert.KernelIdeal.main_arg1_scv : Memref Cert.KernelIdeal.sig Kind.scVector Space.hbm Cert.KernelIdeal.S8192 EltTy.i32)
local notation "tV" => (Memref.whole Cert.KernelIdeal.main_arg2_scv : Memref Cert.KernelIdeal.sig Kind.scVector Space.hbm Cert.KernelIdeal.S8192 EltTy.i32)
local notation "aV" => (Memref.whole Cert.KernelIdeal.main_v0_0_scv : Memref Cert.KernelIdeal.sig Kind.scVector Space.hbm Cert.KernelIdeal.S8192x128 EltTy.f32)
local notation "bV" => (Memref.whole Cert.KernelIdeal.main_v0_1_scv : Memref Cert.KernelIdeal.sig Kind.scVector Space.hbm Cert.KernelIdeal.S8192x128 EltTy.f32)
local notation "i0V" => (Memref.whole Cert.KernelIdeal.cc0_scratch0 : Memref Cert.KernelIdeal.sig Kind.scVector Space.vmem Cert.KernelIdeal.S256 EltTy.i32)
local notation "i1V" => (Memref.whole Cert.KernelIdeal.cc0_scratch1 : Memref Cert.KernelIdeal.sig Kind.scVector Space.vmem Cert.KernelIdeal.S256 EltTy.i32)
local notation "r0V" => (Memref.whole Cert.KernelIdeal.cc0_scratch2 : Memref Cert.KernelIdeal.sig Kind.scVector Space.vmem Cert.KernelIdeal.S256x128 EltTy.f32)
local notation "r1V" => (Memref.whole Cert.KernelIdeal.cc0_scratch3 : Memref Cert.KernelIdeal.sig Kind.scVector Space.vmem Cert.KernelIdeal.S256x128 EltTy.f32)

section Tile

variable (m : (ℓ : Loc nD τ sig) → Buf (Elt F) ℓ) (d : Dev nD) (L : grid0.Coords)

theorem pts_i0 (f : Buf (Elt F) ((V d (cV L) (jV L)).loc cc0_scratch0)) :
    ((i0V).view.loc (V d (cV L) (jV L)) ↦{fullShare} f : sProp (𝕄' F)) = (V d (cV L) (jV L)).loc cc0_scratch0 ↦{fullShare} f := rfl
theorem pts_i1 (f : Buf (Elt F) ((V d (cV L) (jV L)).loc cc0_scratch1)) :
    ((i1V).view.loc (V d (cV L) (jV L)) ↦{fullShare} f : sProp (𝕄' F)) = (V d (cV L) (jV L)).loc cc0_scratch1 ↦{fullShare} f := rfl
theorem pts_r0 (f : Buf (Elt F) ((V d (cV L) (jV L)).loc cc0_scratch2)) :
    ((r0V).view.loc (V d (cV L) (jV L)) ↦{fullShare} f : sProp (𝕄' F)) = (V d (cV L) (jV L)).loc cc0_scratch2 ↦{fullShare} f := rfl
theorem pts_r1 (f : Buf (Elt F) ((V d (cV L) (jV L)).loc cc0_scratch3)) :
    ((r1V).view.loc (V d (cV L) (jV L)) ↦{fullShare} f : sProp (𝕄' F)) = (V d (cV L) (jV L)).loc cc0_scratch3 ↦{fullShare} f := rfl

omit [FloatOps F] in
theorem pts_univ_set {ℓ : Loc nD τ sig} (I : Finset (Idx ℓ)) (hI : I = Finset.univ) (q : PosShare TreeShare) (f : Buf (Elt F) ℓ) :
    (ℓ ↦{q} f : sProp (𝕄' F)) = ℓ ↦[I]{q} f := by rw [hI]

set_option maxHeartbeats 4000000 in
theorem tile_body (hpre : PreOK m) (O : CellTallies nD τ sig (HIx 1)) (W : Waits sig (HIx 1)) (hO : ∀ g, O g none = 0) :
    iprop(levAts (K (F := F)).L (K (F := F)).lev ∗ emp
        ∗ goPts m d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather2 L fV (Memref.isWhole_whole _) sV (Memref.isWhole_whole _) tV (Memref.isWhole_whole _) aV (Memref.isWhole_whole _)
            bV (Memref.isWhole_whole _) i0V (Memref.isWhole_whole _) i1V (Memref.isWhole_whole _) r0V (Memref.isWhole_whole _)
            r1V (Memref.isWhole_whole _) cc0_scratch4 cc0_scratch5 cc0_scratch6 cc0_scratch7 cc0_scratch8 cc0_scratch9)
          fun _ => iprop(tdPts m d (cL L) (sL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather2_eq_skeleton]; unfold cc0_gather2_skel
  rw [(K (F := F)).scopedBufs_V facts d (cV L) (jV L), SparseCore.Cfg.scopedSems0_V (Val := Elt F) d (cV L) (jV L), ownSems0_V, ownBufs_V]
  iintro ⟨#Hlv, -, ⟨Hf, Hs, Ht, Ha, Hb⟩, ⟨⟨%f0, Hi0⟩, ⟨%f1, Hi1⟩, ⟨%g0, Hr0⟩, ⟨%g1, Hr1⟩, Hbufs⟩, ⟨Hc4, Hc5, Hc6, Hc7, Hc8, Hc9, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs' := (Entails.of_eq (pts_sBlk (F := F) d L _).symm) $$ Hs
  ihave Ht' := (Entails.of_eq (pts_tBlk (F := F) d L _).symm) $$ Ht
  ihave Ha' := (Entails.of_eq (pts_aBlk (F := F) d L _).symm) $$ Ha
  ihave Hb' := (Entails.of_eq (pts_bBlk (F := F) d L _).symm) $$ Hb
  ihave Hf' := (Entails.of_eq (pts_fM (F := F) d L _ _).symm) $$ Hf
  ihave Hi0' := (Entails.of_eq (pts_i0 (F := F) d L _).symm) $$ Hi0
  ihave Hi1' := (Entails.of_eq (pts_i1 (F := F) d L _).symm) $$ Hi1
  ihave Hr0' := (Entails.of_eq (pts_r0 (F := F) d L _).symm) $$ Hr0
  ihave Hr1' := (Entails.of_eq (pts_r1 (F := F) d L _).symm) $$ Hr1
  sl_exec
  -- the read share of the feature table in two halves, one for each gather
  ihave Hfs := (pointsTo_share (PosShare.mem_left_op_right (tileSh (cL L) (sL L)))).1 $$ Hf'
  icases Hfs with ⟨HfA, HfB⟩
  ihave HfA' := (pointsTo_split_subset (q := (tileSh (cL L) (sL L)).left) (f := m (fLoc d)) (S := Finset.univ) (Finset.subset_univ (fAll).view.set)).1 $$ HfA
  icases HfA' with ⟨HfAs, HfAr⟩
  ihave HfB' := (pointsTo_split_subset (q := (tileSh (cL L) (sL L)).right) (f := m (fLoc d)) (S := Finset.univ) (Finset.subset_univ (fAll).view.set)).1 $$ HfB
  icases HfB' with ⟨HfBs, HfBr⟩
  have hr0 : (r0V).view.set = Finset.univ := View.set_whole _
  have hr1 : (r1V).view.set = Finset.univ := View.set_whole _
  have hi0 : (i0V).view.set = Finset.univ := View.set_whole _
  have hi1 : (i1V).view.set = Finset.univ := View.set_whole _
  have hN0 : ∀ h : S100000x128.Gathers 0 S256x128, ∑ j, ((r0V).slice (S256x128.rowRect h.axis' j) (S256x128.stride_rowRect h.axis' j)).view.dmaCredit
      = (r0V).view.dmaCredit := fun h => SparseCore.sum_rowCredit_eq_dmaCredit _ _ (fun _ => rfl)
  have hN1 : ∀ h : S100000x128.Gathers 0 S256x128, ∑ j, ((r1V).slice (S256x128.rowRect h.axis' j) (S256x128.stride_rowRect h.axis' j)).view.dmaCredit
      = (r1V).view.dmaCredit := fun h => SparseCore.sum_rowCredit_eq_dmaCredit _ _ (fun _ => rfl)
  -- THE FIRST GATHER, over the source index block
  ihave Hr0'' := (Entails.of_eq (pts_univ_set _ hr0 _ _)) $$ Hr0'
  ihave Hi0'' := (Entails.of_eq (pts_univ_set _ hi0 _ _)) $$ Hi0'
  iapply (SparseCore.wp_indirectGatherLocal countersEmb 𝒱₀ (V d (cV L) (jV L)) none (hg := gathers_S100000x128_S256x128) (default : HIx 1)
      (r0V).view.dmaCredit (hN0 _) h_S256x128 (inb_of_pre_s d L m hpre f0 _ rfl)) $$ [HfAs Hr0'' Hi0'' Hc6]
  · isplitl [HfAs]; · iexact HfAs
    isplitl [Hr0'']; · iexact Hr0''
    isplitl [Hi0'']; · iexact Hi0''
    iexact Hc6
  iintro Hfl0
  sl_exec
  -- THE SECOND GATHER, over the destination index block, the first still in flight
  ihave Hr1'' := (Entails.of_eq (pts_univ_set _ hr1 _ _)) $$ Hr1'
  ihave Hi1'' := (Entails.of_eq (pts_univ_set _ hi1 _ _)) $$ Hi1'
  iapply (SparseCore.wp_indirectGatherLocal countersEmb 𝒱₀ (V d (cV L) (jV L)) none (hg := gathers_S100000x128_S256x128) (default : HIx 1)
      (r1V).view.dmaCredit (hN1 _) h_S256x128 (inb_of_pre_t d L m hpre f1 _ rfl)) $$ [HfBs Hr1'' Hi1'' Hc7]
  · isplitl [HfBs]; · iexact HfBs
    isplitl [Hr1'']; · iexact Hr1''
    isplitl [Hi1'']; · iexact Hi1''
    iexact Hc7
  iintro Hfl1
  sl_exec
  -- the first gather's wait: its row scratch filled, its half of the read share and its index scratch back
  iapply (Transfers.wp_waitLocalO countersEmb 𝒱₀ (V d (cV L) (jV L)) none (default : HIx 1) (rfl : (r0V).view.dmaCredit = _)) $$ [Hfl0 HO]
  · isplitl [Hfl0]; · iexact Hfl0
    isplitl [HO]; · iexact HO
    iapply (Transfers.MayWaits.elim (SemLoc.dma cc0_scratch6.sem)) $$ Hmw
  iintro ⟨⟨Hr0', HfAs, Hi0'⟩, Hc6, HO⟩
  ihave Hr0' := (Entails.of_eq (pts_univ_set _ hr0 _ _).symm) $$ Hr0'
  ihave Hi0' := (Entails.of_eq (pts_univ_set _ hi0 _ _).symm) $$ Hi0'
  sl_exec
  -- the second gather's wait
  iapply (Transfers.wp_waitLocalO countersEmb 𝒱₀ (V d (cV L) (jV L)) none (default : HIx 1) (rfl : (r1V).view.dmaCredit = _)) $$ [Hfl1 HO]
  · isplitl [Hfl1]; · iexact Hfl1
    isplitl [HO]; · iexact HO
    iapply (Transfers.MayWaits.elim (SemLoc.dma cc0_scratch7.sem)) $$ Hmw
  iintro ⟨⟨Hr1', HfBs, Hi1'⟩, Hc7, HO⟩
  ihave Hr1' := (Entails.of_eq (pts_univ_set _ hr1 _ _).symm) $$ Hr1'
  ihave Hi1' := (Entails.of_eq (pts_univ_set _ hi1 _ _).symm) $$ Hi1'
  -- the read share whole again
  ihave HfA := (pointsTo_split_subset (q := (tileSh (cL L) (sL L)).left) (f := m (fLoc d)) (S := Finset.univ) (Finset.subset_univ (fAll).view.set)).2 $$ [HfAs HfAr]
  · isplitl [HfAs] <;> iassumption
  ihave HfB := (pointsTo_split_subset (q := (tileSh (cL L) (sL L)).right) (f := m (fLoc d)) (S := Finset.univ) (Finset.subset_univ (fAll).view.set)).2 $$ [HfBs HfBr]
  · isplitl [HfBs] <;> iassumption
  ihave Hf := (pointsTo_share (PosShare.mem_left_op_right (tileSh (cL L) (sL L)))).2 $$ [HfA HfB]
  · isplitl [HfA] <;> iassumption
  sl_exec
  sl_step
  isplitl [Hf Hs' Ht' Ha' Hb']
  · isplitl [Hf]; · iexact Hf
    isplitl [Hs']; · iapply (Entails.of_eq (pts_sBlk (F := F) d L _)); iexact Hs'
    isplitl [Ht']; · iapply (Entails.of_eq (pts_tBlk (F := F) d L _)); iexact Ht'
    -- the rows copied out are the rows the index blocks name
    isplitl [Ha']
    · iapply (Entails.of_eq (pts_aBlk (F := F) d L _))
      iapply (Entails.of_eq (pointsTo_congr (taken_a d L m hpre f0 g0 _ _ _ rfl)))
      iexact Ha'
    · iapply (Entails.of_eq (pts_bBlk (F := F) d L _))
      iapply (Entails.of_eq (pointsTo_congr (taken_b d L m hpre f1 g1 _ _ _ rfl)))
      iexact Hb'
  isplitl [Hi0' Hi1' Hr0' Hr1' Hbufs]
  · isplitl [Hi0']; · iexists _; iexact Hi0'
    isplitl [Hi1']; · iexists _; iexact Hi1'
    isplitl [Hr0']; · iexists _; iexact Hr0'
    isplitl [Hr1']; · iexists _; iexact Hr1'
    iexact Hbufs
  isplitl [Hc4 Hc5 Hc6 Hc7 Hc8 Hc9 Hsems]
  · isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather2 (coordsV c s)
          fV (Memref.isWhole_whole _) sV (Memref.isWhole_whole _) tV (Memref.isWhole_whole _) aV (Memref.isWhole_whole _)
          bV (Memref.isWhole_whole _) i0V (Memref.isWhole_whole _) i1V (Memref.isWhole_whole _) r0V (Memref.isWhole_whole _)
          r1V (Memref.isWhole_whole _) cc0_scratch4 cc0_scratch5 cc0_scratch6 cc0_scratch7 cc0_scratch8 cc0_scratch9) ⟨⟩ c s := rfl

omit [FloatOps F] in
theorem obl_post {thr : Thread nD τ} {A B C : sProp (𝕄' F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hpre O W hO).trans (wp_mono frame _ _ fun _ => obl_post)

end Tile

end Cert.KernelIdeal.Hand

end
-- ==== Proof.HandKernelIdeal.Run.lean ====
/-
  The program's run, by the launch theorem for SparseCore programs: the gather task's obligation, how a SparseCore's
  operands split among its sixteen tasks, @main on the TensorCore, the launch element and the final reading. From the
  index lists in range: every weakly fair execution terminates, the five arguments are as launched and the result
  buffer is what the TensorCore region's 32 points wrote.
-/
import proofs.«215100_g16758962389080_cont_week2b_1182_23_alg».proof.Proof.HandKernelIdeal.Main
import proofs.«215100_g16758962389080_cont_week2b_1182_23_alg».proof.Proof.HandKernelIdeal.LaunchElem
import proofs.«215100_g16758962389080_cont_week2b_1182_23_alg».proof.Proof.HandKernelIdeal.Tile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay tileRest ownBufs ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

variable (ρ : Dev nD → PrngReg)

theorem run_main [∀ e, Nonempty (Elt F e)] (hpre : PreOK m) :
    θ_run (Cert.KernelIdeal.defs (F := F)) (Cert.KernelIdeal.threads (F := F)) ⟨m, fun _ => 0, ρ⟩ (fun r => ∀ c : Dev nD,
      r.2.mem ((c.tc : Thread nD τ).loc main_v1) = outT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => SparseCore.Cfg.VecSplit.of_plain (vecSplit m))
    m ρ main (fun d => Gd d) (FIN m) (u₀ (F := F)) (sep_elim_left.trans (hu₀ m)) (hmain m ρ) (fq m) (hfin m) (QC m) (hQ m)

end Cert.KernelIdeal.Hand

end
-- ==== Proof.HandKernel.Common.lean ====
/-
  What the kernel program's proof modules share: the program as the launch theorem for SparseCore programs sees it, the
  certificate's ghost state, the arrays' locations, the blocks and read shares the thirty-two gather tasks work on, and
  what the launch handshakes carry.

  The program: a SparseCore call on 2 SparseCores × 16 vector subcores, then one TensorCore kernel region. Task (c, s)
  — vector subcore `s` of SparseCore `c` — has number `2 s + c`; it copies entries [256·(2s+c), 256·(2s+c) + 256) of
  the two index lists into its two index scratches, gathers those rows of the feature table into its two row
  scratches, and copies them out to the same 256 rows of the two taken tables. Every task reads the WHOLE feature
  table, two gathers at a time, so each holds a read share of it. The row a word `v` names is `v.toNat`; all words
  are below 100000 under the precondition.
-/
import proofs.«215100_g16758962389080_cont_week2b_1182_23_alg».proof.Kernel
import proofs.«215100_g16758962389080_cont_week2b_1182_23_alg».proof.Proof.Gen.Kernel
import proofs.«215100_g16758962389080_cont_week2b_1182_23_alg».proof.Proof.Gen.Kernel.Skeleton
import proofs.«215100_g16758962389080_cont_week2b_1182_23_alg».proof.Proof.Gen.Kernel.Launch
import proofs.«215100_g16758962389080_cont_week2b_1182_23_alg».proof.Proof.Gen.Kernel.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.ValueIdx
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the pipeline's staging cells, the launch handshakes, the transfers' counters -/

abbrev UH : Type := URounds (GSem nD τ sig) ℕ
abbrev UP : Type := URounds (GSem nD τ sig) Unit
abbrev UU : Type := UP × (UH × Counters)

abbrev 𝕄' (F : FTy → Type) : Type := MT nD τ sig (HIx 1) (Elt F) ℕ UU ℕ

abbrev EP : Emb UP (𝕄' F) := embL
abbrev EH : Emb UH (𝕄' F) := (Emb.inl : Emb UH (UH × Counters)).trans embR

instance EH_landsIn : (EH (F := F)).LandsIn (upEmb : UEmb _ (𝕄' F)) := by unfold EH; infer_instance

/-! ## The arrays -/

abbrev fLoc (d : Dev nD) : Loc nD τ sig := (SparseCore.T d).loc main_arg0
abbrev sLoc (d : Dev nD) : Loc nD τ sig := (SparseCore.T d).loc main_arg1
abbrev tLoc (d : Dev nD) : Loc nD τ sig := (SparseCore.T d).loc main_arg2
abbrev aLoc (d : Dev nD) : Loc nD τ sig := (SparseCore.T d).loc main_v0_0
abbrev bLoc (d : Dev nD) : Loc nD τ sig := (SparseCore.T d).loc main_v0_1

/-- The rows of the table `f` an index list names: entry `(r, k)` is `f` at row `(idx r).toNat` (reduced modulo the
    table's 100000 rows so that the row exists whatever the word; an in-range word is its own value), column `k`. -/
def rowOf (idx : S8192.Idx → BitVec 32) (r : Fin 8192) : Fin 100000 :=
  ⟨(idx (ix1 r)).toNat % 100000, Nat.mod_lt _ (by norm_num)⟩

def takeRows {α : Type} (f : S100000x128.Idx → α) (idx : S8192.Idx → BitVec 32) : S8192x128.Idx → α :=
  fun i => f (ix2 (rowOf idx (i 0)) (i 1))

/-! ## The tasks' blocks and shares -/

/-- The number of task (c, s): `2 s + c`. -/
def wid (c : Fin 2) (s : Fin 16) : Fin 32 := ⟨2 * s.val + c.val, by omega⟩

theorem idiv : 32 ∣ S8192.size 0 := ⟨256, rfl⟩
theorem rdiv : 32 ∣ S8192x128.size 0 := ⟨256, rfl⟩
/-- Block `w` of an index list (256 entries) and of a taken table (256 rows). -/
abbrev iblk (w : Fin 32) : Rect S8192 := Rect.part (s := S8192) (a₀ := 0) idiv w
abbrev rblk (w : Fin 32) : Rect S8192x128 := Rect.part (s := S8192x128) (a₀ := 0) rdiv w
abbrev iSet (w : Fin 32) : Finset S8192.Idx := ((Memref.whole main_arg1_scv : Memref sig .scVector .hbm S8192 .i32).view.slice (iblk w)).set
abbrev rSet (w : Fin 32) : Finset S8192x128.Idx := ((Memref.whole main_v0_0_scv : Memref sig .scVector .hbm S8192x128 .f32).view.slice (rblk w)).set

/-- The read shares of the feature table: one per SparseCore, and of that one per vector subcore. -/
abbrev coreSh (c : Fin 2) : PosShare TreeShare := Transfers.shareTok fullShare 2 c
abbrev tileSh (c : Fin 2) (s : Fin 16) : PosShare TreeShare := Transfers.shareTok (coreSh c) 16 s

variable [FloatOps F]

/-! ## What the handshakes carry -/

variable (m : (ℓ : Loc nD τ sig) → Buf (Elt F) ℓ)

/-- What task `w` = (c, s) is handed: its read share of the feature table, block `w` of both index lists, rows block
    `w` of both taken tables at the launch contents; -/
abbrev goPts (d : Dev nD) (c : Fin 2) (s : Fin 16) : sProp (𝕄' F) :=
  iprop((fLoc d ↦{tileSh c s} m (fLoc d))
    ∗ (sLoc d ↦[iSet (wid c s)]{fullShare} m (sLoc d)) ∗ (tLoc d ↦[iSet (wid c s)]{fullShare} m (tLoc d))
    ∗ (aLoc d ↦[rSet (wid c s)]{fullShare} m (aLoc d)) ∗ (bLoc d ↦[rSet (wid c s)]{fullShare} m (bLoc d)))
/-- and what it hands back: the same, the taken tables' rows at the rows of the feature table its index blocks name. -/
abbrev tdPts (d : Dev nD) (c : Fin 2) (s : Fin 16) : sProp (𝕄' F) :=
  iprop((fLoc d ↦{tileSh c s} m (fLoc d))
    ∗ (sLoc d ↦[iSet (wid c s)]{fullShare} m (sLoc d)) ∗ (tLoc d ↦[iSet (wid c s)]{fullShare} m (tLoc d))
    ∗ (aLoc d ↦[rSet (wid c s)]{fullShare} takeRows (m (fLoc d)) (m (sLoc d)))
    ∗ (bLoc d ↦[rSet (wid c s)]{fullShare} takeRows (m (fLoc d)) (m (tLoc d))))
/-- What SparseCore `c` is handed for the call, and hands back: its sixteen tasks', the remainder of its read share beside. -/
abbrev stPts (d : Dev nD) (c : Fin 2) : sProp (𝕄' F) :=
  iprop((fLoc d ↦{Transfers.shareDrop (coreSh c) 16} m (fLoc d)) ∗ bigSep Finset.univ fun s : Fin 16 => goPts m d c s)
abbrev dnPts (d : Dev nD) (c : Fin 2) : sProp (𝕄' F) :=
  iprop((fLoc d ↦{Transfers.shareDrop (coreSh c) 16} m (fLoc d)) ∗ bigSep Finset.univ fun s : Fin 16 => tdPts m d c s)

def P : (K (F := F)).Pay (nD := nD) (Val := Elt F) (Name := ℕ) (U := UU) where
  st := fun q d c => match q with | 0 => stPts m d (Fin.cast nCore_zero c)
  dn := fun q d c => match q with | 0 => dnPts m d (Fin.cast nCore_zero c)
  go := fun q d c i => match q with | 0 => goPts m d (Fin.cast nCore_zero c) (Fin.cast nSub_zero i)
  td := fun q d c i => match q with | 0 => tdPts m d (Fin.cast nCore_zero c) (Fin.cast nSub_zero i)
  x := fun _ _ => iprop(emp)

instance P_storable : (P (F := F) m).IsStorable where
  st q d c := match q with
    | 0 => (inferInstance : BI.Storable (upEmb : UEmb _ (𝕄' F)) (stPts m d (Fin.cast nCore_zero c)))
  dn q d c := match q with
    | 0 => (inferInstance : BI.Storable (upEmb : UEmb _ (𝕄' F)) (dnPts m d (Fin.cast nCore_zero c)))
  go q d c i := match q with
    | 0 => (inferInstance : BI.Storable (upEmb : UEmb _ (𝕄' F)) (goPts m d (Fin.cast nCore_zero c) (Fin.cast nSub_zero i)))
  td q d c i := match q with
    | 0 => (inferInstance : BI.Storable (upEmb : UEmb _ (𝕄' F)) (tdPts m d (Fin.cast nCore_zero c) (Fin.cast nSub_zero i)))

/-- What the proof asks of the launch memory: every word of both index lists is below 100000. -/
def PreOK : Prop := ∀ (d : Dev nD) (j : S8192.Idx), (m (sLoc d) j).toNat < 100000 ∧ (m (tLoc d) j).toNat < 100000

end Cert.Kernel.Hand

end
-- ==== Proof.HandKernel.TcBody.lean ====
/-
  The TensorCore kernel's body as a triple. The body reads its seven input staging buffers — four 256×2048 blocks of the
  mixing matrix, the whole 8192×128 taken source table, a 256×128 block of the taken destination table, the whole
  256×128 weights — and overwrites its one 256×128 output buffer with ONE store of the value `k1_pay1` of what it
  loaded. So after the body the inputs are as they were and the output buffer is that value.
-/
import proofs.«215100_g16758962389080_cont_week2b_1182_23_alg».proof.Proof.HandKernel.Common
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's accesses -/

abbrev rD : Rect S256x2048 := Rect.unit (s := S256x2048) ![0, 0] S256x2048.size inb_S256x2048_S256x2048_0_0
abbrev rS0 : Rect S8192x128 := Rect.unit (s := S8192x128) ![0, 0] S2048x128.size inb_S8192x128_S2048x128_0_0
abbrev rS1 : Rect S8192x128 := Rect.unit (s := S8192x128) ![2048, 0] S2048x128.size inb_S8192x128_S2048x128_2048_0
abbrev rS2 : Rect S8192x128 := Rect.unit (s := S8192x128) ![4096, 0] S2048x128.size inb_S8192x128_S2048x128_4096_0
abbrev rS3 : Rect S8192x128 := Rect.unit (s := S8192x128) ![6144, 0] S2048x128.size inb_S8192x128_S2048x128_6144_0
abbrev rW0 : Rect S256x128 := Rect.unit (s := S256x128) ![0, 0] S128x128.size inb_S256x128_S128x128_0_0
abbrev rW1 : Rect S256x128 := Rect.unit (s := S256x128) ![128, 0] S128x128.size inb_S256x128_S128x128_128_0
abbrev rO : Rect S256x128 := Rect.unit (s := S256x128) ![0, 0] S256x128.size inb_S256x128_S256x128_0_0

/-- The output buffer after the body, from the seven input buffers' contents: its one store, as the one piece that
    covers it. -/
def out1_7 (x0 x1 x2 x3 : Vec F S256x2048 .f32) (x4 : Vec F S8192x128 .f32) (x5 x6 : Vec F S256x128 .f32) : Vec F S256x128 .f32 :=
  View.canon [⟨rO, k1_pay1 (View.ld x0 rD) (View.ld x4 rS0) (View.ld x1 rD) (View.ld x4 rS1) (View.ld x2 rD) (View.ld x4 rS2)
    (View.ld x3 rD) (View.ld x4 rS3) (View.ld x6 rW0) (View.ld x5 rO) (View.ld x6 rW1)⟩]

theorem cover1_7 (p0 : Vec F S256x128 .f32) (y : S256x128.Idx) :
    ∃ pc ∈ ([⟨rO, p0⟩] : List (View.Piece (Elt F) S256x128 .f32)), y ∈ pc.1.set :=
  View.cover_of_tiled [⟨rO, p0⟩] S256x128.size (by rfl) y

/-! ## The body's triple -/

set_option maxHeartbeats 4000000 in
theorem sound_kernel (c : Dev nD) (E : Set ℕ) (i : grid1.Coords)
    (arg1 : Memref sig .tc .vmem S256x2048 .f32) (harg1 : arg1.IsWhole) (arg2 : Memref sig .tc .vmem S256x2048 .f32) (harg2 : arg2.IsWhole)
    (arg3 : Memref sig .tc .vmem S256x2048 .f32) (harg3 : arg3.IsWhole) (arg4 : Memref sig .tc .vmem S256x2048 .f32) (harg4 : arg4.IsWhole)
    (arg5 : Memref sig .tc .vmem S8192x128 .f32) (harg5 : arg5.IsWhole) (arg6 : Memref sig .tc .vmem S256x128 .f32) (harg6 : arg6.IsWhole)
    (arg7 : Memref sig .tc .vmem S256x128 .f32) (harg7 : arg7.IsWhole) (arg8 : Memref sig .tc .vmem S256x128 .f32) (harg8 : arg8.IsWhole)
    (x0 x1 x2 x3 : Vec F S256x2048 .f32) (x4 : Vec F S8192x128 .f32) (x5 x6 : Vec F S256x128 .f32) (Kc : PUnit → sProp (𝕄' F)) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ Kc ⟨⟩))
      ⊢ wp frame (wpE (defs₀ (F := F)) Variants.none c none) E
          (cc1__tc_body i arg1 harg1 arg2 harg2 arg3 harg3 arg4 harg4 arg5 harg5 arg6 harg6 arg7 harg7 arg8 harg8) Kc := by
  simp only [cc1__tc_body_eq_skeleton]; unfold cc1__tc_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

end Cert.Kernel.Hand

end
-- ==== Proof.HandKernel.TcDat.lean ====
/-
  The TensorCore region's proof data. The region stages, at grid point `t` of 32: the four 256×2048 column quarters of
  rows block `t` of the mixing matrix (four windows over ONE array, each holding a quarter read share of it), the whole
  taken source table (fetched once), rows block `t` of the taken destination table, the whole weights (fetched once),
  and writes rows block `t` of the result back. The arrays as the region finds them: the mixing matrix, the weights
  and the result as launched, the two taken tables at the rows the gather tasks left. After the body every input
  buffer holds its block and the output buffer the body's value of the input blocks. The TensorCore owes nothing during
  the region, and the waits it has recorded sit at the levels of the SparseCore call that came before.
-/
import proofs.«215100_g16758962389080_cont_week2b_1182_23_alg».proof.Proof.HandKernel.TcBody

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The two taken tables as the gather tasks leave them. -/
abbrev srcT (c : Dev nD) : S8192x128.Idx → Elt F .f32 := takeRows (m (fLoc c)) (m (sLoc c))
abbrev dstT (c : Dev nD) : S8192x128.Idx → Elt F .f32 := takeRows (m (fLoc c)) (m (tLoc c))

/-- Each window's array as the region finds it. -/
def A1 (c : Dev nD) : (w : Fin cfg1.W) → Buf (Elt F) ((cfg1.win w).arr.view.loc (c.tc : Thread nD τ))
  | ⟨0, _⟩ => m ((c.tc : Thread nD τ).loc main_arg3)
  | ⟨1, _⟩ => m ((c.tc : Thread nD τ).loc main_arg3)
  | ⟨2, _⟩ => m ((c.tc : Thread nD τ).loc main_arg3)
  | ⟨3, _⟩ => m ((c.tc : Thread nD τ).loc main_arg3)
  | ⟨4, _⟩ => srcT m c
  | ⟨5, _⟩ => dstT m c
  | ⟨6, _⟩ => m ((c.tc : Thread nD τ).loc main_arg4)
  | ⟨7, _⟩ => m ((c.tc : Thread nD τ).loc main_v1)

/-- Window `w`'s block at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (A1 m c w)

/-- No prefetched tables: the one admissible choice. -/
abbrev adm : (p : Fin 1) → (pcfgs (F := F) p).Adm := fun p => (cfgs p).toPCfg_adm

/-- The read shares of the mixing matrix, one per window that stages it. -/
abbrev difSh (w : Fin 4) : PosShare TreeShare := Transfers.shareTok fullShare 4 w

def dats (_ : Fin 1) (c : Dev nD) : Dat τ (Elt F) (HIx 1) ℕ UU ℕ cfg1 c where
  A w := A1 m c w
  after w t := match w with
    | ⟨0, _⟩ => iblk1 m c 0 t
    | ⟨1, _⟩ => iblk1 m c 1 t
    | ⟨2, _⟩ => iblk1 m c 2 t
    | ⟨3, _⟩ => iblk1 m c 3 t
    | ⟨4, _⟩ => iblk1 m c 4 t
    | ⟨5, _⟩ => iblk1 m c 5 t
    | ⟨6, _⟩ => iblk1 m c 6 t
    | ⟨7, _⟩ => out1_7 (iblk1 m c 0 t) (iblk1 m c 1 t) (iblk1 m c 2 t) (iblk1 m c 3 t) (iblk1 m c 4 t) (iblk1 m c 5 t) (iblk1 m c 6 t)
  Φ _ := Pipeline.scopedRest (Pipeline.pin (pcfgs (F := F)) adm 0).spec c
  q w := match w with
    | ⟨0, _⟩ => difSh 0
    | ⟨1, _⟩ => difSh 1
    | ⟨2, _⟩ => difSh 2
    | ⟨3, _⟩ => difSh 3
    | ⟨4, _⟩ => fullShare
    | ⟨5, _⟩ => fullShare
    | ⟨6, _⟩ => fullShare
    | ⟨7, _⟩ => fullShare
  owed _ := 0
  recorded _ := {p | (K (F := F)).lev ((c.tc : Thread nD τ), p.1) p.2 ≤ 8}

/-- The region's invariant: the TensorCore's scoped buffers that no window stages, untouched. -/
theorem Φ_eq (c : Dev nD) (t : Fin (cfg1.N + 1)) :
    (dats m 0 c).Φ t = Pipeline.scopedRest (Pipeline.pin (pcfgs (F := F)) adm 0).spec c := by dsimp only [dats]

theorem A_eq (c : Dev nD) (w : Fin cfg1.W) : (dats m 0 c).A w = A1 m c w := by dsimp only [dats]

theorem after1_0 (c : Dev nD) (t : Fin cfg1.N) : (dats m 0 c).after 0 t = iblk1 m c 0 t := by dsimp only [dats]
theorem after1_1 (c : Dev nD) (t : Fin cfg1.N) : (dats m 0 c).after 1 t = iblk1 m c 1 t := by dsimp only [dats]
theorem after1_2 (c : Dev nD) (t : Fin cfg1.N) : (dats m 0 c).after 2 t = iblk1 m c 2 t := by dsimp only [dats]
theorem after1_3 (c : Dev nD) (t : Fin cfg1.N) : (dats m 0 c).after 3 t = iblk1 m c 3 t := by dsimp only [dats]
theorem after1_4 (c : Dev nD) (t : Fin cfg1.N) : (dats m 0 c).after 4 t = iblk1 m c 4 t := by dsimp only [dats]
theorem after1_5 (c : Dev nD) (t : Fin cfg1.N) : (dats m 0 c).after 5 t = iblk1 m c 5 t := by dsimp only [dats]
theorem after1_6 (c : Dev nD) (t : Fin cfg1.N) : (dats m 0 c).after 6 t = iblk1 m c 6 t := by dsimp only [dats]
theorem after1_7 (c : Dev nD) (t : Fin cfg1.N) : (dats m 0 c).after 7 t
    = out1_7 (iblk1 m c 0 t) (iblk1 m c 1 t) (iblk1 m c 2 t) (iblk1 m c 3 t) (iblk1 m c 4 t) (iblk1 m c 5 t) (iblk1 m c 6 t) := by dsimp only [dats]

/-- Each input window's current staging buffer holds its block at every point, fetched there or not: unfetched, the
    block index has not moved. -/
theorem before1_0 (c : Dev nD) (t : Fin cfg1.N) (d) : (dats m 0 c).before 0 t d = iblk1 m c 0 t :=
  ((dats m 0 c).before_in_eq_fetched 0 rfl (fun _ => rfl) (fun _ _ _ => rfl) (fun t => by rw [after1_0]; unfold Dat.blockOf iblk1; rw [A_eq]; try rfl) t d).trans
    (by unfold Dat.fetched Dat.blockOf iblk1; rw [A_eq]; try rfl)
theorem before1_1 (c : Dev nD) (t : Fin cfg1.N) (d) : (dats m 0 c).before 1 t d = iblk1 m c 1 t :=
  ((dats m 0 c).before_in_eq_fetched 1 rfl (fun _ => rfl) (fun _ _ _ => rfl) (fun t => by rw [after1_1]; unfold Dat.blockOf iblk1; rw [A_eq]; try rfl) t d).trans
    (by unfold Dat.fetched Dat.blockOf iblk1; rw [A_eq]; try rfl)
theorem before1_2 (c : Dev nD) (t : Fin cfg1.N) (d) : (dats m 0 c).before 2 t d = iblk1 m c 2 t :=
  ((dats m 0 c).before_in_eq_fetched 2 rfl (fun _ => rfl) (fun _ _ _ => rfl) (fun t => by rw [after1_2]; unfold Dat.blockOf iblk1; rw [A_eq]; try rfl) t d).trans
    (by unfold Dat.fetched Dat.blockOf iblk1; rw [A_eq]; try rfl)
theorem before1_3 (c : Dev nD) (t : Fin cfg1.N) (d) : (dats m 0 c).before 3 t d = iblk1 m c 3 t :=
  ((dats m 0 c).before_in_eq_fetched 3 rfl (fun _ => rfl) (fun _ _ _ => rfl) (fun t => by rw [after1_3]; unfold Dat.blockOf iblk1; rw [A_eq]; try rfl) t d).trans
    (by unfold Dat.fetched Dat.blockOf iblk1; rw [A_eq]; try rfl)
theorem before1_4 (c : Dev nD) (t : Fin cfg1.N) (d) : (dats m 0 c).before 4 t d = iblk1 m c 4 t :=
  ((dats m 0 c).before_in_eq_fetched 4 rfl (fun _ => rfl) (fun _ _ _ => rfl) (fun t => by rw [after1_4]; unfold Dat.blockOf iblk1; rw [A_eq]; try rfl) t d).trans
    (by unfold Dat.fetched Dat.blockOf iblk1; rw [A_eq]; try rfl)
theorem before1_5 (c : Dev nD) (t : Fin cfg1.N) (d) : (dats m 0 c).before 5 t d = iblk1 m c 5 t :=
  ((dats m 0 c).before_in_eq_fetched 5 rfl (fun _ => rfl) (fun _ _ _ => rfl) (fun t => by rw [after1_5]; unfold Dat.blockOf iblk1; rw [A_eq]; try rfl) t d).trans
    (by unfold Dat.fetched Dat.blockOf iblk1; rw [A_eq]; try rfl)
theorem before1_6 (c : Dev nD) (t : Fin cfg1.N) (d) : (dats m 0 c).before 6 t d = iblk1 m c 6 t :=
  ((dats m 0 c).before_in_eq_fetched 6 rfl (fun _ => rfl) (fun _ _ _ => rfl) (fun t => by rw [after1_6]; unfold Dat.blockOf iblk1; rw [A_eq]; try rfl) t d).trans
    (by unfold Dat.fetched Dat.blockOf iblk1; rw [A_eq]; try rfl)

/-! ## The body obligation, at a generic point -/

def bodyPre (c : Dev nD) (t : Fin cfg1.N) : sProp (𝕄' F) :=
  iprop((dats m 0 c).Φ t.castSucc ∗ (dats m 0 c).owesAt none t.castSucc
    ∗ (∃ d, owns (c : Thread nD τ) (st1_0 t) fullShare ((dats m 0 c).before 0 t d))
    ∗ (∃ d, owns (c : Thread nD τ) (st1_1 t) fullShare ((dats m 0 c).before 1 t d))
    ∗ (∃ d, owns (c : Thread nD τ) (st1_2 t) fullShare ((dats m 0 c).before 2 t d))
    ∗ (∃ d, owns (c : Thread nD τ) (st1_3 t) fullShare ((dats m 0 c).before 3 t d))
    ∗ (∃ d, owns (c : Thread nD τ) (st1_4 t) fullShare ((dats m 0 c).before 4 t d))
    ∗ (∃ d, owns (c : Thread nD τ) (st1_5 t) fullShare ((dats m 0 c).before 5 t d))
    ∗ (∃ d, owns (c : Thread nD τ) (st1_6 t) fullShare ((dats m 0 c).before 6 t d))
    ∗ (∃ d, owns (c : Thread nD τ) (st1_7 t) fullShare ((dats m 0 c).before 7 t d)))

def bodyPost (c : Dev nD) (t : Fin cfg1.N) : sProp (𝕄' F) :=
  iprop((dats m 0 c).Φ t.succ ∗ (dats m 0 c).owesAt none t.succ
    ∗ owns (c : Thread nD τ) (st1_0 t) fullShare ((dats m 0 c).after 0 t)
    ∗ owns (c : Thread nD τ) (st1_1 t) fullShare ((dats m 0 c).after 1 t)
    ∗ owns (c : Thread nD τ) (st1_2 t) fullShare ((dats m 0 c).after 2 t)
    ∗ owns (c : Thread nD τ) (st1_3 t) fullShare ((dats m 0 c).after 3 t)
    ∗ owns (c : Thread nD τ) (st1_4 t) fullShare ((dats m 0 c).after 4 t)
    ∗ owns (c : Thread nD τ) (st1_5 t) fullShare ((dats m 0 c).after 5 t)
    ∗ owns (c : Thread nD τ) (st1_6 t) fullShare ((dats m 0 c).after 6 t)
    ∗ owns (c : Thread nD τ) (st1_7 t) fullShare ((dats m 0 c).after 7 t))

theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before1_0, before1_1, before1_2, before1_3, before1_4, before1_5, before1_6]
  rw [show (dats m 0 c).Φ t.succ = (dats m 0 c).Φ t.castSucc from rfl,
    show (dats m 0 c).owesAt none t.succ = (dats m 0 c).owesAt none t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid1.coords t) _ _ _ _ _ _ _ _ _ _ _ _ _ _ _ _
    (iblk1 m c 0 t) (iblk1 m c 1 t) (iblk1 m c 2 t) (iblk1 m c 3 t) (iblk1 m c 4 t) (iblk1 m c 5 t) (iblk1 m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none none Set.univ := fun t => by
  rw [bigSep_W1, bigSep_W1]
  exact sound_body m c t

end Cert.Kernel.Hand

end
-- ==== Proof.HandKernel.RegionDefs.lean ====
/-
  The TensorCore region as a segment of @main: what the TensorCore holds when it enters the region (the mixing matrix,
  the two taken tables as the gather tasks left them, the weights, the result buffer, and that it owes nothing), how
  that is sorted into the windows' arrays — the mixing matrix in four read shares, one per window that stages it, the
  rest kept aside —, and what it holds when the region ends: the same, the result buffer at what the 32 points wrote.
-/
import proofs.«215100_g16758962389080_cont_week2b_1182_23_alg».proof.Proof.HandKernel.TcDat

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay tileRest ownBufs ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev dLoc (d : Dev nD) : Loc nD τ sig := (SparseCore.T d).loc main_arg3
abbrev wLoc (d : Dev nD) : Loc nD τ sig := (SparseCore.T d).loc main_arg4
abbrev oLoc (d : Dev nD) : Loc nD τ sig := (SparseCore.T d).loc main_v1

/-- The result buffer after the region. -/
abbrev outT (d : Dev nD) : Buf (Elt F) (oLoc d) := (dats m 0 d).arrAt 7 cfg1.N

def preR (d : Dev nD) : sProp (𝕄' F) :=
  iprop((dLoc d ↦{fullShare} m (dLoc d)) ∗ (aLoc d ↦{fullShare} srcT m d) ∗ (bLoc d ↦{fullShare} dstT m d)
    ∗ (wLoc d ↦{fullShare} m (wLoc d)) ∗ (oLoc d ↦{fullShare} m (oLoc d)) ∗ ∃ W, ⌜(K (F := F)).WBelow (SparseCore.T d) W 8⌝ ∗ owes (SparseCore.T d) 0 W)

def postR (d : Dev nD) : sProp (𝕄' F) :=
  iprop((dLoc d ↦{fullShare} m (dLoc d)) ∗ (aLoc d ↦{fullShare} srcT m d) ∗ (bLoc d ↦{fullShare} dstT m d)
    ∗ (wLoc d ↦{fullShare} m (wLoc d)) ∗ (oLoc d ↦{fullShare} outT m d) ∗ ∃ W, ⌜(K (F := F)).WBelow (SparseCore.T d) W 8⌝ ∗ owes (SparseCore.T d) 0 W)

/-- What stays outside the region: the part of the mixing matrix's share no window holds. -/
def keepR (d : Dev nD) : sProp (𝕄' F) := dLoc d ↦{Transfers.shareDrop fullShare 4} m (dLoc d)

/-- The windows' arrays, one by one. -/
theorem arrays_eq1 (d : Dev nD) (Fv : (w : Fin cfg1.W) → Buf (Elt F) ((cfg1.win w).arr.view.loc (d.tc : Thread nD τ))) :
    ((dats m 0 d).arrays Fv : sProp (𝕄' F))
      = iprop((dLoc d ↦{difSh 0} Fv 0) ∗ (dLoc d ↦{difSh 1} Fv 1) ∗ (dLoc d ↦{difSh 2} Fv 2) ∗ (dLoc d ↦{difSh 3} Fv 3)
          ∗ (aLoc d ↦{fullShare} Fv 4) ∗ (bLoc d ↦{fullShare} Fv 5) ∗ (wLoc d ↦{fullShare} Fv 6) ∗ (oLoc d ↦{fullShare} Fv 7)) := by
  have h : ((dats m 0 d).arrays Fv : sProp (𝕄' F))
      = bigSep Finset.univ fun w : Fin cfg1.W => ((cfg1.win w).arr.view.loc (d.tc : Thread nD τ) ↦{(dats m 0 d).share w} Fv w : sProp (𝕄' F)) := by
    unfold Dat.arrays
    exact bigSep_congr fun w _ => by rw [(arr_whole1 w).set_eq_univ]
  rw [h, bigSep_W1]
  rfl

theorem bigSep_fin4 {M : Type} [URA M] (Φ : Fin 4 → sProp M) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- The arrays when the region is entered, -/
theorem arrays_entry (d : Dev nD) :
    ((dats m 0 d).arrays ((dats m 0 d).arrAt · 0) : sProp (𝕄' F))
      = iprop((dLoc d ↦{difSh 0} m (dLoc d)) ∗ (dLoc d ↦{difSh 1} m (dLoc d)) ∗ (dLoc d ↦{difSh 2} m (dLoc d)) ∗ (dLoc d ↦{difSh 3} m (dLoc d))
          ∗ (aLoc d ↦{fullShare} srcT m d) ∗ (bLoc d ↦{fullShare} dstT m d) ∗ (wLoc d ↦{fullShare} m (wLoc d)) ∗ (oLoc d ↦{fullShare} m (oLoc d))) := by
  rw [arrays_eq1]; rfl

/-- and when it ends: an input array is never written. -/
theorem arrays_exit (d : Dev nD) :
    ((dats m 0 d).arrays ((dats m 0 d).arrAt · cfg1.N) : sProp (𝕄' F))
      = iprop((dLoc d ↦{difSh 0} m (dLoc d)) ∗ (dLoc d ↦{difSh 1} m (dLoc d)) ∗ (dLoc d ↦{difSh 2} m (dLoc d)) ∗ (dLoc d ↦{difSh 3} m (dLoc d))
          ∗ (aLoc d ↦{fullShare} srcT m d) ∗ (bLoc d ↦{fullShare} dstT m d) ∗ (wLoc d ↦{fullShare} m (wLoc d)) ∗ (oLoc d ↦{fullShare} outT m d)) := by
  rw [arrays_eq1, (dats m 0 d).arrAt_in 0 rfl, (dats m 0 d).arrAt_in 1 rfl, (dats m 0 d).arrAt_in 2 rfl, (dats m 0 d).arrAt_in 3 rfl,
    (dats m 0 d).arrAt_in 4 rfl, (dats m 0 d).arrAt_in 5 rfl, (dats m 0 d).arrAt_in 6 rfl]
  rfl

theorem prefHeld_none (d : Dev nD) :
    (Pipeline.prefHeld (pcfgs (F := F) 0).pre d (fun _ => fullShare) (adm (F := F) 0).1 : sProp (𝕄' F)) = iprop(emp) := by
  unfold Pipeline.prefHeld
  exact bigSep_empty

theorem ownSems0_none (d : Dev nD) :
    (Pipeline.ownSems0 (fun k : PEmpty => (k.elim : SemLoc sig)) d : sProp (𝕄' F)) = iprop(emp) := by
  unfold Pipeline.ownSems0
  exact bigSep_empty

set_option backward.isDefEq.respectTransparency.types false in
/-- The invariant at the first point is what the region hands in beyond the windows' arrays: the scoped rest. -/
theorem hin0 (c : Dev nD) (t : Fin (cfg1.N + 1)) (A B : sProp (𝕄' F)) :
    iprop(A ∗ B ∗ Pipeline.scopedRest (Pipeline.pin (pcfgs (F := F)) adm 0).spec c) ⊢ (dats m 0 c).Φ t := by
  rw [Φ_eq]
  iintro ⟨-, -, H⟩
  iexact H

set_option backward.isDefEq.respectTransparency.types false in
/-- and the invariant at the last point gives it back; the kernel has no semaphore of its own. -/
theorem hout0 (c : Dev nD) (t : Fin (cfg1.N + 1)) :
    (dats m 0 c).Φ t ⊢ iprop((iprop(emp) : sProp (𝕄' F)) ∗ Pipeline.ownSems0 (fun k : PEmpty => (k.elim : SemLoc sig)) c
      ∗ Pipeline.scopedRest (Pipeline.pin (pcfgs (F := F)) adm 0).spec c) := by
  rw [ownSems0_none, Φ_eq]
  iintro H
  isplitr; · iempintro
  isplitr; · iempintro
  iexact H

/-- The region's invariant is the same at every point. -/
theorem Φ_fun (c : Dev nD) :
    (dats m 0 c).Φ = fun _ => (Pipeline.scopedRest (Pipeline.pin (pcfgs (F := F)) adm 0).spec c : sProp (𝕄' F)) := by
  funext t; dsimp only [dats]

/-! ## What the launch deals for the region, and what is read at the end -/

/-- The staging cells of the region's pipeline are pairwise distinct. -/
theorem cellOf_inj1 : Function.Injective (Pipeline.cellOf (nD := nD) (τ := τ) (Pipeline.pin (pcfgs (F := F)) adm)) := cellOf_inj

/-- What the launch deals the TensorCore for the region: its staging cells' ghost state and duty tokens. -/
abbrev Gd (d : Dev nD) : sProp (𝕄' F) :=
  iprop(Pipeline.cellsGhost (Pipeline.pin (pcfgs (F := F)) adm) EP 0 d ∗ Pipeline.toksInit (Pipeline.pin (pcfgs (F := F)) adm) EP 0 d)

/-- What the TensorCore holds at the end: the five arguments as launched, the result buffer as the region left it. -/
abbrev FIN (d : Dev nD) : sProp (𝕄' F) :=
  iprop((fLoc d ↦{fullShare} m (fLoc d)) ∗ (sLoc d ↦{fullShare} m (sLoc d)) ∗ (tLoc d ↦{fullShare} m (tLoc d))
    ∗ (dLoc d ↦{fullShare} m (dLoc d)) ∗ (wLoc d ↦{fullShare} m (wLoc d)) ∗ (oLoc d ↦{fullShare} outT m d))

end Cert.Kernel.Hand

end
-- ==== Proof.HandKernel.Region.lean ====
/-
  The TensorCore region as a segment of @main: the pipeline's decided layout, the body obligation, and the four
  entailments around the states the TensorCore enters and leaves the region in.
-/
import proofs.«215100_g16758962389080_cont_week2b_1182_23_alg».proof.Proof.HandKernel.RegionDefs

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay tileRest ownBufs ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in
/-- The region as a segment of @main. -/
def R0 : Pipeline.RegionSeg (pcfgs (F := F)) adm (dats m) (none : HIx 1) defs₀ 𝒱₀ (K (F := F)).L (K (F := F)).lev 0 where
  win := winFacts₀1
  block_pos := block_pos1
  stage_whole := stage_whole1
  K := PEmpty
  osem := fun k => k.elim
  ho := Pipeline.OwnSemFacts.none _
  hbody := fun c => (body_obligation m c).loose
  hwaits := Pipeline.hwaits_of_owed_zero (pcfgs (F := F)) adm (dats m) none (K (F := F)).L (K (F := F)).lev 0 (fun _ _ => rfl)
  pre := preR m
  post := postR m
  X := fun _ => iprop(emp)
  Y := fun _ => iprop(emp)
  Z := keepR m
  hentry := by
    intro c
    rw [arrays_entry, prefHeld_none]
    unfold preR keepR
    iintro ⟨⟨Hd, Ha, Hb, Hw, Ho, %W, %hW, HO⟩, -, -⟩
    ihave Hd' := (Transfers.pointsTo_toks_split (ℓ := dLoc c) (S := Finset.univ) (f := m (dLoc c)) fullShare 4) $$ Hd
    rw [bigSep_fin4]
    icases Hd' with ⟨Hk, H0, H1, H2, H3⟩
    imodintro
    isplitl [H0 H1 H2 H3 Ha Hb Hw Ho]
    · isplitl [H0]; · iexact H0
      isplitl [H1]; · iexact H1
      isplitl [H2]; · iexact H2
      isplitl [H3]; · iexact H3
      isplitl [Ha]; · iexact Ha
      isplitl [Hb]; · iexact Hb
      isplitl [Hw]; · iexact Hw
      iexact Ho
    isplitr; · iempintro
    isplitl [HO]
    · iexists W; isplitr
      · ipureintro; exact fun p hp => Or.inl (hW p hp)
      · iexact HO
    isplitr; · iempintro
    iexact Hk
  hin := fun c => by
    rw [Φ_fun]
    iintro ⟨-, -, H⟩
    iexact H
  hout := fun c => by
    rw [Φ_fun, ownSems0_none]
    iintro H
    isplitr; · iempintro
    isplitr; · iempintro
    iexact H
  hexit := by
    intro c
    rw [arrays_exit]
    unfold postR keepR
    iintro ⟨⟨H0, H1, H2, H3, Ha, Hb, Hw, Ho⟩, ⟨%W, %hW, HO⟩, -, Hk⟩
    ihave Hd := (Transfers.pointsTo_toks_join (ℓ := dLoc c) (S := Finset.univ) (f := m (dLoc c)) fullShare 4) $$ [Hk H0 H1 H2 H3]
    · isplitl [Hk]; · iexact Hk
      rw [bigSep_fin4]
      isplitl [H0]; · iexact H0
      isplitl [H1]; · iexact H1
      isplitl [H2]; · iexact H2
      iexact H3
    imodintro
    isplitl [Hd]; · iexact Hd
    isplitl [Ha]; · iexact Ha
    isplitl [Hb]; · iexact Hb
    isplitl [Hw]; · iexact Hw
    isplitl [Ho]; · iexact Ho
    iexists W; isplitr
    · ipureintro
      intro p hp
      rcases hW hp with h | ⟨w, s, rfl⟩
      · exact h
      · exact Nat.zero_le _
    · iexact HO

end Cert.Kernel.Hand

end
-- ==== Proof.HandKernel.Split.lean ====
/-
  How the five arrays split among the 2 × 16 gather tasks at the SparseCore call, and join again after it.

  The feature table is read whole by every task, so it goes out by READ SHARES: the full share gives one token to each
  SparseCore (the remainder stays with the TensorCore), and each SparseCore's token gives one to each of its sixteen
  vector subcores (the remainder stays beside the sixteen in what the SparseCore is handed). The two index lists and
  the two taken tables go out by BLOCKS: task number w = 2 s + c holds entries (rows) [256 w, 256 w + 256) of each; the
  thirty-two blocks are pairwise disjoint and cover the array, and (c, s) ↦ 2 s + c is a bijection of
  Fin 2 × Fin 16 with Fin 32. Joined again, a taken table holds one whole-array function on every block, hence
  everywhere.
-/
import proofs.«215100_g16758962389080_cont_week2b_1182_23_alg».proof.Proof.HandKernel.Common
import Idealize.ShloMosaic.Lib.Transfers

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The thirty-two blocks: pairwise disjoint, covering -/

theorem iSet_eq (w : Fin 32) : iSet w = (iblk w).set := by
  show ((View.whole (main_arg1_scv : Ref sig .scVector)).slice (iblk w)).set = _
  rw [View.set_slice]; exact Finset.map_refl
theorem rSet_eq (w : Fin 32) : rSet w = (rblk w).set := by
  show ((View.whole (main_v0_0_scv : Ref sig .scVector)).slice (rblk w)).set = _
  rw [View.set_slice]; exact Finset.map_refl
theorem iblocks_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
theorem rblocks_disjoint : ∀ i ∈ (Finset.univ : Finset (Fin 32)), ∀ j ∈ (Finset.univ : Finset (Fin 32)), i ≠ j → Disjoint (rSet i) (rSet j) :=
  fun i _ j _ h => by rw [rSet_eq, rSet_eq]; exact Rect.part_disjoint rdiv h
theorem iblocks_cover : (Finset.univ : Finset (Fin 32)).biUnion iSet = Finset.univ :=
  (Finset.biUnion_congr rfl fun i _ => iSet_eq i).trans (Rect.biUnion_part idiv)
theorem rblocks_cover : (Finset.univ : Finset (Fin 32)).biUnion rSet = Finset.univ :=
  (Finset.biUnion_congr rfl fun i _ => rSet_eq i).trans (Rect.biUnion_part rdiv)

/-! ## Task numbers: (c, s) ↦ 2 s + c is a bijection of Fin 2 × Fin 16 with Fin 32 -/

def widEquiv : Fin 2 × Fin 16 ≃ Fin 32 where
  toFun p := wid p.1 p.2
  invFun w := (⟨w.val % 2, Nat.mod_lt _ (by norm_num)⟩, ⟨w.val / 2, by have := w.isLt; omega⟩)
  left_inv p := by
    rcases p with ⟨c, s⟩
    refine Prod.ext (Fin.ext ?_) (Fin.ext ?_)
    · show (2 * s.val + c.val) % 2 = c.val
      have := c.isLt; omega
    · show (2 * s.val + c.val) / 2 = s.val
      have := c.isLt; omega
  right_inv w := by
    refine Fin.ext ?_
    show 2 * (w.val / 2) + w.val % 2 = w.val
    omega

/-- A family over the thirty-two task numbers, SparseCore by SparseCore and vector subcore by vector subcore. -/
theorem bigSep_wid (Φ : Fin 32 → sProp (𝕄' F)) :
    bigSep Finset.univ Φ = bigSep Finset.univ fun c : Fin 2 => bigSep Finset.univ fun s : Fin 16 => Φ (wid c s) := by
  rw [bigSep_univ_equiv widEquiv Φ, bigSep_univ_prod]; rfl

/-- Families over the launch theorem's own index types are families over Fin 16 and Fin 2. -/
theorem bigSep_tasks (Φ : Fin 16 → sProp (𝕄' F)) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp (𝕄' F)) :
    (bigSep Finset.univ fun c : Fin ((K (F := F)).nCore 0) => Φ (Fin.cast nCore_zero c)) = bigSep Finset.univ Φ :=
  bigSep_congr fun _ _ => congrArg Φ (Fin.ext rfl)

/-! ## An array whole is its thirty-two blocks -/

theorem sPts_blocks (d : Dev nD) (f : Buf (Elt F) (sLoc d)) :
    (sLoc d ↦{fullShare} f : sProp (𝕄' F))
      = bigSep Finset.univ fun c : Fin 2 => bigSep Finset.univ fun s : Fin 16 => sLoc d ↦[iSet (wid c s)]{fullShare} f := by
  rw [← bigSep_wid (F := F) (fun w => sLoc d ↦[iSet w]{fullShare} f),
    ← pointsTo_biUnion Finset.univ (ℓ := sLoc d) iSet iblocks_disjoint, iblocks_cover]; try rfl
theorem tPts_blocks (d : Dev nD) (f : Buf (Elt F) (tLoc d)) :
    (tLoc d ↦{fullShare} f : sProp (𝕄' F))
      = bigSep Finset.univ fun c : Fin 2 => bigSep Finset.univ fun s : Fin 16 => tLoc d ↦[iSet (wid c s)]{fullShare} f := by
  rw [← bigSep_wid (F := F) (fun w => tLoc d ↦[iSet w]{fullShare} f),
    ← pointsTo_biUnion Finset.univ (ℓ := tLoc d) iSet iblocks_disjoint, iblocks_cover]; try rfl
theorem aPts_blocks (d : Dev nD) (f : Buf (Elt F) (aLoc d)) :
    (aLoc d ↦{fullShare} f : sProp (𝕄' F))
      = bigSep Finset.univ fun c : Fin 2 => bigSep Finset.univ fun s : Fin 16 => aLoc d ↦[rSet (wid c s)]{fullShare} f := by
  rw [← bigSep_wid (F := F) (fun w => aLoc d ↦[rSet w]{fullShare} f),
    ← pointsTo_biUnion Finset.univ (ℓ := aLoc d) rSet rblocks_disjoint, rblocks_cover]; try rfl
theorem bPts_blocks (d : Dev nD) (f : Buf (Elt F) (bLoc d)) :
    (bLoc d ↦{fullShare} f : sProp (𝕄' F))
      = bigSep Finset.univ fun c : Fin 2 => bigSep Finset.univ fun s : Fin 16 => bLoc d ↦[rSet (wid c s)]{fullShare} f := by
  rw [← bigSep_wid (F := F) (fun w => bLoc d ↦[rSet w]{fullShare} f),
    ← pointsTo_biUnion Finset.univ (ℓ := bLoc d) rSet rblocks_disjoint, rblocks_cover]; try rfl

variable [FloatOps F] (m : (ℓ : Loc nD τ sig) → Buf (Elt F) ℓ)

/-! ## What a task holds, the taken tables at any contents -/

/-- Task (c, s)'s holdings with the two taken tables at `fa` and `fb`: what it is handed is this at the launch contents,
    what it hands back is this at the taken rows. -/
abbrev taskPts (d : Dev nD) (fa : Buf (Elt F) (aLoc d)) (fb : Buf (Elt F) (bLoc d)) (c : Fin 2) (s : Fin 16) : sProp (𝕄' F) :=
  iprop((fLoc d ↦{tileSh c s} m (fLoc d))
    ∗ (sLoc d ↦[iSet (wid c s)]{fullShare} m (sLoc d)) ∗ (tLoc d ↦[iSet (wid c s)]{fullShare} m (tLoc d))
    ∗ (aLoc d ↦[rSet (wid c s)]{fullShare} fa) ∗ (bLoc d ↦[rSet (wid c s)]{fullShare} fb))

/-- One SparseCore's sixteen tasks beside the remainder of its read share: the SparseCore's whole read share of the
    feature table, and the sixteen blocks of each of the four other arrays. -/
theorem core_iff (d : Dev nD) (fa : Buf (Elt F) (aLoc d)) (fb : Buf (Elt F) (bLoc d)) (c : Fin 2) :
    (iprop((fLoc d ↦{Transfers.shareDrop (coreSh c) 16} m (fLoc d)) ∗ bigSep Finset.univ fun s : Fin 16 => taskPts m d fa fb c s) : sProp (𝕄' F))
      ⊣⊢ iprop((fLoc d ↦{coreSh c} m (fLoc d))
          ∗ (bigSep Finset.univ fun s : Fin 16 => sLoc d ↦[iSet (wid c s)]{fullShare} m (sLoc d))
          ∗ (bigSep Finset.univ fun s : Fin 16 => tLoc d ↦[iSet (wid c s)]{fullShare} m (tLoc d))
          ∗ (bigSep Finset.univ fun s : Fin 16 => aLoc d ↦[rSet (wid c s)]{fullShare} fa)
          ∗ (bigSep Finset.univ fun s : Fin 16 => bLoc d ↦[rSet (wid c s)]{fullShare} fb)) := by
  rw [bigSep_sep', bigSep_sep', bigSep_sep', bigSep_sep']
  constructor
  · iintro ⟨Hd, Htok, Hr⟩
    isplitl [Hd Htok]
    · iapply (Transfers.pointsTo_toks_join (coreSh c) 16)
      isplitl [Hd]
      · iexact Hd
      · iexact Htok
    · iexact Hr
  · iintro ⟨Hf, Hr⟩
    ihave H := (Transfers.pointsTo_toks_split (ℓ := fLoc d) (S := Finset.univ) (f := m (fLoc d)) (coreSh c) 16) $$ Hf
    icases H with ⟨Hd, Htok⟩
    isplitl [Hd]
    · iexact Hd
    isplitl [Htok]
    · iexact Htok
    · iexact Hr

theorem core_eq (d : Dev nD) (fa : Buf (Elt F) (aLoc d)) (fb : Buf (Elt F) (bLoc d)) (c : Fin 2) :
    (iprop((fLoc d ↦{Transfers.shareDrop (coreSh c) 16} m (fLoc d)) ∗ bigSep Finset.univ fun s : Fin 16 => taskPts m d fa fb c s) : sProp (𝕄' F))
      = iprop((fLoc d ↦{coreSh c} m (fLoc d))
          ∗ (bigSep Finset.univ fun s : Fin 16 => sLoc d ↦[iSet (wid c s)]{fullShare} m (sLoc d))
          ∗ (bigSep Finset.univ fun s : Fin 16 => tLoc d ↦[iSet (wid c s)]{fullShare} m (tLoc d))
          ∗ (bigSep Finset.univ fun s : Fin 16 => aLoc d ↦[rSet (wid c s)]{fullShare} fa)
          ∗ (bigSep Finset.univ fun s : Fin 16 => bLoc d ↦[rSet (wid c s)]{fullShare} fb)) :=
  BI.equiv_iff.mp ⟨(core_iff m d fa fb c).1, (core_iff m d fa fb c).2⟩

/-- The five arrays whole are the TensorCore's remainder of the feature table's share beside, per SparseCore, the
    remainder of its share and its sixteen tasks' holdings. -/
theorem whole_iff (d : Dev nD) (fa : Buf (Elt F) (aLoc d)) (fb : Buf (Elt F) (bLoc d)) :
    (iprop((fLoc d ↦{fullShare} m (fLoc d)) ∗ (sLoc d ↦{fullShare} m (sLoc d)) ∗ (tLoc d ↦{fullShare} m (tLoc d))
        ∗ (aLoc d ↦{fullShare} fa) ∗ (bLoc d ↦{fullShare} fb)) : sProp (𝕄' F))
      ⊣⊢ iprop((fLoc d ↦{Transfers.shareDrop fullShare 2} m (fLoc d))
          ∗ bigSep Finset.univ fun c : Fin 2 =>
              iprop((fLoc d ↦{Transfers.shareDrop (coreSh c) 16} m (fLoc d)) ∗ bigSep Finset.univ fun s : Fin 16 => taskPts m d fa fb c s)) := by
  rw [bigSep_congr fun c _ => core_eq m d fa fb c, bigSep_sep', bigSep_sep', bigSep_sep', bigSep_sep',
    ← sPts_blocks, ← tPts_blocks, ← aPts_blocks, ← bPts_blocks]
  constructor
  · iintro ⟨Hf, Hr⟩
    ihave H := (Transfers.pointsTo_toks_split (ℓ := fLoc d) (S := Finset.univ) (f := m (fLoc d)) fullShare 2) $$ Hf
    icases H with ⟨Hd, Htok⟩
    isplitl [Hd]
    · iexact Hd
    isplitl [Htok]
    · iexact Htok
    · iexact Hr
  · iintro ⟨Hd, Htok, Hr⟩
    isplitl [Hd Htok]
    · iapply (Transfers.pointsTo_toks_join fullShare 2)
      isplitl [Hd]
      · iexact Hd
      · iexact Htok
    · iexact Hr

/-! ## What the handshakes carry, spelt out -/

theorem P_st (d : Dev nD) (c : Fin ((K (F := F)).nCore 0)) : (P m).st 0 d c = stPts m d (Fin.cast nCore_zero c) := rfl
theorem P_dn (d : Dev nD) (c : Fin ((K (F := F)).nCore 0)) : (P m).dn 0 d c = dnPts m d (Fin.cast nCore_zero c) := rfl
theorem P_go (d : Dev nD) (c : Fin ((K (F := F)).nCore 0)) (i : Fin ((K (F := F)).nSub 0)) :
    (P m).go 0 d c i = goPts m d (Fin.cast nCore_zero c) (Fin.cast nSub_zero i) := rfl
theorem P_td (d : Dev nD) (c : Fin ((K (F := F)).nCore 0)) (i : Fin ((K (F := F)).nSub 0)) :
    (P m).td 0 d c i = tdPts m d (Fin.cast nCore_zero c) (Fin.cast nSub_zero i) := rfl

/-! ## The three steps the launch asks for -/

/-- A SparseCore hands its sixteen tasks theirs and keeps the remainder of its read share until they are back. -/
theorem vecSplit : (K (F := F)).VecSplit' (P m) 0 := by
  intro d c
  simp only [P_st, P_dn, P_go, P_td]
  rw [bigSep_tasks (F := F) (fun s => goPts m d (Fin.cast nCore_zero c) s),
    bigSep_tasks (F := F) (fun s => tdPts m d (Fin.cast nCore_zero c) s)]
  iintro ⟨Hd, Hgo⟩
  imodintro
  isplitl [Hgo]
  · iexact Hgo
  iintro Htd
  isplitl [Hd]
  · iexact Hd
  · iexact Htd

/-- Before the call: the five arrays whole give each SparseCore what it is handed, the TensorCore keeping the
    remainder of the feature table's share. -/
theorem st_split (d : Dev nD) :
    iprop((fLoc d ↦{fullShare} m (fLoc d)) ∗ (sLoc d ↦{fullShare} m (sLoc d)) ∗ (tLoc d ↦{fullShare} m (tLoc d))
        ∗ (aLoc d ↦{fullShare} m (aLoc d)) ∗ (bLoc d ↦{fullShare} m (bLoc d)))
      ⊢ (iprop((fLoc d ↦{Transfers.shareDrop fullShare 2} m (fLoc d))
          ∗ bigSep Finset.univ fun c : Fin ((K (F := F)).nCore 0) => (P m).st 0 d c) : sProp (𝕄' F)) := by
  simp only [P_st]
  rw [bigSep_cores (F := F) (fun c => stPts m d c)]
  exact (whole_iff m d (m (aLoc d)) (m (bLoc d))).1

/-- After the call: what the SparseCores hand back, beside the TensorCore's remainder, is the five arrays whole, the
    taken tables holding the rows their index lists name. -/
theorem dn_join (d : Dev nD) :
    (iprop((fLoc d ↦{Transfers.shareDrop fullShare 2} m (fLoc d))
        ∗ bigSep Finset.univ fun c : Fin ((K (F := F)).nCore 0) => (P m).dn 0 d c) : sProp (𝕄' F))
      ⊢ iprop((fLoc d ↦{fullShare} m (fLoc d)) ∗ (sLoc d ↦{fullShare} m (sLoc d)) ∗ (tLoc d ↦{fullShare} m (tLoc d))
          ∗ (aLoc d ↦{fullShare} takeRows (m (fLoc d)) (m (sLoc d))) ∗ (bLoc d ↦{fullShare} takeRows (m (fLoc d)) (m (tLoc d)))) := by
  simp only [P_dn]
  rw [bigSep_cores (F := F) (fun c => dnPts m d c)]
  exact (whole_iff m d (takeRows (m (fLoc d)) (m (sLoc d))) (takeRows (m (fLoc d)) (m (tLoc d)))).2

end Cert.Kernel.Hand

end
-- ==== Proof.HandKernel.Main.lean ====
/-
  @main on the TensorCore. The SparseCore call: the five arrays the gather tasks work on are split among the 2 × 16
  tasks and joined again, the two taken tables then holding the rows of the feature table the index lists name. After
  the call the TensorCore owes nothing, and enters its kernel region from that state; when the region ends it holds the
  five arguments as launched and the result buffer at what the region's 32 points wrote.
-/
import proofs.«215100_g16758962389080_cont_week2b_1182_23_alg».proof.Proof.HandKernel.Region
import proofs.«215100_g16758962389080_cont_week2b_1182_23_alg».proof.Proof.HandKernel.Split

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay tileRest ownBufs ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

variable (ρ : Dev nD → PrngReg)

theorem unscopedBufs_eq (d : Dev nD) (W : (b : Ref sig .tc) → Buf (Elt F) ((d.tc : Thread nD τ).loc b)) :
    (unscopedBufs d W : sProp (𝕄' F)) = iprop((fLoc d ↦{fullShare} W main_arg0) ∗ (sLoc d ↦{fullShare} W main_arg1) ∗ (tLoc d ↦{fullShare} W main_arg2)
      ∗ (dLoc d ↦{fullShare} W main_arg3) ∗ (wLoc d ↦{fullShare} W main_arg4) ∗ (aLoc d ↦{fullShare} W main_v0_0) ∗ (bLoc d ↦{fullShare} W main_v0_1)
      ∗ (oLoc d ↦{fullShare} W main_v1)) := by
  unfold unscopedBufs
  rw [show (Finset.univ.filter fun b : Ref sig .tc => ¬ b.isScoped) = {main_arg0, main_arg1, main_arg2, main_arg3, main_arg4, main_v0_0, main_v0_1, main_v1} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

set_option backward.isDefEq.respectTransparency.types false in
set_option maxHeartbeats 1600000 in
theorem hmain (κ : GSem nD τ sig → ℕ) (d : Dev nD) :
    iprop((K (F := F)).ctx EH (P m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  -- after the call the TensorCore owes nothing; its recorded waits sit at the call's levels
  obtain ⟨Rest, hRest⟩ : ∃ Rest : sProp (𝕄' F), (K (F := F)).tcSt EH d 1
      = iprop((∃ W, ⌜(K (F := F)).WBelow (SparseCore.T d) W 8⌝ ∗ owes (SparseCore.T d) 0 W) ∗ Rest) :=
    ⟨_, by unfold SparseCore.Cfg.tcSt; rw [(K (F := F)).Otc_end d (le_refl _)]⟩
  have hR := Pipeline.RegionSeg.wp (pcfgs (F := F)) adm (dats m) (none : HIx 1) cellOf_inj1 EP defs₀ 𝒱₀ (K (F := F)).L (K (F := F)).lev (R0 m) d none
    (fun u hu => absurd hu (Option.not_mem_none u)) (fun _ => .ret PUnit.unit) (fun _ => iprop(|={Set.univ}=> ((K (F := F)).tcSt EH d 1 ∗ FIN m d)))
  unfold SparseCore.Cfg.tcRes
  rw [unscopedBufs_eq]
  simp only [main, wp_bind, wp_pure]
  iintro ⟨#Hctx, Hst, ⟨Hbd, ⟨Hf, Hs, Ht, Hdm, Hw, Ha, Hb, Ho⟩, -, -⟩, ⟨Hcg, Htk⟩⟩
  ihave Hsp := (st_split m d) $$ [Hf Hs Ht Ha Hb]
  · isplitl [Hf]; · iexact Hf
    isplitl [Hs]; · iexact Hs
    isplitl [Ht]; · iexact Ht
    isplitl [Ha]; · iexact Ha
    iexact Hb
  icases Hsp with ⟨Hfk, Hstc⟩
  iapply ((K (F := F)).wp_run (D (F := F)) 𝒱 (EH := EH) (P := P m) κ d 0) $$ [Hst Hstc Hfk Hbd Hdm Hw Ho Hcg Htk]
  isplitr; · iexact Hctx
  isplitl [Hst]; · iexact Hst
  isplitl [Hstc]; · iexact Hstc
  iintro ⟨Hst, Hdn⟩
  ihave Hj := (dn_join m d) $$ [Hfk Hdn]
  · isplitl [Hfk]; · iexact Hfk
    iexact Hdn
  icases Hj with ⟨Hf, Hs, Ht, Ha, Hb⟩
  ihave Hst' := (Entails.of_eq (show (K (F := F)).tcSt EH d ((0 : Fin 1).val + 1) = _ from hRest)) $$ Hst
  icases Hst' with ⟨HO, Hrest⟩
  ihave Hlv := ((K (F := F)).ctx_levAts (EH := EH) (P := P m) κ) $$ Hctx
  -- the region, entered from the program's own signature
  iapply ((K (F := F)).wp_liftProg (D (F := F)) 𝒱 (SparseCore.T d) Set.univ none (Prog.lift (.customCall (Pipeline.entry 0) ())) _)
  iapply hR $$ [Hbd Hdm Hw Ho Hcg Htk Hf Hs Ht Ha Hb HO Hrest]
  isplitl [Hf Hs Ht Hrest]
  · iintro ⟨Hbd, Hpost⟩
    ihave Hpost' := (Entails.of_eq (show (R0 m).post d = postR m d from rfl)) $$ Hpost
    unfold postR
    icases Hpost' with ⟨Hdm, Ha, Hb, Hw, Ho, HO⟩
    simp only [wp_ret]
    imodintro
    imodintro
    rw [hRest]
    isplitl [HO Hrest]
    · isplitl [HO]; · iexact HO
      iexact Hrest
    isplitl [Hf]; · iexact Hf
    isplitl [Hs]; · iexact Hs
    isplitl [Ht]; · iexact Ht
    isplitl [Hdm]; · iexact Hdm
    isplitl [Hw]; · iexact Hw
    iexact Ho
  isplitl [Hbd]; · iexact Hbd
  isplitl [Hdm Ha Hb Hw Ho HO]
  · iapply (Entails.of_eq (show preR m d = (R0 m).pre d from rfl))
    unfold preR
    isplitl [Hdm]; · iexact Hdm
    isplitl [Ha]; · iexact Ha
    isplitl [Hb]; · iexact Hb
    isplitl [Hw]; · iexact Hw
    isplitl [Ho]; · iexact Ho
    iexact HO
  isplitr; · iexact Hlv
  isplitl [Hcg]; · iexact Hcg
  iexact Htk

end Cert.Kernel.Hand

end
-- ==== Proof.HandKernel.LaunchElem.lean ====
/-
  The launch element of the certificate's ghost state and the final reading of the memory: the launch element funds the
  launch handshakes' rounds and, for each TensorCore, the ghost state and duty tokens of the staging cells of the one
  pipeline region; at the end the TensorCore holds the five arguments as launched and the result buffer as the region
  left it, which is what the final memory then holds.
-/
import proofs.«215100_g16758962389080_cont_week2b_1182_23_alg».proof.Proof.HandKernel.RegionDefs

set_option maxRecDepth 16384

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-! ## The launch element -/

/-- The launch element: the pipeline's staging cells' rounds, the launch handshakes' rounds, the transfers' counters. -/
def u₀ : UU :=
  (initOf (Pipeline.cells (Pipeline.pin (pcfgs (F := F)) adm) cellOf_inj1) (Pipeline.launchToks (Pipeline.pin (pcfgs (F := F)) adm) cellOf_inj1),
    (initOf (K (F := F)).hsCells (K (F := F)).hsToks, 1))

omit [FloatOps F] in
theorem bigSep_emp' {I : Type} (s : Finset I) : (bigSep s fun _ => iprop(emp)) = (iprop(emp) : sProp (𝕄' F)) := bigSep_emp_const s

/-- The launch element pays for the handshakes' rounds and deals each TensorCore its region's staging cells' ghost state
    and duty tokens; the counters are dropped, and no thread is dealt anything beside. -/
theorem hu₀ : (ownU (u₀ (F := F)) : sProp (𝕄' F))
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  have hG : (bigSep Finset.univ fun c : Dev nD => bigSep Finset.univ fun p : Fin 1 =>
        (Pipeline.cellsGhost (Pipeline.pin (pcfgs (F := F)) adm) EP p c : sProp (𝕄' F)))
      = bigSep Finset.univ fun c : Dev nD => Pipeline.cellsGhost (Pipeline.pin (pcfgs (F := F)) adm) EP 0 c :=
    bigSep_congr fun c _ => bigSep_univ_of_subsingleton (0 : Fin 1)
  have hT : (bigSep Finset.univ fun c : Dev nD => bigSep Finset.univ fun p : Fin 1 =>
        (Pipeline.toksInit (Pipeline.pin (pcfgs (F := F)) adm) EP p c : sProp (𝕄' F)))
      = bigSep Finset.univ fun c : Dev nD => Pipeline.toksInit (Pipeline.pin (pcfgs (F := F)) adm) EP 0 c :=
    bigSep_congr fun c _ => bigSep_univ_of_subsingleton (0 : Fin 1)
  iintro Hu
  ihave H := (ownU_pair _ _) $$ Hu
  icases H with ⟨HP, HR⟩
  ihave H2 := (own_pair_emb embR _ _) $$ HR
  icases H2 with ⟨HH, -⟩
  imod (Pipeline.fund_ghost (Pipeline.pin (pcfgs (F := F)) adm) EP cellOf_inj1) $$ HP with ⟨Hg, Ht⟩
  imodintro
  isplitl [HH]; · iexact HH
  isplitl [Hg Ht]
  · rw [bigSep_sep']
    isplitl [Hg]
    · iapply (Entails.of_eq hG); iexact Hg
    · iapply (Entails.of_eq hT); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The final reading -/

/-- What the final memory of device `d` holds: the result buffer as the region left it, the five arguments as launched. -/
def fq (d : Dev nD) (s' : Phys nD τ sig (Elt F)) : Prop :=
  s'.mem.mem (oLoc d) = outT m d ∧ s'.mem.mem (fLoc d) = m (fLoc d) ∧ s'.mem.mem (sLoc d) = m (sLoc d) ∧ s'.mem.mem (tLoc d) = m (tLoc d)
    ∧ s'.mem.mem (dLoc d) = m (dLoc d) ∧ s'.mem.mem (wLoc d) = m (wLoc d)

theorem hfin (d : Dev nD) (s' : Phys nD τ sig (Elt F)) : iprop(FIN m d ∗ SI s') ⊢ (⌜fq m d s'⌝ : sProp (𝕄' F)) := by
  iintro ⟨⟨Hf, Hs, Ht, Hd, Hw, Ho⟩, HSI⟩
  ihave H := (persistent_entails_right (SI_pointsTo_agree (st := s') (ℓ := fLoc d) (I := Finset.univ) (q := fullShare) (f := m (fLoc d)))) $$ [HSI Hf]
  · isplitl [HSI] <;> iassumption
  icases H with ⟨%h1, HSI, -⟩
  ihave H := (persistent_entails_right (SI_pointsTo_agree (st := s') (ℓ := sLoc d) (I := Finset.univ) (q := fullShare) (f := m (sLoc d)))) $$ [HSI Hs]
  · isplitl [HSI] <;> iassumption
  icases H with ⟨%h2, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h3, HSI, -⟩
  ihave H := (persistent_entails_right (SI_pointsTo_agree (st := s') (ℓ := dLoc d) (I := Finset.univ) (q := fullShare) (f := m (dLoc d)))) $$ [HSI Hd]
  · isplitl [HSI] <;> iassumption
  icases H with ⟨%h4, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h5, HSI, -⟩
  ihave H := (SI_pointsTo_agree (st := s') (ℓ := oLoc d) (I := Finset.univ) (q := fullShare) (f := outT m d)) $$ [HSI Ho]
  · isplitl [HSI] <;> iassumption
  icases H with %h6
  ipureintro
  exact ⟨funext fun i => h6 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i)⟩

/-- The run's postcondition: on every device the result is what the region left and the five arguments are unchanged. -/
def QC : PUnit × MemSt nD τ sig (Elt F) → Prop := fun r => ∀ c : Dev nD,
  r.2.mem ((c.tc : Thread nD τ).loc main_v1) = outT m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

theorem hQ : ∀ s' : Phys nD τ sig (Elt F), (∀ d, fq m d s') → QC m (⟨⟩, s'.mem) := fun _ h c => h c

end Cert.Kernel.Hand

end
-- ==== Proof.HandKernel.TileA.lean ====
/-
  The gather task's set-up: its grid point and block number, the blocks of the index lists and of the taken tables as
  the task slices them, the vector subcore's six DMA semaphores and four scratch buffers among its own, and the range
  of the words a copied index block holds.
-/
import proofs.«215100_g16758962389080_cont_week2b_1182_23_alg».proof.Proof.HandKernel.Common

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The task's place -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)
/-- The task's block number. -/
abbrev wL (L : grid0.Coords) : Fin 32 := wid (cL L) (sL L)

/-! ## The arrays and scratches as the task names them -/

abbrev fM : Memref sig .scVector .hbm S100000x128 .f32 := Memref.whole main_arg0_scv
abbrev sM : Memref sig .scVector .hbm S8192 .i32 := Memref.whole main_arg1_scv
abbrev tM : Memref sig .scVector .hbm S8192 .i32 := Memref.whole main_arg2_scv
abbrev aM : Memref sig .scVector .hbm S8192x128 .f32 := Memref.whole main_v0_0_scv
abbrev bM : Memref sig .scVector .hbm S8192x128 .f32 := Memref.whole main_v0_1_scv
abbrev i0M : Memref sig .scVector .vmem S256 .i32 := Memref.whole cc0_scratch0
abbrev i1M : Memref sig .scVector .vmem S256 .i32 := Memref.whole cc0_scratch1
abbrev r0M : Memref sig .scVector .vmem S256x128 .f32 := Memref.whole cc0_scratch2
abbrev r1M : Memref sig .scVector .vmem S256x128 .f32 := Memref.whole cc0_scratch3

abbrev iblkK (L : grid0.Coords) : Rect S8192 := Rect.unit (s := S8192) (k0_off1 L) S256.size (k0_off1_inb L)
abbrev rblkK (L : grid0.Coords) : Rect S8192x128 := Rect.unit (s := S8192x128) (k0_off2 L) S256x128.size (k0_off2_inb L)
/-- Block `w` of the two index lists and rows block `w` of the two taken tables, and all of the feature table, as the
    task slices them. -/
abbrev sBlk (L : grid0.Coords) : Memref sig .scVector .hbm S256 .i32 := sM.slice (iblkK L) (fun _ => rfl)
abbrev tBlk (L : grid0.Coords) : Memref sig .scVector .hbm S256 .i32 := tM.slice (iblkK L) (fun _ => rfl)
abbrev aBlk (L : grid0.Coords) : Memref sig .scVector .hbm S256x128 .f32 := aM.slice (rblkK L) (fun _ => rfl)
abbrev bBlk (L : grid0.Coords) : Memref sig .scVector .hbm S256x128 .f32 := bM.slice (rblkK L) (fun _ => rfl)
abbrev fAll : Memref sig .scVector .hbm S100000x128 .f32 :=
  fM.slice (Rect.unit (s := S100000x128) ![0, 0] S100000x128.size inb_S100000x128_S100000x128_0_0) (fun _ => rfl)

theorem wL_val (L : grid0.Coords) : (wL L).val = 2 * (L 1).val + (L 0).val := rfl

theorem iblkK_eq (L : grid0.Coords) : iblkK L = iblk (wL L) := by
  unfold iblkK iblk Rect.part Rect.block
  congr 1 <;> funext a
  · rw [k0_off1_eq]
    match a with
    | 0 => simp [Shape.partIx, Shape.partSize, wid]; omega
  · match a with
    | 0 => simp [Shape.partSize]
theorem rblkK_eq (L : grid0.Coords) : rblkK L = rblk (wL L) := by
  unfold rblkK rblk Rect.part Rect.block
  congr 1 <;> funext a
  · rw [k0_off2_eq]
    match a with
    | 0 => simp [Shape.partIx, Shape.partSize, wid]; omega
    | 1 => simp [Shape.partIx, Shape.partSize]
  · match a with
    | 0 => simp [Shape.partSize]
    | 1 => simp [Shape.partSize]

theorem set_sBlk (L : grid0.Coords) : (sBlk L).view.set = iSet (wL L) := by
  show ((sM).view.slice (iblkK L)).set = ((sM).view.slice (iblk (wL L))).set
  rw [iblkK_eq]
theorem set_tBlk (L : grid0.Coords) : (tBlk L).view.set = iSet (wL L) :=
  (View.set_slice_whole main_arg2_scv (iblkK L)).trans ((congrArg (fun r : Rect S8192 => r.set) (iblkK_eq L)).trans (View.set_slice_whole main_arg1_scv (iblk (wL L))).symm)
theorem set_aBlk (L : grid0.Coords) : (aBlk L).view.set = rSet (wL L) := by
  show ((aM).view.slice (rblkK L)).set = ((aM).view.slice (rblk (wL L))).set
  rw [rblkK_eq]
theorem set_bBlk (L : grid0.Coords) : (bBlk L).view.set = rSet (wL L) :=
  (View.set_slice_whole main_v0_1_scv (rblkK L)).trans ((congrArg (fun r : Rect S8192x128 => r.set) (rblkK_eq L)).trans (View.set_slice_whole main_v0_0_scv (rblk (wL L))).symm)

/-! ## The held arrays in the task's spelling -/

section Pts

variable (d : Dev nD) (L : grid0.Coords)

theorem pts_sBlk (f : Buf (Elt F) (sLoc d)) :
    ((sBlk L).view.loc (V d (cV L) (jV L)) ↦[(sBlk L).view.set]{fullShare} f : sProp (𝕄' F)) = sLoc d ↦[iSet (wL L)]{fullShare} f := by
  rw [set_sBlk]
theorem pts_tBlk (f : Buf (Elt F) (tLoc d)) :
    ((tBlk L).view.loc (V d (cV L) (jV L)) ↦[(tBlk L).view.set]{fullShare} f : sProp (𝕄' F)) = tLoc d ↦[iSet (wL L)]{fullShare} f := by
  rw [set_tBlk]
theorem pts_aBlk (f : Buf (Elt F) (aLoc d)) :
    ((aBlk L).view.loc (V d (cV L) (jV L)) ↦[(aBlk L).view.set]{fullShare} f : sProp (𝕄' F)) = aLoc d ↦[rSet (wL L)]{fullShare} f := by
  rw [set_aBlk]
theorem pts_bBlk (f : Buf (Elt F) (bLoc d)) :
    ((bBlk L).view.loc (V d (cV L) (jV L)) ↦[(bBlk L).view.set]{fullShare} f : sProp (𝕄' F)) = bLoc d ↦[rSet (wL L)]{fullShare} f := by
  rw [set_bBlk]
theorem pts_fM (q : PosShare TreeShare) (f : Buf (Elt F) (fLoc d)) :
    ((fM).view.loc (V d (cV L) (jV L)) ↦{q} f : sProp (𝕄' F)) = fLoc d ↦{q} f := rfl

/-! ## The vector subcore's own semaphores and buffers -/

abbrev cell (d : Dev nD) (L : grid0.Coords) (a : DmaSems sig S_) : GSem nD τ sig := (V d (cV L) (jV L), .dma a.sem)

theorem cell_ne {a b : DmaSems sig S_} (h : a.sem ≠ b.sem) : cell d L a ≠ cell d L b :=
  fun e => h (SemLoc.dma.inj (Prod.mk.inj e).2)

theorem cell_mem (a : DmaSems sig S_) (h : (SemLoc.dma a.sem : SemLoc sig).isScoped .scVector = true) :
    cell d L a ∈ ownCells (V d (cV L) (jV L)) := (mem_ownCells (g := cell d L a)).mpr ⟨rfl, h⟩

theorem mem_erase_of {α : Type} [DecidableEq α] {s : Finset α} {a b : α} (h : a ≠ b) (hm : a ∈ s) : a ∈ s.erase b :=
  Finset.mem_erase.mpr ⟨h, hm⟩

/-- The six DMA semaphores of the task are among the subcore's own cells: they, at zero, and the rest. -/
theorem ownSems0_V :
    (ownSems0 (V d (cV L) (jV L)) : sProp (𝕄' F))
      = iprop(semVal (cell d L cc0_scratch4) 0 ∗ semVal (cell d L cc0_scratch5) 0 ∗ semVal (cell d L cc0_scratch6) 0
          ∗ semVal (cell d L cc0_scratch7) 0 ∗ semVal (cell d L cc0_scratch8) 0 ∗ semVal (cell d L cc0_scratch9) 0
          ∗ bigSep (((((((ownCells (V d (cV L) (jV L))).erase (cell d L cc0_scratch4)).erase (cell d L cc0_scratch5)).erase (cell d L cc0_scratch6)).erase
              (cell d L cc0_scratch7)).erase (cell d L cc0_scratch8)).erase (cell d L cc0_scratch9)) fun g => semVal g 0) := by
  unfold SparseCore.Cfg.ownSems0
  have m4 := cell_mem d L cc0_scratch4 (by decide)
  have m5 := cell_mem d L cc0_scratch5 (by decide)
  have m6 := cell_mem d L cc0_scratch6 (by decide)
  have m7 := cell_mem d L cc0_scratch7 (by decide)
  have m8 := cell_mem d L cc0_scratch8 (by decide)
  have m9 := cell_mem d L cc0_scratch9 (by decide)
  rw [SparseCore.bigSep_erase' m4,
    SparseCore.bigSep_erase' (mem_erase_of (cell_ne d L (by decide)) m5),
    SparseCore.bigSep_erase' (mem_erase_of (cell_ne d L (by decide)) (mem_erase_of (cell_ne d L (by decide)) m6)),
    SparseCore.bigSep_erase' (mem_erase_of (cell_ne d L (by decide)) (mem_erase_of (cell_ne d L (by decide)) (mem_erase_of (cell_ne d L (by decide)) m7))),
    SparseCore.bigSep_erase' (mem_erase_of (cell_ne d L (by decide)) (mem_erase_of (cell_ne d L (by decide)) (mem_erase_of (cell_ne d L (by decide))
      (mem_erase_of (cell_ne d L (by decide)) m8)))),
    SparseCore.bigSep_erase' (mem_erase_of (cell_ne d L (by decide)) (mem_erase_of (cell_ne d L (by decide)) (mem_erase_of (cell_ne d L (by decide))
      (mem_erase_of (cell_ne d L (by decide)) (mem_erase_of (cell_ne d L (by decide)) m9)))))]

abbrev bref (L : grid0.Coords) (b : Ref sig .scVector) : DevRef τ sig := (Proc.scVector (cV L) (jV L)).devRef b

theorem bref_mem (b : Ref sig .scVector) (h : (bref L b).owner = .proc (Proc.scVector (cV L) (jV L))) :
    bref L b ∈ ownRefs (τ := τ) (sig := sig) (.scVector (cV L) (jV L)) := SparseCore.Cfg.mem_ownRefs_of_owner h
theorem bref_ne {a b : Ref sig .scVector} (h : a ≠ b) : bref L a ≠ bref L b := fun e => h (Proc.devRef_injective _ e)

/-- The four scratch buffers are among the subcore's own: they are them, at some contents, and the rest. -/
theorem ownBufs_V :
    (ownBufs (V d (cV L) (jV L)) : sProp (𝕄' F))
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (bref L cc0_scratch0)).erase (bref L cc0_scratch1)).erase (bref L cc0_scratch2)).erase
              (bref L cc0_scratch3))
              fun b => iprop(∃ f, ((d, b) : Loc nD τ sig) ↦{fullShare} f)) := by
  unfold SparseCore.Cfg.ownBufs
  have m0 := bref_mem L cc0_scratch0 rfl
  have m1 := bref_mem L cc0_scratch1 rfl
  have m2 := bref_mem L cc0_scratch2 rfl
  have m3 := bref_mem L cc0_scratch3 rfl
  refine (SparseCore.bigSep_erase' m0).trans ?_
  rw [SparseCore.bigSep_erase' (mem_erase_of (bref_ne L (by decide)) m1),
    SparseCore.bigSep_erase' (mem_erase_of (bref_ne L (by decide)) (mem_erase_of (bref_ne L (by decide)) m2)),
    SparseCore.bigSep_erase' (mem_erase_of (bref_ne L (by decide)) (mem_erase_of (bref_ne L (by decide)) (mem_erase_of (bref_ne L (by decide)) m3)))]

/-! ## The words of a copied index block are in range -/

variable (m : (ℓ : Loc nD τ sig) → Buf (Elt F) ℓ)

/-- What the first index copy landed in its scratch is block `w` of the source list, each word below 100000. -/
theorem inb_of_pre_s (hpre : PreOK m) (fs : Buf (Elt F) ((V d (cV L) (jV L)).loc cc0_scratch0)) (pay : S256.Idx → Elt F .i32)
    (hpay : pay = (sBlk L).view.read (Elt F) (m (sLoc d))) :
    ∀ x, ((i0M).view.read (Elt F) (View.write (Elt F) (i0M).view fs pay Finset.univ) x).toNat < S100000x128.size gathers_S100000x128_S256x128.axis := by
  subst hpay; intro x
  rw [View.write_whole_univ]
  simp only [Memref.view_whole, View.read_whole]
  rw [show ∀ j, (sBlk L).view.read (Elt F) (m (sLoc d)) j = m (sLoc d) ((sBlk L).view.emb j) from fun j => (View.read_apply _ _).trans (cast_eq _ _)]
  exact (hpre d _).1
/-- and the second's, block `w` of the destination list. -/
theorem inb_of_pre_t (hpre : PreOK m) (fs : Buf (Elt F) ((V d (cV L) (jV L)).loc cc0_scratch1)) (pay : S256.Idx → Elt F .i32)
    (hpay : pay = (tBlk L).view.read (Elt F) (m (tLoc d))) :
    ∀ x, ((i1M).view.read (Elt F) (View.write (Elt F) (i1M).view fs pay Finset.univ) x).toNat < S100000x128.size gathers_S100000x128_S256x128.axis := by
  subst hpay; intro x
  rw [View.write_whole_univ]
  simp only [Memref.view_whole, View.read_whole]
  rw [show ∀ j, (tBlk L).view.read (Elt F) (m (tLoc d)) j = m (tLoc d) ((tBlk L).view.emb j) from fun j => (View.read_apply _ _).trans (cast_eq _ _)]
  exact (hpre d _).2

end Pts

end Cert.Kernel.Hand

end
-- ==== Proof.HandKernel.TileB.lean ====
/-
  The value the gather task leaves: rows block `w` of each taken table, after its copy-out, is the feature table's rows
  named by block `w` of its index list.
-/
import proofs.«215100_g16758962389080_cont_week2b_1182_23_alg».proof.Proof.HandKernel.TileA

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## What the copied-out rows are

The copy-out writes a row scratch to rows block `w` of a taken table; the row scratch holds what its gather delivered: at
row `k`, the feature table's row named by word `k` of the index scratch, which is word `256 w + k` of the launch list. -/

/-- The first entry of the task's blocks: `256 (2 s + c)`. -/
def offL (L : grid0.Coords) : ℕ := 512 * (L 1).val + 256 * (L 0).val

theorem offL_le (L : grid0.Coords) : offL L + 256 ≤ 8192 := by
  have h0 : (L 0).val < 2 := (L 0).isLt
  have h1 : (L 1).val < 16 := (L 1).isLt
  unfold offL; omega

theorem rowMajor_symm_S256 (k' : Fin S256.numel) (k : Fin 256) (h : k'.val = k.val) : S256.rowMajor.symm k' = ix1 k := by
  refine (eq_ix1 _).trans ?_
  congr 1
  apply Fin.ext
  have e := Shape.rowMajor_val_one (d := ![256]) (S256.rowMajor.symm k')
  rw [Equiv.apply_symm_apply] at e
  exact e.symm.trans h

/-- The gather's payload over a list of row numbers that are the words `off …` of an index list, all in range, is the
    rows the list names there. -/
theorem gather_take (FT : S100000x128.Idx → Elt F .f32) (lst : S8192.Idx → BitVec 32) (hlt : ∀ j, (lst j).toNat < 100000)
    (off : ℕ) (hoff : off + 256 ≤ 8192)
    (r : Fin (S256x128.size gathers_S100000x128_S256x128.axis') → Fin (S100000x128.size gathers_S100000x128_S256x128.axis))
    (hr : ∀ (k : Fin 256), (r k).val = (lst (ix1 (⟨off + k.val, by have := k.isLt; omega⟩ : Fin 8192))).toNat)
    (j : S256x128.Idx) :
    SparseCore.gatherPayload gathers_S100000x128_S256x128 FT r j
      = takeRows FT lst (ix2 (⟨off + (j 0).val, by have h : (j 0).val < 256 := (j 0).isLt; omega⟩ : Fin 8192) (j 1)) := by
  unfold SparseCore.gatherPayload takeRows
  congr 1
  funext b
  apply Fin.ext
  match b with
  | 0 =>
    have h0 := Shape.Gathers.idx_axis gathers_S100000x128_S256x128 r j
    refine (congrArg Fin.val h0).trans ?_
    exact (hr (j 0)).trans (Nat.mod_eq_of_lt (hlt _)).symm
  | 1 => exact Shape.Gathers.idx_of_ne gathers_S100000x128_S256x128 r j 1 (by decide)

section Value

variable (d : Dev nD) (L : grid0.Coords)

theorem emb_sBlk (k : S256.Idx) : (sBlk L).view.emb k = ix1 (⟨offL L + (k 0).val, by have := offL_le L; have h : (k 0).val < 256 := (k 0).isLt; omega⟩ : Fin 8192) := by
  funext a
  apply Fin.ext
  have h1 := k0_off1_eq L
  match a with
  | 0 =>
    show k0_off1 L 0 + 1 * (k 0).val = offL L + (k 0).val
    rw [h1]; simp [offL]
theorem emb_tBlk (k : S256.Idx) : (tBlk L).view.emb k = ix1 (⟨offL L + (k 0).val, by have := offL_le L; have h : (k 0).val < 256 := (k 0).isLt; omega⟩ : Fin 8192) := by
  funext a
  apply Fin.ext
  have h1 := k0_off1_eq L
  match a with
  | 0 =>
    show k0_off1 L 0 + 1 * (k 0).val = offL L + (k 0).val
    rw [h1]; simp [offL]
theorem emb_aBlk (j : S256x128.Idx) :
    (aBlk L).view.emb j = ix2 (⟨offL L + (j 0).val, by have := offL_le L; have h : (j 0).val < 256 := (j 0).isLt; omega⟩ : Fin 8192) (j 1) := by
  funext a
  apply Fin.ext
  have h2 := k0_off2_eq L
  match a with
  | 0 =>
    show k0_off2 L 0 + 1 * (j 0).val = offL L + (j 0).val
    rw [h2]; simp [offL]
  | 1 =>
    show k0_off2 L 1 + 1 * (j 1).val = (j 1).val
    rw [h2]; simp
theorem emb_bBlk (j : S256x128.Idx) :
    (bBlk L).view.emb j = ix2 (⟨offL L + (j 0).val, by have := offL_le L; have h : (j 0).val < 256 := (j 0).isLt; omega⟩ : Fin 8192) (j 1) := by
  funext a
  apply Fin.ext
  have h2 := k0_off2_eq L
  match a with
  | 0 =>
    show k0_off2 L 0 + 1 * (j 0).val = offL L + (j 0).val
    rw [h2]; simp [offL]
  | 1 =>
    show k0_off2 L 1 + 1 * (j 1).val = (j 1).val
    rw [h2]; simp

theorem read_fAll (FT : Buf (Elt F) (fLoc d)) : (fAll).view.read (Elt F) FT = FT := by
  funext x
  refine ((View.read_apply _ _).trans (cast_eq _ _)).trans (congrArg FT ?_)
  funext a
  apply Fin.ext
  match a with
  | 0 => show 0 + 1 * (x 0).val = (x 0).val; omega
  | 1 => show 0 + 1 * (x 1).val = (x 1).val; omega

variable (m : (ℓ : Loc nD τ sig) → Buf (Elt F) ℓ)

/-- Rows block `w` of the first taken table after the first copy-out: the feature table's rows the source list names. -/
theorem taken_a (hpre : PreOK m) (f0 : Buf (Elt F) ((V d (cV L) (jV L)).loc cc0_scratch0)) (g0 : Buf (Elt F) ((V d (cV L) (jV L)).loc cc0_scratch2))
    (hn : S256.numel = S256x128.size gathers_S100000x128_S256x128.axis')
    (hin : ∀ x, ((i0M).view.read (Elt F) (View.write (Elt F) (i0M).view f0 ((sBlk L).view.read (Elt F) (m (sLoc d))) Finset.univ) x).toNat
      < S100000x128.size gathers_S100000x128_S256x128.axis)
    (pay : S256x128.Idx → Elt F .f32)
    (hpay : pay = (r0M).view.read (Elt F) (View.write (Elt F) (r0M).view g0
      (SparseCore.gatherPayload gathers_S100000x128_S256x128 ((fAll).view.read (Elt F) (m (fLoc d)))
        (SparseCore.rows ((i0M).view.read (Elt F) (View.write (Elt F) (i0M).view f0 ((sBlk L).view.read (Elt F) (m (sLoc d))) Finset.univ)) hn hin))
      Finset.univ)) :
    ∀ i ∈ (aBlk L).view.set, (aBlk L).view.writes (Elt F) (m (aLoc d)) [⟨Rect.whole S256x128, pay⟩] i = takeRows (m (fLoc d)) (m (sLoc d)) i := by
  intro i hi
  obtain ⟨j, -, rfl⟩ := Finset.mem_map.mp hi
  have e1 : (aBlk L).view.writes (Elt F) (m (aLoc d)) [⟨Rect.whole S256x128, pay⟩] ((aBlk L).view.emb j) = pay j := by
    have e0 := View.read_writes_cons_emb (aBlk L).view (m (aLoc d)) (Rect.whole S256x128) pay [] j
    rw [Rect.emb_whole_apply] at e0
    exact ((cast_eq _ _).symm.trans (View.read_apply _ _).symm).trans e0
  have hG := View.write_whole_univ cc0_scratch2 g0 (SparseCore.gatherPayload gathers_S100000x128_S256x128 ((fAll).view.read (Elt F) (m (fLoc d)))
        (SparseCore.rows ((i0M).view.read (Elt F) (View.write (Elt F) (i0M).view f0 ((sBlk L).view.read (Elt F) (m (sLoc d))) Finset.univ)) hn hin))
  have hI := View.write_whole_univ cc0_scratch0 f0 ((sBlk L).view.read (Elt F) (m (sLoc d)))
  rw [e1, hpay]
  refine (congrFun hG j).trans ?_
  rw [read_fAll, emb_aBlk]
  refine gather_take (m (fLoc d)) (m (sLoc d)) (fun j => (hpre d j).1) (offL L) (offL_le L) _ (fun k => ?_) j
  show ((i0M).view.read (Elt F) (View.write (Elt F) (i0M).view f0 ((sBlk L).view.read (Elt F) (m (sLoc d))) Finset.univ)
    (S256.rowMajor.symm (k.cast hn.symm))).toNat = _
  rw [rowMajor_symm_S256 (Fin.cast hn.symm k) k rfl]
  refine congrArg BitVec.toNat ((congrFun hI (ix1 k)).trans ?_)
  exact ((View.read_apply _ _).trans (cast_eq _ _)).trans (congrArg (m (sLoc d)) (emb_sBlk L (ix1 k)))

/-- Rows block `w` of the second taken table after the second copy-out: the rows the destination list names. -/
theorem taken_b (hpre : PreOK m) (f1 : Buf (Elt F) ((V d (cV L) (jV L)).loc cc0_scratch1)) (g1 : Buf (Elt F) ((V d (cV L) (jV L)).loc cc0_scratch3))
    (hn : S256.numel = S256x128.size gathers_S100000x128_S256x128.axis')
    (hin : ∀ x, ((i1M).view.read (Elt F) (View.write (Elt F) (i1M).view f1 ((tBlk L).view.read (Elt F) (m (tLoc d))) Finset.univ) x).toNat
      < S100000x128.size gathers_S100000x128_S256x128.axis)
    (pay : S256x128.Idx → Elt F .f32)
    (hpay : pay = (r1M).view.read (Elt F) (View.write (Elt F) (r1M).view g1
      (SparseCore.gatherPayload gathers_S100000x128_S256x128 ((fAll).view.read (Elt F) (m (fLoc d)))
        (SparseCore.rows ((i1M).view.read (Elt F) (View.write (Elt F) (i1M).view f1 ((tBlk L).view.read (Elt F) (m (tLoc d))) Finset.univ)) hn hin))
      Finset.univ)) :
    ∀ i ∈ (bBlk L).view.set, (bBlk L).view.writes (Elt F) (m (bLoc d)) [⟨Rect.whole S256x128, pay⟩] i = takeRows (m (fLoc d)) (m (tLoc d)) i := by
  intro i hi
  obtain ⟨j, -, rfl⟩ := Finset.mem_map.mp hi
  have e1 : (bBlk L).view.writes (Elt F) (m (bLoc d)) [⟨Rect.whole S256x128, pay⟩] ((bBlk L).view.emb j) = pay j := by
    have e0 := View.read_writes_cons_emb (bBlk L).view (m (bLoc d)) (Rect.whole S256x128) pay [] j
    rw [Rect.emb_whole_apply] at e0
    exact ((cast_eq _ _).symm.trans (View.read_apply _ _).symm).trans e0
  have hG := View.write_whole_univ cc0_scratch3 g1 (SparseCore.gatherPayload gathers_S100000x128_S256x128 ((fAll).view.read (Elt F) (m (fLoc d)))
        (SparseCore.rows ((i1M).view.read (Elt F) (View.write (Elt F) (i1M).view f1 ((tBlk L).view.read (Elt F) (m (tLoc d))) Finset.univ)) hn hin))
  have hI := View.write_whole_univ cc0_scratch1 f1 ((tBlk L).view.read (Elt F) (m (tLoc d)))
  rw [e1, hpay]
  refine (congrFun hG j).trans ?_
  rw [read_fAll, emb_bBlk]
  refine gather_take (m (fLoc d)) (m (tLoc d)) (fun j => (hpre d j).2) (offL L) (offL_le L) _ (fun k => ?_) j
  show ((i1M).view.read (Elt F) (View.write (Elt F) (i1M).view f1 ((tBlk L).view.read (Elt F) (m (tLoc d))) Finset.univ)
    (S256.rowMajor.symm (k.cast hn.symm))).toNat = _
  rw [rowMajor_symm_S256 (Fin.cast hn.symm k) k rfl]
  refine congrArg BitVec.toNat ((congrFun hI (ix1 k)).trans ?_)
  exact ((View.read_apply _ _).trans (cast_eq _ _)).trans (congrArg (m (tLoc d)) (emb_tBlk L (ix1 k)))

end Value

end Cert.Kernel.Hand

end
-- ==== Proof.HandKernel.Tile.lean ====
/-
  The gather task's body obligation: on vector subcore `s` of SparseCore `c`, from its read share of the feature table,
  block `2 s + c` of the two index lists and rows block `2 s + c` of the two taken tables, the task leaves those rows at
  the rows of the feature table its two index blocks name, and everything else as it was handed it.

  The two index blocks are copied to the two index scratches; each row scratch is filled by an indirect gather over its
  index scratch, and copied out to its rows block. The two gathers read the feature table at once: the task's read share
  is halved, one half lent to each, and put together again after their waits. Each of the six transfers has its own
  semaphore and no buffer is touched between a transfer's issue and its wait.
-/
import proofs.«215100_g16758962389080_cont_week2b_1182_23_alg».proof.Proof.HandKernel.TileB

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F]

local notation "fV" => (Memref.whole Cert.Kernel.main_arg0_scv : Memref Cert.Kernel.sig Kind.scVector Space.hbm Cert.Kernel.S100000x128 EltTy.f32)
local notation "sV" => (Memref.whole Cert.Kernel.main_arg1_scv : Memref Cert.Kernel.sig Kind.scVector Space.hbm Cert.Kernel.S8192 EltTy.i32)
local notation "tV" => (Memref.whole Cert.Kernel.main_arg2_scv : Memref Cert.Kernel.sig Kind.scVector Space.hbm Cert.Kernel.S8192 EltTy.i32)
local notation "aV" => (Memref.whole Cert.Kernel.main_v0_0_scv : Memref Cert.Kernel.sig Kind.scVector Space.hbm Cert.Kernel.S8192x128 EltTy.f32)
local notation "bV" => (Memref.whole Cert.Kernel.main_v0_1_scv : Memref Cert.Kernel.sig Kind.scVector Space.hbm Cert.Kernel.S8192x128 EltTy.f32)
local notation "i0V" => (Memref.whole Cert.Kernel.cc0_scratch0 : Memref Cert.Kernel.sig Kind.scVector Space.vmem Cert.Kernel.S256 EltTy.i32)
local notation "i1V" => (Memref.whole Cert.Kernel.cc0_scratch1 : Memref Cert.Kernel.sig Kind.scVector Space.vmem Cert.Kernel.S256 EltTy.i32)
local notation "r0V" => (Memref.whole Cert.Kernel.cc0_scratch2 : Memref Cert.Kernel.sig Kind.scVector Space.vmem Cert.Kernel.S256x128 EltTy.f32)
local notation "r1V" => (Memref.whole Cert.Kernel.cc0_scratch3 : Memref Cert.Kernel.sig Kind.scVector Space.vmem Cert.Kernel.S256x128 EltTy.f32)

section Tile

variable (m : (ℓ : Loc nD τ sig) → Buf (Elt F) ℓ) (d : Dev nD) (L : grid0.Coords)

theorem pts_i0 (f : Buf (Elt F) ((V d (cV L) (jV L)).loc cc0_scratch0)) :
    ((i0V).view.loc (V d (cV L) (jV L)) ↦{fullShare} f : sProp (𝕄' F)) = (V d (cV L) (jV L)).loc cc0_scratch0 ↦{fullShare} f := rfl
theorem pts_i1 (f : Buf (Elt F) ((V d (cV L) (jV L)).loc cc0_scratch1)) :
    ((i1V).view.loc (V d (cV L) (jV L)) ↦{fullShare} f : sProp (𝕄' F)) = (V d (cV L) (jV L)).loc cc0_scratch1 ↦{fullShare} f := rfl
theorem pts_r0 (f : Buf (Elt F) ((V d (cV L) (jV L)).loc cc0_scratch2)) :
    ((r0V).view.loc (V d (cV L) (jV L)) ↦{fullShare} f : sProp (𝕄' F)) = (V d (cV L) (jV L)).loc cc0_scratch2 ↦{fullShare} f := rfl
theorem pts_r1 (f : Buf (Elt F) ((V d (cV L) (jV L)).loc cc0_scratch3)) :
    ((r1V).view.loc (V d (cV L) (jV L)) ↦{fullShare} f : sProp (𝕄' F)) = (V d (cV L) (jV L)).loc cc0_scratch3 ↦{fullShare} f := rfl

omit [FloatOps F] in
theorem pts_univ_set {ℓ : Loc nD τ sig} (I : Finset (Idx ℓ)) (hI : I = Finset.univ) (q : PosShare TreeShare) (f : Buf (Elt F) ℓ) :
    (ℓ ↦{q} f : sProp (𝕄' F)) = ℓ ↦[I]{q} f := by rw [hI]

set_option maxHeartbeats 4000000 in
theorem tile_body (hpre : PreOK m) (O : CellTallies nD τ sig (HIx 1)) (W : Waits sig (HIx 1)) (hO : ∀ g, O g none = 0) :
    iprop(levAts (K (F := F)).L (K (F := F)).lev ∗ emp
        ∗ goPts m d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather2 L fV (Memref.isWhole_whole _) sV (Memref.isWhole_whole _) tV (Memref.isWhole_whole _) aV (Memref.isWhole_whole _)
            bV (Memref.isWhole_whole _) i0V (Memref.isWhole_whole _) i1V (Memref.isWhole_whole _) r0V (Memref.isWhole_whole _)
            r1V (Memref.isWhole_whole _) cc0_scratch4 cc0_scratch5 cc0_scratch6 cc0_scratch7 cc0_scratch8 cc0_scratch9)
          fun _ => iprop(tdPts m d (cL L) (sL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather2_eq_skeleton]; unfold cc0_gather2_skel
  rw [(K (F := F)).scopedBufs_V facts d (cV L) (jV L), SparseCore.Cfg.scopedSems0_V (Val := Elt F) d (cV L) (jV L), ownSems0_V, ownBufs_V]
  iintro ⟨#Hlv, -, ⟨Hf, Hs, Ht, Ha, Hb⟩, ⟨⟨%f0, Hi0⟩, ⟨%f1, Hi1⟩, ⟨%g0, Hr0⟩, ⟨%g1, Hr1⟩, Hbufs⟩, ⟨Hc4, Hc5, Hc6, Hc7, Hc8, Hc9, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs' := (Entails.of_eq (pts_sBlk (F := F) d L _).symm) $$ Hs
  ihave Ht' := (Entails.of_eq (pts_tBlk (F := F) d L _).symm) $$ Ht
  ihave Ha' := (Entails.of_eq (pts_aBlk (F := F) d L _).symm) $$ Ha
  ihave Hb' := (Entails.of_eq (pts_bBlk (F := F) d L _).symm) $$ Hb
  ihave Hf' := (Entails.of_eq (pts_fM (F := F) d L _ _).symm) $$ Hf
  ihave Hi0' := (Entails.of_eq (pts_i0 (F := F) d L _).symm) $$ Hi0
  ihave Hi1' := (Entails.of_eq (pts_i1 (F := F) d L _).symm) $$ Hi1
  ihave Hr0' := (Entails.of_eq (pts_r0 (F := F) d L _).symm) $$ Hr0
  ihave Hr1' := (Entails.of_eq (pts_r1 (F := F) d L _).symm) $$ Hr1
  sl_exec
  -- the read share of the feature table in two halves, one for each gather
  ihave Hfs := (pointsTo_share (PosShare.mem_left_op_right (tileSh (cL L) (sL L)))).1 $$ Hf'
  icases Hfs with ⟨HfA, HfB⟩
  ihave HfA' := (pointsTo_split_subset (q := (tileSh (cL L) (sL L)).left) (f := m (fLoc d)) (S := Finset.univ) (Finset.subset_univ (fAll).view.set)).1 $$ HfA
  icases HfA' with ⟨HfAs, HfAr⟩
  ihave HfB' := (pointsTo_split_subset (q := (tileSh (cL L) (sL L)).right) (f := m (fLoc d)) (S := Finset.univ) (Finset.subset_univ (fAll).view.set)).1 $$ HfB
  icases HfB' with ⟨HfBs, HfBr⟩
  have hr0 : (r0V).view.set = Finset.univ := View.set_whole _
  have hr1 : (r1V).view.set = Finset.univ := View.set_whole _
  have hi0 : (i0V).view.set = Finset.univ := View.set_whole _
  have hi1 : (i1V).view.set = Finset.univ := View.set_whole _
  have hN0 : ∀ h : S100000x128.Gathers 0 S256x128, ∑ j, ((r0V).slice (S256x128.rowRect h.axis' j) (S256x128.stride_rowRect h.axis' j)).view.dmaCredit
      = (r0V).view.dmaCredit := fun h => SparseCore.sum_rowCredit_eq_dmaCredit _ _ (fun _ => rfl)
  have hN1 : ∀ h : S100000x128.Gathers 0 S256x128, ∑ j, ((r1V).slice (S256x128.rowRect h.axis' j) (S256x128.stride_rowRect h.axis' j)).view.dmaCredit
      = (r1V).view.dmaCredit := fun h => SparseCore.sum_rowCredit_eq_dmaCredit _ _ (fun _ => rfl)
  -- THE FIRST GATHER, over the source index block
  ihave Hr0'' := (Entails.of_eq (pts_univ_set _ hr0 _ _)) $$ Hr0'
  ihave Hi0'' := (Entails.of_eq (pts_univ_set _ hi0 _ _)) $$ Hi0'
  iapply (SparseCore.wp_indirectGatherLocal countersEmb 𝒱₀ (V d (cV L) (jV L)) none (hg := gathers_S100000x128_S256x128) (default : HIx 1)
      (r0V).view.dmaCredit (hN0 _) h_S256x128 (inb_of_pre_s d L m hpre f0 _ rfl)) $$ [HfAs Hr0'' Hi0'' Hc6]
  · isplitl [HfAs]; · iexact HfAs
    isplitl [Hr0'']; · iexact Hr0''
    isplitl [Hi0'']; · iexact Hi0''
    iexact Hc6
  iintro Hfl0
  sl_exec
  -- THE SECOND GATHER, over the destination index block, the first still in flight
  ihave Hr1'' := (Entails.of_eq (pts_univ_set _ hr1 _ _)) $$ Hr1'
  ihave Hi1'' := (Entails.of_eq (pts_univ_set _ hi1 _ _)) $$ Hi1'
  iapply (SparseCore.wp_indirectGatherLocal countersEmb 𝒱₀ (V d (cV L) (jV L)) none (hg := gathers_S100000x128_S256x128) (default : HIx 1)
      (r1V).view.dmaCredit (hN1 _) h_S256x128 (inb_of_pre_t d L m hpre f1 _ rfl)) $$ [HfBs Hr1'' Hi1'' Hc7]
  · isplitl [HfBs]; · iexact HfBs
    isplitl [Hr1'']; · iexact Hr1''
    isplitl [Hi1'']; · iexact Hi1''
    iexact Hc7
  iintro Hfl1
  sl_exec
  -- the first gather's wait: its row scratch filled, its half of the read share and its index scratch back
  iapply (Transfers.wp_waitLocalO countersEmb 𝒱₀ (V d (cV L) (jV L)) none (default : HIx 1) (rfl : (r0V).view.dmaCredit = _)) $$ [Hfl0 HO]
  · isplitl [Hfl0]; · iexact Hfl0
    isplitl [HO]; · iexact HO
    iapply (Transfers.MayWaits.elim (SemLoc.dma cc0_scratch6.sem)) $$ Hmw
  iintro ⟨⟨Hr0', HfAs, Hi0'⟩, Hc6, HO⟩
  ihave Hr0' := (Entails.of_eq (pts_univ_set _ hr0 _ _).symm) $$ Hr0'
  ihave Hi0' := (Entails.of_eq (pts_univ_set _ hi0 _ _).symm) $$ Hi0'
  sl_exec
  -- the second gather's wait
  iapply (Transfers.wp_waitLocalO countersEmb 𝒱₀ (V d (cV L) (jV L)) none (default : HIx 1) (rfl : (r1V).view.dmaCredit = _)) $$ [Hfl1 HO]
  · isplitl [Hfl1]; · iexact Hfl1
    isplitl [HO]; · iexact HO
    iapply (Transfers.MayWaits.elim (SemLoc.dma cc0_scratch7.sem)) $$ Hmw
  iintro ⟨⟨Hr1', HfBs, Hi1'⟩, Hc7, HO⟩
  ihave Hr1' := (Entails.of_eq (pts_univ_set _ hr1 _ _).symm) $$ Hr1'
  ihave Hi1' := (Entails.of_eq (pts_univ_set _ hi1 _ _).symm) $$ Hi1'
  -- the read share whole again
  ihave HfA := (pointsTo_split_subset (q := (tileSh (cL L) (sL L)).left) (f := m (fLoc d)) (S := Finset.univ) (Finset.subset_univ (fAll).view.set)).2 $$ [HfAs HfAr]
  · isplitl [HfAs] <;> iassumption
  ihave HfB := (pointsTo_split_subset (q := (tileSh (cL L) (sL L)).right) (f := m (fLoc d)) (S := Finset.univ) (Finset.subset_univ (fAll).view.set)).2 $$ [HfBs HfBr]
  · isplitl [HfBs] <;> iassumption
  ihave Hf := (pointsTo_share (PosShare.mem_left_op_right (tileSh (cL L) (sL L)))).2 $$ [HfA HfB]
  · isplitl [HfA] <;> iassumption
  sl_exec
  sl_step
  isplitl [Hf Hs' Ht' Ha' Hb']
  · isplitl [Hf]; · iexact Hf
    isplitl [Hs']; · iapply (Entails.of_eq (pts_sBlk (F := F) d L _)); iexact Hs'
    isplitl [Ht']; · iapply (Entails.of_eq (pts_tBlk (F := F) d L _)); iexact Ht'
    -- the rows copied out are the rows the index blocks name
    isplitl [Ha']
    · iapply (Entails.of_eq (pts_aBlk (F := F) d L _))
      iapply (Entails.of_eq (pointsTo_congr (taken_a d L m hpre f0 g0 _ _ _ rfl)))
      iexact Ha'
    · iapply (Entails.of_eq (pts_bBlk (F := F) d L _))
      iapply (Entails.of_eq (pointsTo_congr (taken_b d L m hpre f1 g1 _ _ _ rfl)))
      iexact Hb'
  isplitl [Hi0' Hi1' Hr0' Hr1' Hbufs]
  · isplitl [Hi0']; · iexists _; iexact Hi0'
    isplitl [Hi1']; · iexists _; iexact Hi1'
    isplitl [Hr0']; · iexists _; iexact Hr0'
    isplitl [Hr1']; · iexists _; iexact Hr1'
    iexact Hbufs
  isplitl [Hc4 Hc5 Hc6 Hc7 Hc8 Hc9 Hsems]
  · isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather2 (coordsV c s)
          fV (Memref.isWhole_whole _) sV (Memref.isWhole_whole _) tV (Memref.isWhole_whole _) aV (Memref.isWhole_whole _)
          bV (Memref.isWhole_whole _) i0V (Memref.isWhole_whole _) i1V (Memref.isWhole_whole _) r0V (Memref.isWhole_whole _)
          r1V (Memref.isWhole_whole _) cc0_scratch4 cc0_scratch5 cc0_scratch6 cc0_scratch7 cc0_scratch8 cc0_scratch9) ⟨⟩ c s := rfl

omit [FloatOps F] in
theorem obl_post {thr : Thread nD τ} {A B C : sProp (𝕄' F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hpre O W hO).trans (wp_mono frame _ _ fun _ => obl_post)

end Tile

end Cert.Kernel.Hand

end
-- ==== Proof.HandKernel.Run.lean ====
/-
  The program's run, by the launch theorem for SparseCore programs: the gather task's obligation, how a SparseCore's
  operands split among its sixteen tasks, @main on the TensorCore, the launch element and the final reading. From the
  index lists in range: every weakly fair execution terminates, the five arguments are as launched and the result
  buffer is what the TensorCore region's 32 points wrote.
-/
import proofs.«215100_g16758962389080_cont_week2b_1182_23_alg».proof.Proof.HandKernel.Main
import proofs.«215100_g16758962389080_cont_week2b_1182_23_alg».proof.Proof.HandKernel.LaunchElem
import proofs.«215100_g16758962389080_cont_week2b_1182_23_alg».proof.Proof.HandKernel.Tile

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay tileRest ownBufs ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

variable (ρ : Dev nD → PrngReg)

theorem run_main [∀ e, Nonempty (Elt F e)] (hpre : PreOK m) :
    θ_run (Cert.Kernel.defs (F := F)) (Cert.Kernel.threads (F := F)) ⟨m, fun _ => 0, ρ⟩ (fun r => ∀ c : Dev nD,
      r.2.mem ((c.tc : Thread nD τ).loc main_v1) = outT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => SparseCore.Cfg.VecSplit.of_plain (vecSplit m))
    m ρ main (fun d => Gd d) (FIN m) (u₀ (F := F)) (sep_elim_left.trans (hu₀ m)) (hmain m ρ) (fq m) (hfin m) (QC m) (hQ m)

end Cert.Kernel.Hand

end
-- ==== Proof.Claims.lean ====
/-
  The five claims, assembled.

  The kernel program (word-level and ideal) runs under the precondition because the precondition bounds every index
  word below the number of table rows, which is all its run asks of the launch memory; its run leaves the five
  arguments as they were, and so does the reference program's.  The ideal program is the word-level program's own text,
  so nothing was rewritten between them.  At the ideal values the kernel's result array is the specification's function
  of its five arguments, and the reference's result is the same function of its own arguments once the index words are
  in range; from memories that agree on the arguments the two results are therefore equal.
-/
import proofs.«215100_g16758962389080_cont_week2b_1182_23_alg».proof.Defs
import proofs.«215100_g16758962389080_cont_week2b_1182_23_alg».proof.Proof.Gen.Kernel
import proofs.«215100_g16758962389080_cont_week2b_1182_23_alg».proof.Proof.Gen.KernelIdeal
import proofs.«215100_g16758962389080_cont_week2b_1182_23_alg».proof.Proof.Gen.ReferenceIdeal
import proofs.«215100_g16758962389080_cont_week2b_1182_23_alg».proof.Proof.Gen.Pre_input_domain
import proofs.«215100_g16758962389080_cont_week2b_1182_23_alg».proof.Proof.PreFacts
import proofs.«215100_g16758962389080_cont_week2b_1182_23_alg».proof.Proof.RefRun
import proofs.«215100_g16758962389080_cont_week2b_1182_23_alg».proof.Proof.RefValue
import proofs.«215100_g16758962389080_cont_week2b_1182_23_alg».proof.Proof.TcValue
import proofs.«215100_g16758962389080_cont_week2b_1182_23_alg».proof.Proof.HandKernelIdeal.Run
import proofs.«215100_g16758962389080_cont_week2b_1182_23_alg».proof.Proof.HandKernel.Run
import Idealize.ShloMosaic.Lib.ValueIdx

noncomputable section

namespace Cert.Proof.Claims

open Idealize.ShloMosaic Idealize.ShloMosaic.TcCoe Idealize.SL.Sem Idealize.ShloMosaic.ValueIdx

/-! ## The precondition gives the index ranges the kernel's run asks for -/

/-- Under the precondition every word of both index lists of the ideal program's launch memory is below 100000. -/
theorem ok_of_pre_ideal (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) : Cert.KernelIdeal.Hand.PreOK m := by
  intro d j
  obtain ⟨h1, h2⟩ := Cert.PreFacts.idx_lt_of_pre (F := Ideal) _ _ _ _ _ (hpre d)
  obtain ⟨r, rfl⟩ : ∃ r : Fin 8192, j = ix1 r := ⟨j 0, eq_ix1 j⟩
  exact ⟨h1 r, h2 r⟩

/-- The same of the word-level program's launch memory. -/
theorem ok_of_pre_bits (m : (ℓ : Loc Cert.Kernel.nD Cert.Kernel.τ Cert.Kernel.sig) → Buf (Elt Bits) ℓ)
    (hpre : Cert.Pre_Kernel (hPre_input_domain := Cert.Pre_input_domain.Gen.facts) m) : Cert.Kernel.Hand.PreOK m := by
  intro d j
  obtain ⟨h1, h2⟩ := Cert.PreFacts.idx_lt_of_pre (F := Bits) _ _ _ _ _ (hpre d)
  obtain ⟨r, rfl⟩ : ∃ r : Fin 8192, j = ix1 r := ⟨j 0, eq_ix1 j⟩
  exact ⟨h1 r, h2 r⟩

/-! ## The three programs run and leave their arguments as they were -/

theorem frame_k : Cert.frame_Kernel (hKernel := Cert.Kernel.Gen.facts) (hPre_input_domain := Cert.Pre_input_domain.Gen.facts) :=
  fun m ρ hpre => (θ_run _ _ _).mono (fun _ h c => (h c).2)
    (Cert.Kernel.Hand.run_main (F := Bits) m ρ (ok_of_pre_bits m hpre))

theorem frame_ki : Cert.frame_KernelIdeal (hKernelIdeal := Cert.KernelIdeal.Gen.facts) (hPre_input_domain := Cert.Pre_input_domain.Gen.facts) :=
  fun m ρ hpre => (θ_run _ _ _).mono (fun _ h c => (h c).2)
    (Cert.KernelIdeal.Hand.run_main (F := Ideal) m ρ (ok_of_pre_ideal m hpre))

theorem frame_ri : Cert.frame_ReferenceIdeal (hReferenceIdeal := Cert.ReferenceIdeal.Gen.facts) (hPre_input_domain := Cert.Pre_input_domain.Gen.facts) :=
  fun m ρ _ => (θ_run _ _ _).mono (fun _ h c => (h c).2) (Cert.ReferenceIdeal.RefRun.run (F := Ideal) m ρ)

/-! ## The ideal program is the word-level program's own text -/

theorem preserves : Cert.preserves_Kernel_KernelIdeal := trivial

/-! ## Both ideal programs compute the specification -/

/-- From memories agreeing on the five arguments both programs run, leave the arguments as they were, and end with the
    same result: the kernel's result array is the specification's function of its arguments, the reference's result is
    the same function of its own arguments (the index words are in range), and the arguments agree. -/
theorem algebraic : Cert.algebraic_KernelIdeal_ReferenceIdeal (hKernelIdeal := Cert.KernelIdeal.Gen.facts) (hReferenceIdeal := Cert.ReferenceIdeal.Gen.facts) (hPre_input_domain := Cert.Pre_input_domain.Gen.facts) := by
  intro m ρ m' ρ' hpre hagree
  have hok := ok_of_pre_ideal m hpre
  refine ⟨fun c => Cert.KernelIdeal.Hand.outT m c, Cert.KernelIdeal.Hand.run_main (F := Ideal) m ρ hok, ?_⟩
  refine (θ_run _ _ _).mono (fun r h c => ?_) (Cert.ReferenceIdeal.RefRun.run (F := Ideal) m' ρ')
  obtain ⟨hv, ha⟩ := h c
  refine ⟨hv.trans ?_, ha⟩
  obtain ⟨e0, e1, e2, e3, e4⟩ := hagree c
  rw [e0, e1, e2, e3, e4]
  rw [Cert.ReferenceIdeal.RefValue.refTerm_eq_G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (fun r => (hok c (ix1 r)).1) (fun r => (hok c (ix1 r)).2)]
  exact (Cert.KernelIdeal.HandValue.final_v1 m c).symm

/-! ## Everything claimed -/

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof.Claims

end
-- ==== Proof.lean ====
/-
  The certificate of the kernel against its reference: a lookup of two lists of rows of a feature table, a mixing of
  the source rows by a dense matrix, and one dense layer with a rectifier over the mixed source rows and the
  destination rows side by side.

  The kernel takes the rows on the SparseCores — thirty-two gather tasks, each copying 256 entries of both index lists
  into its own memory, gathering the rows they name and copying them out — and computes the rest on the TensorCore, 256
  result rows at a grid point: the mixing as four partial products over the column quarters of the matrix, the layer as
  two products over the halves of the weights. The reference takes the rows by `take` (whose wrap, validity mask and
  fill are the identity for indices in range), mixes by one product, concatenates, and applies the layer as one product.
  Over the extended reals both are, entry by entry,

      max ( Σ_{k<128} ( Σ_{l<8192} dif[r,l] · f[src l, k] ) · w[k,j]  +  Σ_{k<128} f[dst r, k] · w[128+k, j] ,  0 ),

  the two sides differing only in how the sums are grouped; addition of extended reals is commutative and associative,
  so no finiteness is used. The precondition's index ranges are used twice: they make every gather name a row that
  exists, and they make the reference's mask all true.

  The five claims are assembled in Proof/Claims.lean from: the kernel program's run at both float instances
  (Proof/HandKernelIdeal/, Proof/HandKernel/), the value of the TensorCore region's result (Proof/TcMath.lean,
  Proof/TcValue.lean), the reference's run and value (Proof/RefRun.lean, Proof/RefValue*.lean), the index ranges out
  of the precondition (Proof/PreFacts.lean), against the one specification Proof/Spec.lean.
-/
import proofs.«215100_g16758962389080_cont_week2b_1182_23_alg».proof.Proof.Claims

noncomputable section

namespace Cert.Proof

theorem claim : Cert.Claim := Cert.Proof.Claims.claim

end Cert.Proof

end
